-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v50_1)) (v1 : (c : Dev Cert.KernelIdeal.nD) → Buf (Elt Ideal) ((c.tc : Thread Cert.KernelIdeal.nD Cert.KernelIdeal.τ).loc Cert.KernelIdeal.main_v50_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_1) = v0 c
          ∧ r.2.mem ((c.tc : Thread Cert.KernelIdeal.nD Cert.KernelIdeal.τ).loc Cert.KernelIdeal.main_v50_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S100000x128 : Shape := ⟨2, ![100000, 128]⟩
abbrev S2x1600000 : Shape := ⟨2, ![2, 1600000]⟩
abbrev S64x128 : Shape := ⟨2, ![64, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100000x128 : S_.BroadcastsInDim S100000x128 (![] : Fin 0 → Fin S100000x128.rank)
  reducesTo_S100000x128_S_d0_1 : S100000x128.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S128 .f32) (main_arg16 : FVec F S128x64 .f32) (main_arg17 : FVec F S64 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg16
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg12 : FVec F S256x128 .f32) (main_arg13 : FVec F S128 .f32) (main_arg14 : FVec F S256x128 .f32) (main_arg15 : FVec F S128 .f32) (main_arg16 : FVec F S128x64 .f32) (main_arg17 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256x128 .f32 := Host.absf main_arg12
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256x128 .f32 := Host.absf main_arg14
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg15 main_arg16 main_arg17 main_v63 main_v67

def fn_part2 {F : FTy → Type} [FloatOps F] (main_arg8 : FVec F S64x128 .f32) (main_arg9 : FVec F S128 .f32) (main_arg10 : FVec F S256x128 .f32) (main_arg11 : FVec F S128 .f32) (main_arg12 : FVec F S256x128 .f32) (main_arg13 : FVec F S128 .f32) (main_arg14 : FVec F S256x128 .f32) (main_arg15 : FVec F S128 .f32) (main_arg16 : FVec F S128x64 .f32) (main_arg17 : FVec F S64 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S64x128 .f32) (main_arg7 : FVec F S128 .f32) (main_arg8 : FVec F S64x128 .f32) (main_arg9 : FVec F S128 .f32) (main_arg10 : FVec F S256x128 .f32) (main_arg11 : FVec F S128 .f32) (main_arg12 : FVec F S256x128 .f32) (main_arg13 : FVec F S128 .f32) (main_arg14 : FVec F S256x128 .f32) (main_arg15 : FVec F S128 .f32) (main_arg16 : FVec F S128x64 .f32) (main_arg17 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x64 .f32) (main_arg1 : FVec F S1600000 .f32) (main_arg2 : FVec F S100000x128 .f32) (main_arg3 : IVec S2x1600000 32) (main_arg4 : FVec F S64x128 .f32) (main_arg5 : FVec F S128 .f32) (main_arg6 : FVec F S64x128 .f32) (main_arg7 : FVec F S128 .f32) (main_arg8 : FVec F S64x128 .f32) (main_arg9 : FVec F S128 .f32) (main_arg10 : FVec F S256x128 .f32) (main_arg11 : FVec F S128 .f32) (main_arg12 : FVec F S256x128 .f32) (main_arg13 : FVec F S128 .f32) (main_arg14 : FVec F S256x128 .f32) (main_arg15 : FVec F S128 .f32) (main_arg16 : FVec F S128x64 .f32) (main_arg17 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S1600000 : Shape := ⟨1, ![1600000]⟩
abbrev S100000x128 : Shape := ⟨2, ![100000, 128]⟩
abbrev S2x1600000 : Shape := ⟨2, ![2, 1600000]⟩
abbrev S64x128 : Shape := ⟨2, ![64, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S64x384 : Shape := ⟨2, ![64, 384]⟩
abbrev S384 : Shape := ⟨1, ![384]⟩
abbrev S4000x64 : Shape := ⟨2, ![4000, 64]⟩
abbrev S4000x128 : Shape := ⟨2, ![4000, 128]⟩
abbrev S4000x384 : Shape := ⟨2, ![4000, 384]⟩
abbrev S1x384 : Shape := ⟨2, ![1, 384]⟩
abbrev S4000x256 : Shape := ⟨2, ![4000, 256]⟩
abbrev S1x128 : Shape := ⟨2, ![1, 128]⟩
abbrev S1x64 : Shape := ⟨2, ![1, 64]⟩

abbrev nBuf : Space → Nat
  | .hbm => 83
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S100000x128, .f32⟩
  | .hbm, ⟨3, _⟩ => ⟨S2x1600000, .i32⟩
  | .hbm, ⟨4, _⟩ => ⟨S64x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S64x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S256x128, .f32⟩
  | .hbm, ⟨13, _⟩ => ⟨S128, .f32⟩
  | .hbm, ⟨14, _⟩ => ⟨S256x128, .f32⟩
  | .hbm, ⟨15, _⟩ => ⟨S128, .f32⟩
  | .hbm, ⟨16, _⟩ => ⟨S128x64, .f32⟩
  | .hbm, ⟨17, _⟩ => ⟨S64, .f32⟩
  | .hbm, ⟨18, _⟩ => ⟨S1x1600000, .i32⟩
  | .hbm, ⟨19, _⟩ => ⟨S1600000, .i32⟩
  | .hbm, ⟨20, _⟩ => ⟨S100000, .i32⟩
  | .hbm, ⟨21, _⟩ => ⟨S1700000, .i32⟩
  | .hbm, ⟨22, _⟩ => ⟨S1x1600000, .i32⟩
  | .hbm, ⟨23, _⟩ => ⟨S1600000, .i32⟩
  | .hbm, ⟨24, _⟩ => ⟨S100000, .i32⟩
  | .hbm, ⟨25, _⟩ => ⟨S1700000, .i32⟩
  | .hbm, ⟨26, _⟩ => ⟨S_, .f32⟩
  | .hbm, ⟨27, _⟩ => ⟨S100000, .f32⟩
  | .hbm, ⟨28, _⟩ => ⟨S1700000, .f32⟩
  | .hbm, ⟨29, _⟩ => ⟨S_, .f32⟩
  | .hbm, ⟨30, _⟩ => ⟨S100000, .f32⟩
  | .hbm, ⟨31, _⟩ => ⟨S1700000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .i1⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000, .f32⟩
  | .hbm, ⟨60, _⟩ => ⟨S1700000, .f32⟩
  | .hbm, ⟨61, _⟩ => ⟨S100000x64, .bf16⟩
  | .hbm, ⟨62, _⟩ => ⟨S1700000x1, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x64, .bf16⟩
  | .hbm, ⟨72, _⟩ => ⟨S1700000x64, .f32⟩
  | .hbm, ⟨73, _⟩ => ⟨S1700000x64, .f32⟩
  | .hbm, ⟨74, _⟩ => ⟨S1700000x64, .f32⟩
  | .hbm, ⟨75, _⟩ => ⟨S_, .f32⟩
  | .hbm, ⟨76, _⟩ => ⟨S100000x64, .f32⟩
  | .hbm, ⟨77, _⟩ => ⟨S1700000x1, .i32⟩
  | .hbm, ⟨78, _⟩ => ⟨S100000x64, .f32⟩
  | .hbm, ⟨79, _⟩ => ⟨S64x384, .f32⟩
  | .hbm, ⟨80, _⟩ => ⟨S384, .f32⟩
  | .hbm, ⟨81, _⟩ => ⟨S100000x128, .f32⟩
  | .hbm, ⟨82, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x128, .f32⟩
  | .local _ .vmem, ⟨3, _⟩ => ⟨S4000x128, .f32⟩
  | .local _ .vmem, ⟨4, _⟩ => ⟨S64x384, .f32⟩
  | .local _ .vmem, ⟨5, _⟩ => ⟨S384, .f32⟩
  | .local _ .vmem, ⟨6, _⟩ => ⟨S256x128, .f32⟩
  | .local _ .vmem, ⟨7, _⟩ => ⟨S128, .f32⟩
  | .local _ .vmem, ⟨8, _⟩ => ⟨S256x128, .f32⟩
  | .local _ .vmem, ⟨9, _⟩ => ⟨S128, .f32⟩
  | .local _ .vmem, ⟨10, _⟩ => ⟨S256x128, .f32⟩
  | .local _ .vmem, ⟨11, _⟩ => ⟨S128, .f32⟩
  | .local _ .vmem, ⟨12, _⟩ => ⟨S128x64, .f32⟩
  | .local _ .vmem, ⟨13, _⟩ => ⟨S64, .f32⟩
  | .local _ .vmem, ⟨14, _⟩ => ⟨S4000x128, .f32⟩
  | .local _ .vmem, ⟨15, _⟩ => ⟨S4000x128, .f32⟩
  | .local _ .vmem, ⟨16, _⟩ => ⟨S4000x64, .f32⟩
  | .local _ .vmem, ⟨17, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v16 : Ref sig .tc := ⟨.hbm, 40, rfl⟩
abbrev main_c : Ref sig .tc := ⟨.hbm, 41, rfl⟩
abbrev main_v17 : Ref sig .tc := ⟨.hbm, 42, rfl⟩
abbrev main_v18 : Ref sig .tc := ⟨.hbm, 43, rfl⟩
abbrev main_c_3 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_4 : Ref sig .tc := ⟨.hbm, 51, rfl⟩
abbrev main_v25 : Ref sig .tc := ⟨.hbm, 52, rfl⟩
abbrev main_v26 : Ref sig .tc := ⟨.hbm, 53, rfl⟩
abbrev main_c_5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_6 : Ref sig .tc := ⟨.hbm, 63, rfl⟩
abbrev main_v35 : Ref sig .tc := ⟨.hbm, 64, rfl⟩
abbrev main_v36 : Ref sig .tc := ⟨.hbm, 65, rfl⟩
abbrev main_c_7 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_8 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50_0 : Ref sig .tc := ⟨.hbm, 81, rfl⟩
abbrev main_v50_1 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4000x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bitsLt_bf16_f32 : FTy.bits .bf16 < FTy.bits .f32
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  concatenates_S64x128_S64x128_S64x128_S64x384_d1 : Shape.Concatenates [S64x128, S64x128, S64x128] S64x384 1
  concatenates_S128_S128_S128_S384_d0 : Shape.Concatenates [S128, S128, S128] S384 0
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x128_S4000x128_0_0 : ∀ a, (![0, 0] : Fin 2 → Nat) a + S4000x128.size a ≤ S4000x128.size a
  h_S4000x128 : 0 < S4000x128.numel
  inb_S64x384_S64x384_0_0 : ∀ a, (![0, 0] : Fin 2 → Nat) a + S64x384.size a ≤ S64x384.size a
  h_S64x384 : 0 < S64x384.numel
  shapeCasts_S64x384_S64x384 : S64x384.ShapeCasts S64x384
  inb_S384_S384_0 : ∀ a, (![0] : Fin 1 → Nat) a + S384.size a ≤ S384.size a
  h_S384 : 0 < S384.numel
  shapeCasts_S384_S384 : S384.ShapeCasts S384
  shapeCasts_S384_S1x384 : S384.ShapeCasts S1x384
  broadcasts_S1x384_S4000x384 : S1x384.Broadcasts S4000x384
  slices_S4000x384_o0_0_S4000x128 : S4000x384.Slices ![0, 0] S4000x128
  slices_S4000x384_o0_128_S4000x128 : S4000x384.Slices ![0, 128] S4000x128
  slices_S4000x384_o0_256_S4000x128 : S4000x384.Slices ![0, 256] S4000x128
  concatenates_S4000x128_S4000x128_S4000x256_d1 : Shape.Concatenates [S4000x128, S4000x128] S4000x256 1
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4000x64_S64x384_S4000x384_1_0_0_1_n_n_wf : DotDims.WF S4000x64 S64x384 S4000x384 [1] [0] [0] [1] [] []
  dot_S4000x256_S256x128_S4000x128_1_0_0_1_n_n_wf : DotDims.WF S4000x256 S256x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x384.size a ≤ S64x384.size a
  hwx0_2 : ∀ i : grid0.Coords, EltTy.bits .f32 = 32 ∨ (Rect.block (s := S64x384) S64x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384.size a ≤ S384.size a
  hwx0_3 : ∀ i : grid0.Coords, EltTy.bits .f32 = 32 ∨ (Rect.block (s := S384) S384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .f32 = 32 ∨ (Rect.block (s := S256x128) S256x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x64.size a ≤ S128x64.size a
  hwx0_10 : ∀ i : grid0.Coords, EltTy.bits .f32 = 32 ∨ (Rect.block (s := S128x64) S128x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x128.size a ≤ S100000x128.size a
  hwx0_12 : ∀ i : grid0.Coords, EltTy.bits .f32 = 32 ∨ (Rect.block (s := S100000x128) S4000x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x64.size a ≤ S100000x64.size a
  hwx0_13 : ∀ i : grid0.Coords, EltTy.bits .f32 = 32 ∨ (Rect.block (s := S100000x64) S4000x64.size (cc0_transform_13 i) (hinb0_13 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4000x64_S64x384_S4000x384_1_0_0_1_n_n : DotDims S4000x64 S64x384 S4000x384 where
  lhsContracting := [1]
  rhsContracting := [0]
  lhsNonContracting := [0]
  rhsNonContracting := [1]
  lhsBatch := []
  rhsBatch := []
  wf := dot_S4000x64_S64x384_S4000x384_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v47) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S64x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v49) S384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg13) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg14) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg15) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg16) S128x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg17) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v50_0) S4000x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v50_1) S4000x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S100000x128 : Shape := ⟨2, ![100000, 128]⟩
abbrev S2x1600000 : Shape := ⟨2, ![2, 1600000]⟩
abbrev S64x128 : Shape := ⟨2, ![64, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x256 : Shape := ⟨2, ![100000, 256]⟩
abbrev S1x64 : Shape := ⟨2, ![1, 64]⟩

abbrev nBuf : Space → Nat
  | .hbm => 230
  | .vmem => 0
  | .smem => 0
  | _ => 0

abbrev hbmTy0_0 (i : Nat) : BufTy := match i % 128 with
  | 0 => ⟨S100000x64, .f32⟩
  | 1 => ⟨S1600000, .f32⟩
  | 2 => ⟨S100000x128, .f32⟩
  | 3 => ⟨S2x1600000, .i32⟩
  | 4 => ⟨S64x128, .f32⟩
  | 5 => ⟨S128, .f32⟩
  | 6 => ⟨S64x128, .f32⟩
  | 7 => ⟨S128, .f32⟩
  | 8 => ⟨S64x128, .f32⟩
  | 9 => ⟨S128, .f32⟩
  | 10 => ⟨S256x128, .f32⟩
  | 11 => ⟨S128, .f32⟩
  | 12 => ⟨S256x128, .f32⟩
  | 13 => ⟨S128, .f32⟩
  | 14 => ⟨S256x128, .f32⟩
  | 15 => ⟨S128, .f32⟩
  | 16 => ⟨S128x64, .f32⟩
  | 17 => ⟨S64, .f32⟩
  | 18 => ⟨S100000, .i32⟩
  | 19 => ⟨S1x1600000, .i32⟩
  | 20 => ⟨S1600000, .i32⟩
  | 21 => ⟨S1700000, .i32⟩
  | 22 => ⟨S1x1600000, .i32⟩
  | 23 => ⟨S1600000, .i32⟩
  | 24 => ⟨S1700000, .i32⟩
  | 25 => ⟨S_, .f32⟩
  | 26 => ⟨S100000, .f32⟩
  | 27 => ⟨S1700000, .f32⟩
  | 28 => ⟨S100000x128, .f32⟩
  | 29 => ⟨S_, .f32⟩
  | 30 => ⟨S100000, .f32⟩
  | 31 => ⟨S1700000x1, .i32⟩
  | 32 => ⟨S100000, .f32⟩
  | 33 => ⟨S_, .f32⟩
  | 34 => ⟨S100000, .f32⟩
  | 35 => ⟨S100000, .i1⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000, .f32⟩
  | 60 => ⟨S1700000, .f32⟩
  | 61 => ⟨S1700000x1, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x128, .f32⟩
  | 71 => ⟨S1700000x128, .f32⟩
  | 72 => ⟨S1700000x128, .f32⟩
  | 73 => ⟨S_, .f32⟩
  | 74 => ⟨S100000x128, .f32⟩
  | 75 => ⟨S1700000x1, .i32⟩
  | 76 => ⟨S100000x128, .f32⟩
  | 77 => ⟨S1x128, .f32⟩
  | 78 => ⟨S100000x128, .f32⟩
  | 79 => ⟨S100000x128, .f32⟩
  | 80 => ⟨S100000x256, .f32⟩
  | 81 => ⟨S100000x128, .f32⟩
  | 82 => ⟨S1x128, .f32⟩
  | 83 => ⟨S100000x128, .f32⟩
  | 84 => ⟨S100000x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S100000x128, .f32⟩
  | 94 => ⟨S_, .f32⟩
  | 95 => ⟨S100000, .f32⟩
  | 96 => ⟨S1700000x1, .i32⟩
  | 97 => ⟨S100000, .f32⟩
  | 98 => ⟨S_, .f32⟩
  | 99 => ⟨S100000, .f32⟩
  | 100 => ⟨S100000, .i1⟩
  | 101 => ⟨S100000, .f32⟩
  | 102 => ⟨S_, .f32⟩
  | 103 => ⟨S_, .f32⟩
  | 104 => ⟨S100000, .f32⟩
  | 105 => ⟨S100000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000, .f32⟩
  | 115 => ⟨S1700000, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000, .f32⟩
  | 125 => ⟨S1700000, .f32⟩
  | 126 => ⟨S1700000x1, .f32⟩
  | 127 => ⟨S_, .i32⟩
  | _ => ⟨S100000x64, .f32⟩

abbrev hbmTy0_1 (i : Nat) : BufTy := match i % 128 with
  | 0 => ⟨S1700000, .i32⟩
  | 1 => ⟨S1700000, .i1⟩
  | 2 => ⟨S_, .i32⟩
  | 3 => ⟨S1700000, .i32⟩
  | 4 => ⟨S1700000, .i32⟩
  | 5 => ⟨S1700000, .i32⟩
  | 6 => ⟨S1700000x1, .i32⟩
  | 7 => ⟨S1700000x128, .f32⟩
  | 8 => ⟨S1700000x128, .f32⟩
  | 9 => ⟨S1700000x128, .f32⟩
  | 10 => ⟨S_, .f32⟩
  | 11 => ⟨S100000x128, .f32⟩
  | 12 => ⟨S1700000x1, .i32⟩
  | 13 => ⟨S100000x128, .f32⟩
  | 14 => ⟨S1x128, .f32⟩
  | 15 => ⟨S100000x128, .f32⟩
  | 16 => ⟨S100000x128, .f32⟩
  | 17 => ⟨S100000x256, .f32⟩
  | 18 => ⟨S100000x128, .f32⟩
  | 19 => ⟨S1x128, .f32⟩
  | 20 => ⟨S100000x128, .f32⟩
  | 21 => ⟨S100000x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S100000x128, .f32⟩
  | 31 => ⟨S_, .f32⟩
  | 32 => ⟨S100000, .f32⟩
  | 33 => ⟨S1700000x1, .i32⟩
  | 34 => ⟨S100000, .f32⟩
  | 35 => ⟨S_, .f32⟩
  | 36 => ⟨S100000, .f32⟩
  | 37 => ⟨S100000, .i1⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000, .f32⟩
  | 62 => ⟨S1700000, .f32⟩
  | 63 => ⟨S1700000x1, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1700000x128, .f32⟩
  | 73 => ⟨S1700000x128, .f32⟩
  | 74 => ⟨S1700000x128, .f32⟩
  | 75 => ⟨S_, .f32⟩
  | 76 => ⟨S100000x128, .f32⟩
  | 77 => ⟨S1700000x1, .i32⟩
  | 78 => ⟨S100000x128, .f32⟩
  | 79 => ⟨S1x128, .f32⟩
  | 80 => ⟨S100000x128, .f32⟩
  | 81 => ⟨S100000x128, .f32⟩
  | 82 => ⟨S100000x128, .f32⟩
  | 83 => ⟨S100000x256, .f32⟩
  | 84 => ⟨S100000x128, .f32⟩
  | 85 => ⟨S1x128, .f32⟩
  | 86 => ⟨S100000x128, .f32⟩
  | 87 => ⟨S100000x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S100000x64, .f32⟩
  | 99 => ⟨S1x64, .f32⟩
  | 100 => ⟨S100000x64, .f32⟩
  | 101 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v16 : Ref sig .tc := ⟨.hbm, 40, rfl⟩
abbrev main_c : Ref sig .tc := ⟨.hbm, 41, rfl⟩
abbrev main_v17 : Ref sig .tc := ⟨.hbm, 42, rfl⟩
abbrev main_v18 : Ref sig .tc := ⟨.hbm, 43, rfl⟩
abbrev main_c_3 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_4 : Ref sig .tc := ⟨.hbm, 51, rfl⟩
abbrev main_v25 : Ref sig .tc := ⟨.hbm, 52, rfl⟩
abbrev main_v26 : Ref sig .tc := ⟨.hbm, 53, rfl⟩
abbrev main_c_5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_6 : Ref sig .tc := ⟨.hbm, 62, rfl⟩
abbrev main_v34 : Ref sig .tc := ⟨.hbm, 63, rfl⟩
abbrev main_v35 : Ref sig .tc := ⟨.hbm, 64, rfl⟩
abbrev main_c_7 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_11 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_12 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_13 : Ref sig .tc := ⟨.hbm, 102, rfl⟩
abbrev main_call1_v0 : Ref sig .tc := ⟨.hbm, 103, rfl⟩
abbrev main_call1_v1 : Ref sig .tc := ⟨.hbm, 104, rfl⟩
abbrev main_v67 : Ref sig .tc := ⟨.hbm, 105, rfl⟩
abbrev main_c_14 : Ref sig .tc := ⟨.hbm, 106, rfl⟩
abbrev main_v68 : Ref sig .tc := ⟨.hbm, 107, rfl⟩
abbrev main_v69 : Ref sig .tc := ⟨.hbm, 108, rfl⟩
abbrev main_c_15 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_c_16 : Ref sig .tc := ⟨.hbm, 116, rfl⟩
abbrev main_v76 : Ref sig .tc := ⟨.hbm, 117, rfl⟩
abbrev main_v77 : Ref sig .tc := ⟨.hbm, 118, rfl⟩
abbrev main_c_17 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_c_18 : Ref sig .tc := ⟨.hbm, 127, rfl⟩
abbrev main_v85 : Ref sig .tc := ⟨.hbm, 128, rfl⟩
abbrev main_v86 : Ref sig .tc := ⟨.hbm, 129, rfl⟩
abbrev main_c_19 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_20 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_21 : Ref sig .tc := ⟨.hbm, 152, rfl⟩
abbrev main_v107 : Ref sig .tc := ⟨.hbm, 153, rfl⟩
abbrev main_v108 : Ref sig .tc := ⟨.hbm, 154, rfl⟩
abbrev main_cst_22 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_23 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_24 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_cst_25 : Ref sig .tc := ⟨.hbm, 167, rfl⟩
abbrev main_call2_v0 : Ref sig .tc := ⟨.hbm, 168, rfl⟩
abbrev main_call2_v1 : Ref sig .tc := ⟨.hbm, 169, rfl⟩
abbrev main_v118 : Ref sig .tc := ⟨.hbm, 170, rfl⟩
abbrev main_c_26 : Ref sig .tc := ⟨.hbm, 171, rfl⟩
abbrev main_v119 : Ref sig .tc := ⟨.hbm, 172, rfl⟩
abbrev main_v120 : Ref sig .tc := ⟨.hbm, 173, rfl⟩
abbrev main_c_27 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_c_28 : Ref sig .tc := ⟨.hbm, 181, rfl⟩
abbrev main_v127 : Ref sig .tc := ⟨.hbm, 182, rfl⟩
abbrev main_v128 : Ref sig .tc := ⟨.hbm, 183, rfl⟩
abbrev main_c_29 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_c_30 : Ref sig .tc := ⟨.hbm, 192, rfl⟩
abbrev main_v136 : Ref sig .tc := ⟨.hbm, 193, rfl⟩
abbrev main_v137 : Ref sig .tc := ⟨.hbm, 194, rfl⟩
abbrev main_c_31 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_cst_32 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_cst_33 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_call3_cst : Ref sig .tc := ⟨.hbm, 223, rfl⟩
abbrev main_call3_v0 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x128_S100000x128_1_0_0_1_n_n_wf : DotDims.WF S100000x64 S64x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x256_S256x128_S100000x128_1_0_0_1_n_n_wf : DotDims.WF S100000x256 S256x128 S100000x128 [1] [0] [0] [1] [] []
  dot_S100000x128_S128x64_S100000x64_1_0_0_1_n_n_wf : DotDims.WF S100000x128 S128x64 S100000x64 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelFrame.lean ====
/- The frame certificate of `Kernel`: the run of @main through its one pipelined region.

   @main is three stretches of host operations and then the region. The region's kernel body, at each of the
   25 grid points, loads its twelve input blocks whole, computes, and stores each of its two output blocks
   whole (it also loads each output block once before storing it, and does not use what it read). So what the
   body leaves in an output buffer is a closed function of the twelve input blocks at the point, and every
   argument array of @main ends as it began: none is written by a host operation, and none is an output of
   the region. -/
import proofs.«124411_j62835371541091_2_alg».proof.Proof.Gen.Kernel.Launch
import proofs.«124411_j62835371541091_2_alg».proof.Proof.Gen.Kernel.Skeleton
import proofs.«124411_j62835371541091_2_alg».proof.Proof.Gen.Kernel.Points
import Idealize.ShloMosaic.Lib.Pipeline.FrameBody
import Idealize.ShloMosaic.Lib.Ring
import Idealize.ShloMosaic.Lib.Tactic

-- membership in a rectangle of these extents is looked at structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: the launch contents after the three stretches of
    host operations, in order. -/
abbrev V (c : Dev nD) (b : Ref sig .tc) : Buf (Elt F) ((c : Thread nD τ).loc b) :=
  StableHlo.after (List.flatten [hostOps0, hostOps0_1, hostOps0_2]) (fun b => m (c, b)) b

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the three stretches of host operations and then the region, which is therefore entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0` (each writes its one result, a different buffer): the
    region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1` (each writes its one result, a different buffer): the
    region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2` (each writes its one result, a different buffer): the
    region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3` (each writes its one result, a different buffer): the
    region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4` (each writes its one result, a different buffer): the
    region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5` (each writes its one result, a different buffer): the
    region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6` (each writes its one result, a different buffer): the
    region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg7` (each writes its one result, a different buffer): the
    region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg8` (each writes its one result, a different buffer): the
    region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg9` (each writes its one result, a different buffer): the
    region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg10` (each writes its one result, a different buffer): the
    region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg11` (each writes its one result, a different buffer): the
    region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg12` (each writes its one result, a different buffer): the
    region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg13` (each writes its one result, a different buffer): the
    region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg14` (each writes its one result, a different buffer): the
    region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg15` (each writes its one result, a different buffer): the
    region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg16` (each writes its one result, a different buffer): the
    region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg17` (each writes its one result, a different buffer): the
    region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, the
    block index has not moved), for any proof data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, the
    block index has not moved), for any proof data whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, the
    block index has not moved), for any proof data whose array is `V`'s and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (unfetched, the
    block index has not moved), for any proof data whose array is `V`'s and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (unfetched, the
    block index has not moved), for any proof data whose array is `V`'s and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (unfetched, the
    block index has not moved), for any proof data whose array is `V`'s and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (unfetched, the
    block index has not moved), for any proof data whose array is `V`'s and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (unfetched, the
    block index has not moved), for any proof data whose array is `V`'s and whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not (unfetched, the
    block index has not moved), for any proof data whose array is `V`'s and whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not (unfetched, the
    block index has not moved), for any proof data whose array is `V`'s and whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not (unfetched, the
    block index has not moved), for any proof data whose array is `V`'s and whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run to the frame claim's post, for any proof data whose arrays are the region-entry contents: an
    argument array an input window stages ends at its entry contents (an input's array is never written back); an
    argument array no window stages is among the other unscoped buffers, which end as the region found them; and
    the region found each argument array as launched (`V_main_argK`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats 0 c).arrAt_in 1 rfl _).trans ((hA c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 4).trans (((dats 0 c).arrAt_in 4 rfl _).trans ((hA c 4).trans (V_main_arg10 m c))),
      ((h c).1 5).trans (((dats 0 c).arrAt_in 5 rfl _).trans ((hA c 5).trans (V_main_arg11 m c))),
      ((h c).1 6).trans (((dats 0 c).arrAt_in 6 rfl _).trans ((hA c 6).trans (V_main_arg12 m c))),
      ((h c).1 7).trans (((dats 0 c).arrAt_in 7 rfl _).trans ((hA c 7).trans (V_main_arg13 m c))),
      ((h c).1 8).trans (((dats 0 c).arrAt_in 8 rfl _).trans ((hA c 8).trans (V_main_arg14 m c))),
      ((h c).1 9).trans (((dats 0 c).arrAt_in 9 rfl _).trans ((hA c 9).trans (V_main_arg15 m c))),
      ((h c).1 10).trans (((dats 0 c).arrAt_in 10 rfl _).trans ((hA c 10).trans (V_main_arg16 m c))),
      ((h c).1 11).trans (((dats 0 c).arrAt_in 11 rfl _).trans ((hA c 11).trans (V_main_arg17 m c)))⟩) h

/-! ## The body's accesses -/

/-- The whole of window 0's block: the rectangle of every load from its staging buffer. -/
abbrev r0_0 : Rect S4000x64 := Rect.unit (s := S4000x64) ![0, 0] S4000x64.size inb_S4000x64_S4000x64_0_0
/-- The whole of window 1's block: the rectangle of every load from its staging buffer. -/
abbrev r0_1 : Rect S4000x128 := Rect.unit (s := S4000x128) ![0, 0] S4000x128.size inb_S4000x128_S4000x128_0_0
/-- The whole of window 2's block: the rectangle of every load from its staging buffer. -/
abbrev r0_2 : Rect S64x384 := Rect.unit (s := S64x384) ![0, 0] S64x384.size inb_S64x384_S64x384_0_0
/-- The whole of window 3's block: the rectangle of every load from its staging buffer. -/
abbrev r0_3 : Rect S384 := Rect.unit (s := S384) ![0] S384.size inb_S384_S384_0
/-- The whole of window 4's block: the rectangle of every load from its staging buffer. -/
abbrev r0_4 : Rect S256x128 := Rect.unit (s := S256x128) ![0, 0] S256x128.size inb_S256x128_S256x128_0_0
/-- The whole of window 5's block: the rectangle of every load from its staging buffer. -/
abbrev r0_5 : Rect S128 := Rect.unit (s := S128) ![0] S128.size inb_S128_S128_0
/-- The whole of window 6's block: the rectangle of every load from its staging buffer. -/
abbrev r0_6 : Rect S256x128 := Rect.unit (s := S256x128) ![0, 0] S256x128.size inb_S256x128_S256x128_0_0
/-- The whole of window 7's block: the rectangle of every load from its staging buffer. -/
abbrev r0_7 : Rect S128 := Rect.unit (s := S128) ![0] S128.size inb_S128_S128_0
/-- The whole of window 8's block: the rectangle of every load from its staging buffer. -/
abbrev r0_8 : Rect S256x128 := Rect.unit (s := S256x128) ![0, 0] S256x128.size inb_S256x128_S256x128_0_0
/-- The whole of window 9's block: the rectangle of every load from its staging buffer. -/
abbrev r0_9 : Rect S128 := Rect.unit (s := S128) ![0] S128.size inb_S128_S128_0
/-- The whole of window 10's block: the rectangle of every load from its staging buffer. -/
abbrev r0_10 : Rect S128x64 := Rect.unit (s := S128x64) ![0, 0] S128x64.size inb_S128x64_S128x64_0_0
/-- The whole of window 11's block: the rectangle of every load from its staging buffer. -/
abbrev r0_11 : Rect S64 := Rect.unit (s := S64) ![0] S64.size inb_S64_S64_0
/-- The whole of window 12's block: the rectangle of every load from and store to its staging buffer. -/
abbrev r0_12 : Rect S4000x128 := Rect.unit (s := S4000x128) ![0, 0] S4000x128.size inb_S4000x128_S4000x128_0_0
/-- The whole of window 13's block: the rectangle of every load from and store to its staging buffer. -/
abbrev r0_13 : Rect S4000x64 := Rect.unit (s := S4000x64) ![0, 0] S4000x64.size inb_S4000x64_S4000x64_0_0

/-! ## What the body leaves in each output window's buffer -/

/-- Window 12's staging buffer after the body, from the twelve input blocks: its one store, of the whole block.
    The payload's arguments are the body's loads (`View.ld xW r0_W`: window `W`'s block read whole) and the values
    the first part of the body computes from them (`k0_pay4`, `k0_pay5`, `k0_pay6`), composed as the body
    composes them. -/
def out0_12 (x0 : Vec F S4000x64 .f32) (x1 : Vec F S4000x128 .f32) (x2 : Vec F S64x384 .f32) (x3 : Vec F S384 .f32) (x4 : Vec F S256x128 .f32) (x5 : Vec F S128 .f32) (x6 : Vec F S256x128 .f32) (x7 : Vec F S128 .f32) (x8 : Vec F S256x128 .f32) (x9 : Vec F S128 .f32) (x10 : Vec F S128x64 .f32) (x11 : Vec F S64 .f32) : Vec F S4000x128 .f32 :=
  View.canon [⟨r0_12, k0_pay1 (View.ld x1 r0_1) (k0_pay4 (View.ld x0 r0_0) (View.ld x1 r0_1) (View.ld x2 r0_2) (View.ld x3 r0_3) (View.ld x4 r0_4) (View.ld x5 r0_5)) (k0_pay5 (View.ld x0 r0_0) (View.ld x1 r0_1) (View.ld x2 r0_2) (View.ld x3 r0_3) (View.ld x6 r0_6) (View.ld x7 r0_7)) (k0_pay6 (View.ld x8 r0_8)) (View.ld x9 r0_9)⟩]

/-- Window 13's staging buffer after the body, from the twelve input blocks: its one store, of the whole block. -/
def out0_13 (x0 : Vec F S4000x64 .f32) (x1 : Vec F S4000x128 .f32) (x2 : Vec F S64x384 .f32) (x3 : Vec F S384 .f32) (x4 : Vec F S256x128 .f32) (x5 : Vec F S128 .f32) (x6 : Vec F S256x128 .f32) (x7 : Vec F S128 .f32) (x8 : Vec F S256x128 .f32) (x9 : Vec F S128 .f32) (x10 : Vec F S128x64 .f32) (x11 : Vec F S64 .f32) : Vec F S4000x64 .f32 :=
  View.canon [⟨r0_13, k0_pay2 (View.ld x1 r0_1) (k0_pay4 (View.ld x0 r0_0) (View.ld x1 r0_1) (View.ld x2 r0_2) (View.ld x3 r0_3) (View.ld x4 r0_4) (View.ld x5 r0_5)) (k0_pay5 (View.ld x0 r0_0) (View.ld x1 r0_1) (View.ld x2 r0_2) (View.ld x3 r0_3) (View.ld x6 r0_6) (View.ld x7 r0_7)) (k0_pay6 (View.ld x8 r0_8)) (View.ld x9 r0_9) (View.ld x10 r0_10) (View.ld x11 r0_11)⟩]

/-- The one store is of the whole block, so it covers the buffer. -/
theorem cover0_12 (p0 : Vec F S4000x128 .f32) (y : S4000x128.Idx) :
    ∃ pc ∈ ([⟨r0_12, p0⟩] : List (View.Piece (Elt F) S4000x128 .f32)), y ∈ pc.1.set :=
  View.cover_of_tiled [⟨r0_12, p0⟩] S4000x128.size (by rfl) y
theorem cover0_13 (p0 : Vec F S4000x64 .f32) (y : S4000x64.Idx) :
    ∃ pc ∈ ([⟨r0_13, p0⟩] : List (View.Piece (Elt F) S4000x64 .f32)), y ∈ pc.1.set :=
  View.cover_of_tiled [⟨r0_13, p0⟩] S4000x64.size (by rfl) y

/-! ## The body's triple -/

set_option maxHeartbeats 4000000 in
/-- The kernel body on whole staging memrefs, the inputs' at read contents `xW` and the outputs' at anything, runs
    to the continuation holding the inputs' as they were and each output's at `out0_W` of the inputs'. The body and
    its first part are sequences of whole-block loads and two whole-block stores over named payloads; each load
    reads the contents held, each store overwrites the whole buffer, so the prior contents of an output (which
    the body also reads once, unused) do not matter. -/
theorem sound_kernel (c : Dev nD) (E : Set ℕ) (i : grid0.Coords) (arg1 : Memref sig .tc .vmem S4000x64 .f32) (harg1 : arg1.IsWhole) (arg2 : Memref sig .tc .vmem S4000x128 .f32) (harg2 : arg2.IsWhole) (arg3 : Memref sig .tc .vmem S64x384 .f32) (harg3 : arg3.IsWhole) (arg4 : Memref sig .tc .vmem S384 .f32) (harg4 : arg4.IsWhole) (arg5 : Memref sig .tc .vmem S256x128 .f32) (harg5 : arg5.IsWhole) (arg6 : Memref sig .tc .vmem S128 .f32) (harg6 : arg6.IsWhole) (arg7 : Memref sig .tc .vmem S256x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S64 .f32) (harg12 : arg12.IsWhole) (arg13 : Memref sig .tc .vmem S4000x128 .f32) (harg13 : arg13.IsWhole) (arg14 : Memref sig .tc .vmem S4000x64 .f32) (harg14 : arg14.IsWhole)
    (x0 : Vec F S4000x64 .f32) (x1 : Vec F S4000x128 .f32) (x2 : Vec F S64x384 .f32) (x3 : Vec F S384 .f32) (x4 : Vec F S256x128 .f32) (x5 : Vec F S128 .f32) (x6 : Vec F S256x128 .f32) (x7 : Vec F S128 .f32) (x8 : Vec F S256x128 .f32) (x9 : Vec F S128 .f32) (x10 : Vec F S128x64 .f32) (x11 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11) ∗ owns (c : Thread nD τ) arg14 fullShare (out0_13 x0 x1 x2 x3 x4 x5 x6 x7 x8 x9 x10 x11)) -∗ K ⟨⟩))
      ⊢ wp frame (wpE (defs₀ (F := F)) Variants.none c none) E (cc0__dense_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__dense_kernel_eq_skeleton]; unfold cc0__dense_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    exact View.read_writes_eq_canon _ _ _ (cover0_12 _)
  iexists _; isplitr
  swap; · iexact H13
  ipureintro
  try dsimp only
  exact View.read_writes_eq_canon _ _ _ (cover0_13 _)

/-! ## The pipeline's proof data -/

/-- The proof data of the one pipeline on core `c`: the arrays as the region finds them (`V`); after the body at
    point `t` each input's buffer at its block and each output's at `out0_W` of the twelve input blocks; the
    invariant: the core's other scoped buffers and its generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

/-- The proof data's arrays are the region-entry contents (the definition projected; `V`, a long fold, is never
    unfolded to check it). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1000000 in
/-- The body at any point: the inputs' memrefs hold their blocks (`before0_W`), so `sound_kernel` applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the proof data says
    (an input its entry contents, an output those overwritten by what the body left at each write-back) and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.Hand.run_main' depends on axioms: [propext, Classical.choice, Quot.sound] -/
#guard_msgs in #print axioms run_main

/-- The frame claim's statement at any `F`: @main runs, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.Kernel.Hand

end
-- ==== Proof.KernelIdealFrame.lean ====
/- The frame certificate of `KernelIdeal`: the run of @main through its one pipelined region.

   @main is three stretches of host operations and then the region. The region's kernel body, at each of the
   25 grid points, loads its twelve input blocks whole, computes, and stores each of its two output blocks
   whole (it also loads each output block once before storing it, and does not use what it read). So what the
   body leaves in an output buffer is a closed function of the twelve input blocks at the point, and every
   argument array of @main ends as it began: none is written by a host operation, and none is an output of
   the region. -/
import proofs.«124411_j62835371541091_2_alg».proof.Proof.Gen.KernelIdeal.Launch
import proofs.«124411_j62835371541091_2_alg».proof.Proof.Gen.KernelIdeal.Skeleton
import proofs.«124411_j62835371541091_2_alg».proof.Proof.Gen.KernelIdeal.Points
import Idealize.ShloMosaic.Lib.Pipeline.FrameBody
import Idealize.ShloMosaic.Lib.Ring
import Idealize.ShloMosaic.Lib.Tactic

-- membership in a rectangle of these extents is looked at structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: the launch contents after the three stretches of
    host operations, in order. -/
abbrev V (c : Dev nD) (b : Ref sig .tc) : Buf (Elt F) ((c : Thread nD τ).loc b) :=
  StableHlo.after (List.flatten [hostOps0, hostOps0_1, hostOps0_2]) (fun b => m (c, b)) b

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the three stretches of host operations and then the region, which is therefore entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0` (each writes its one result, a different buffer): the
    region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1` (each writes its one result, a different buffer): the
    region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2` (each writes its one result, a different buffer): the
    region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3` (each writes its one result, a different buffer): the
    region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4` (each writes its one result, a different buffer): the
    region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5` (each writes its one result, a different buffer): the
    region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6` (each writes its one result, a different buffer): the
    region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg7` (each writes its one result, a different buffer): the
    region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg8` (each writes its one result, a different buffer): the
    region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg9` (each writes its one result, a different buffer): the
    region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg10` (each writes its one result, a different buffer): the
    region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg11` (each writes its one result, a different buffer): the
    region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg12` (each writes its one result, a different buffer): the
    region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg13` (each writes its one result, a different buffer): the
    region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg14` (each writes its one result, a different buffer): the
    region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg15` (each writes its one result, a different buffer): the
    region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg16` (each writes its one result, a different buffer): the
    region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg17` (each writes its one result, a different buffer): the
    region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, the
    block index has not moved), for any proof data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, the
    block index has not moved), for any proof data whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, the
    block index has not moved), for any proof data whose array is `V`'s and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (unfetched, the
    block index has not moved), for any proof data whose array is `V`'s and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (unfetched, the
    block index has not moved), for any proof data whose array is `V`'s and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (unfetched, the
    block index has not moved), for any proof data whose array is `V`'s and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (unfetched, the
    block index has not moved), for any proof data whose array is `V`'s and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (unfetched, the
    block index has not moved), for any proof data whose array is `V`'s and whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not (unfetched, the
    block index has not moved), for any proof data whose array is `V`'s and whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not (unfetched, the
    block index has not moved), for any proof data whose array is `V`'s and whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not (unfetched, the
    block index has not moved), for any proof data whose array is `V`'s and whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run to the frame claim's post, for any proof data whose arrays are the region-entry contents: an
    argument array an input window stages ends at its entry contents (an input's array is never written back); an
    argument array no window stages is among the other unscoped buffers, which end as the region found them; and
    the region found each argument array as launched (`V_main_argK`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats 0 c).arrAt_in 1 rfl _).trans ((hA c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 4).trans (((dats 0 c).arrAt_in 4 rfl _).trans ((hA c 4).trans (V_main_arg10 m c))),
      ((h c).1 5).trans (((dats 0 c).arrAt_in 5 rfl _).trans ((hA c 5).trans (V_main_arg11 m c))),
      ((h c).1 6).trans (((dats 0 c).arrAt_in 6 rfl _).trans ((hA c 6).trans (V_main_arg12 m c))),
      ((h c).1 7).trans (((dats 0 c).arrAt_in 7 rfl _).trans ((hA c 7).trans (V_main_arg13 m c))),
      ((h c).1 8).trans (((dats 0 c).arrAt_in 8 rfl _).trans ((hA c 8).trans (V_main_arg14 m c))),
      ((h c).1 9).trans (((dats 0 c).arrAt_in 9 rfl _).trans ((hA c 9).trans (V_main_arg15 m c))),
      ((h c).1 10).trans (((dats 0 c).arrAt_in 10 rfl _).trans ((hA c 10).trans (V_main_arg16 m c))),
      ((h c).1 11).trans (((dats 0 c).arrAt_in 11 rfl _).trans ((hA c 11).trans (V_main_arg17 m c)))⟩) h

/-! ## The body's accesses -/

/-- The whole of window 0's block: the rectangle of every load from its staging buffer. -/
abbrev r0_0 : Rect S4000x64 := Rect.unit (s := S4000x64) ![0, 0] S4000x64.size inb_S4000x64_S4000x64_0_0
/-- The whole of window 1's block: the rectangle of every load from its staging buffer. -/
abbrev r0_1 : Rect S4000x128 := Rect.unit (s := S4000x128) ![0, 0] S4000x128.size inb_S4000x128_S4000x128_0_0
/-- The whole of window 2's block: the rectangle of every load from its staging buffer. -/
abbrev r0_2 : Rect S64x384 := Rect.unit (s := S64x384) ![0, 0] S64x384.size inb_S64x384_S64x384_0_0
/-- The whole of window 3's block: the rectangle of every load from its staging buffer. -/
abbrev r0_3 : Rect S384 := Rect.unit (s := S384) ![0] S384.size inb_S384_S384_0
/-- The whole of window 4's block: the rectangle of every load from its staging buffer. -/
abbrev r0_4 : Rect S256x128 := Rect.unit (s := S256x128) ![0, 0] S256x128.size inb_S256x128_S256x128_0_0
/-- The whole of window 5's block: the rectangle of every load from its staging buffer. -/
abbrev r0_5 : Rect S128 := Rect.unit (s := S128) ![0] S128.size inb_S128_S128_0
/-- The whole of window 6's block: the rectangle of every load from its staging buffer. -/
abbrev r0_6 : Rect S256x128 := Rect.unit (s := S256x128) ![0, 0] S256x128.size inb_S256x128_S256x128_0_0
/-- The whole of window 7's block: the rectangle of every load from its staging buffer. -/
abbrev r0_7 : Rect S128 := Rect.unit (s := S128) ![0] S128.size inb_S128_S128_0
/-- The whole of window 8's block: the rectangle of every load from its staging buffer. -/
abbrev r0_8 : Rect S256x128 := Rect.unit (s := S256x128) ![0, 0] S256x128.size inb_S256x128_S256x128_0_0
/-- The whole of window 9's block: the rectangle of every load from its staging buffer. -/
abbrev r0_9 : Rect S128 := Rect.unit (s := S128) ![0] S128.size inb_S128_S128_0
/-- The whole of window 10's block: the rectangle of every load from its staging buffer. -/
abbrev r0_10 : Rect S128x64 := Rect.unit (s := S128x64) ![0, 0] S128x64.size inb_S128x64_S128x64_0_0
/-- The whole of window 11's block: the rectangle of every load from its staging buffer. -/
abbrev r0_11 : Rect S64 := Rect.unit (s := S64) ![0] S64.size inb_S64_S64_0
/-- The whole of window 12's block: the rectangle of every load from and store to its staging buffer. -/
abbrev r0_12 : Rect S4000x128 := Rect.unit (s := S4000x128) ![0, 0] S4000x128.size inb_S4000x128_S4000x128_0_0
/-- The whole of window 13's block: the rectangle of every load from and store to its staging buffer. -/
abbrev r0_13 : Rect S4000x64 := Rect.unit (s := S4000x64) ![0, 0] S4000x64.size inb_S4000x64_S4000x64_0_0

/-! ## What the body leaves in each output window's buffer -/

/-- Window 12's staging buffer after the body, from the twelve input blocks: its one store, of the whole block.
    The payload's arguments are the body's loads (`View.ld xW r0_W`: window `W`'s block read whole) and the values
    the first part of the body computes from them (`k0_pay4`, `k0_pay5`, `k0_pay6`), composed as the body
    composes them. -/
def out0_12 (x0 : Vec F S4000x64 .f32) (x1 : Vec F S4000x128 .f32) (x2 : Vec F S64x384 .f32) (x3 : Vec F S384 .f32) (x4 : Vec F S256x128 .f32) (x5 : Vec F S128 .f32) (x6 : Vec F S256x128 .f32) (x7 : Vec F S128 .f32) (x8 : Vec F S256x128 .f32) (x9 : Vec F S128 .f32) (x10 : Vec F S128x64 .f32) (x11 : Vec F S64 .f32) : Vec F S4000x128 .f32 :=
  View.canon [⟨r0_12, k0_pay1 (View.ld x1 r0_1) (k0_pay4 (View.ld x0 r0_0) (View.ld x1 r0_1) (View.ld x2 r0_2) (View.ld x3 r0_3) (View.ld x4 r0_4) (View.ld x5 r0_5)) (k0_pay5 (View.ld x0 r0_0) (View.ld x1 r0_1) (View.ld x2 r0_2) (View.ld x3 r0_3) (View.ld x6 r0_6) (View.ld x7 r0_7)) (k0_pay6 (View.ld x8 r0_8)) (View.ld x9 r0_9)⟩]

/-- Window 13's staging buffer after the body, from the twelve input blocks: its one store, of the whole block. -/
def out0_13 (x0 : Vec F S4000x64 .f32) (x1 : Vec F S4000x128 .f32) (x2 : Vec F S64x384 .f32) (x3 : Vec F S384 .f32) (x4 : Vec F S256x128 .f32) (x5 : Vec F S128 .f32) (x6 : Vec F S256x128 .f32) (x7 : Vec F S128 .f32) (x8 : Vec F S256x128 .f32) (x9 : Vec F S128 .f32) (x10 : Vec F S128x64 .f32) (x11 : Vec F S64 .f32) : Vec F S4000x64 .f32 :=
  View.canon [⟨r0_13, k0_pay2 (View.ld x1 r0_1) (k0_pay4 (View.ld x0 r0_0) (View.ld x1 r0_1) (View.ld x2 r0_2) (View.ld x3 r0_3) (View.ld x4 r0_4) (View.ld x5 r0_5)) (k0_pay5 (View.ld x0 r0_0) (View.ld x1 r0_1) (View.ld x2 r0_2) (View.ld x3 r0_3) (View.ld x6 r0_6) (View.ld x7 r0_7)) (k0_pay6 (View.ld x8 r0_8)) (View.ld x9 r0_9) (View.ld x10 r0_10) (View.ld x11 r0_11)⟩]

/-- The one store is of the whole block, so it covers the buffer. -/
theorem cover0_12 (p0 : Vec F S4000x128 .f32) (y : S4000x128.Idx) :
    ∃ pc ∈ ([⟨r0_12, p0⟩] : List (View.Piece (Elt F) S4000x128 .f32)), y ∈ pc.1.set :=
  View.cover_of_tiled [⟨r0_12, p0⟩] S4000x128.size (by rfl) y
theorem cover0_13 (p0 : Vec F S4000x64 .f32) (y : S4000x64.Idx) :
    ∃ pc ∈ ([⟨r0_13, p0⟩] : List (View.Piece (Elt F) S4000x64 .f32)), y ∈ pc.1.set :=
  View.cover_of_tiled [⟨r0_13, p0⟩] S4000x64.size (by rfl) y

/-! ## The body's triple -/

set_option maxHeartbeats 4000000 in
/-- The kernel body on whole staging memrefs, the inputs' at read contents `xW` and the outputs' at anything, runs
    to the continuation holding the inputs' as they were and each output's at `out0_W` of the inputs'. The body and
    its first part are sequences of whole-block loads and two whole-block stores over named payloads; each load
    reads the contents held, each store overwrites the whole buffer, so the prior contents of an output (which
    the body also reads once, unused) do not matter. -/
theorem sound_kernel (c : Dev nD) (E : Set ℕ) (i : grid0.Coords) (arg1 : Memref sig .tc .vmem S4000x64 .f32) (harg1 : arg1.IsWhole) (arg2 : Memref sig .tc .vmem S4000x128 .f32) (harg2 : arg2.IsWhole) (arg3 : Memref sig .tc .vmem S64x384 .f32) (harg3 : arg3.IsWhole) (arg4 : Memref sig .tc .vmem S384 .f32) (harg4 : arg4.IsWhole) (arg5 : Memref sig .tc .vmem S256x128 .f32) (harg5 : arg5.IsWhole) (arg6 : Memref sig .tc .vmem S128 .f32) (harg6 : arg6.IsWhole) (arg7 : Memref sig .tc .vmem S256x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S64 .f32) (harg12 : arg12.IsWhole) (arg13 : Memref sig .tc .vmem S4000x128 .f32) (harg13 : arg13.IsWhole) (arg14 : Memref sig .tc .vmem S4000x64 .f32) (harg14 : arg14.IsWhole)
    (x0 : Vec F S4000x64 .f32) (x1 : Vec F S4000x128 .f32) (x2 : Vec F S64x384 .f32) (x3 : Vec F S384 .f32) (x4 : Vec F S256x128 .f32) (x5 : Vec F S128 .f32) (x6 : Vec F S256x128 .f32) (x7 : Vec F S128 .f32) (x8 : Vec F S256x128 .f32) (x9 : Vec F S128 .f32) (x10 : Vec F S128x64 .f32) (x11 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11) ∗ owns (c : Thread nD τ) arg14 fullShare (out0_13 x0 x1 x2 x3 x4 x5 x6 x7 x8 x9 x10 x11)) -∗ K ⟨⟩))
      ⊢ wp frame (wpE (defs₀ (F := F)) Variants.none c none) E (cc0__dense_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__dense_kernel_eq_skeleton]; unfold cc0__dense_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    exact View.read_writes_eq_canon _ _ _ (cover0_12 _)
  iexists _; isplitr
  swap; · iexact H13
  ipureintro
  try dsimp only
  exact View.read_writes_eq_canon _ _ _ (cover0_13 _)

/-! ## The pipeline's proof data -/

/-- The proof data of the one pipeline on core `c`: the arrays as the region finds them (`V`); after the body at
    point `t` each input's buffer at its block and each output's at `out0_W` of the twelve input blocks; the
    invariant: the core's other scoped buffers and its generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

/-- The proof data's arrays are the region-entry contents (the definition projected; `V`, a long fold, is never
    unfolded to check it). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1000000 in
/-- The body at any point: the inputs' memrefs hold their blocks (`before0_W`), so `sound_kernel` applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the proof data says
    (an input its entry contents, an output those overwritten by what the body left at each write-back) and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.Hand.run_main' depends on axioms: [propext, Classical.choice, Quot.sound] -/
#guard_msgs in #print axioms run_main

/-- The frame claim's statement at any `F`: @main runs, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.KernelIdeal.Hand

end
-- ==== Proof.KernelIdealBlocks.lean ====
/- From blocks to arrays, for `KernelIdeal` at the ideal numbers: each input window's block at a grid point as rows of
   (or the whole of) the array it is cut from, and each of the two result arrays after the run as ONE function of
   its index, given what every grid point leaves in the window's buffer.

   The grid is 25 points; point `t` reads rows `4000 t … 4000 t + 3999` of the two row-blocked inputs and writes
   the same rows of the two results; the other ten inputs are whole arrays, the same at every point. The 25 row
   blocks tile the 100000 rows, so a result array is determined by its blocks.

   Every read of a block is stated first over ARBITRARY contents `A` of the array, and only then instantiated at the
   contents the region finds (`V`, a long fold over the host operations, which is never opened). -/
import proofs.«124411_j62835371541091_2_alg».proof.Proof.KernelIdealFrame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## The index maps, over the grid -/

/-- The row-blocked windows (the two inputs 0 and 1, the two outputs 12 and 13) are at block `(t, 0)` at point `t`:
    decided over the 25 points. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- The whole-array windows 2 … 11 are at block 0 on every axis at every point. -/
theorem idx_whole : ∀ t : Fin cfg0.N,
    win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = 0 ∧ win0_10.index t (1 : Fin 2) = 0
    ∧ win0_11.index t (0 : Fin 1) = 0 :=
  (by decide +kernel : ∀ t : Fin grid0.N, _)

/-- Row `p` of block `t` is a row of the 100000-row arrays. -/
theorem row_lt (t : Fin cfg0.N) (p : Fin 4000) : t.val * 4000 + p.val < 100000 := by
  have h : t.val < cfg0.N := t.isLt
  have hN : cfg0.N = 25 := N_0
  have hp : p.val < 4000 := p.isLt
  omega

/-- Row `p` of block `t`, as a row of the array: `4000 t + p`. -/
abbrev row (t : Fin cfg0.N) (p : Fin 4000) : Fin 100000 := ⟨t.val * 4000 + p.val, row_lt t p⟩

/-! ## A block read of any contents of the array -/

/-- Window 0's block at point `t`, read of any contents `A` of its array, is rows `4000 t …` of `A`. -/
theorem blk0_read (A : S100000x64.Idx → EReal) (t : Fin cfg0.N) (p : Fin 4000) (q : Fin 64) :
    (((cfg0.win 0).blk t).view.read (Elt Ideal) A : S4000x64.Idx → EReal) (ix2 p q) = A (ix2 (row t p) q) := by
  obtain ⟨e0, e1, -⟩ := idx_rows t
  rw [View.read_apply]
  show A _ = A _
  refine congrArg A ?_
  funext a
  apply Fin.ext
  match a with
  | ⟨0, _⟩ => show win0_0.index t (0 : Fin 2) * 4000 + 1 * p.val = t.val * 4000 + p.val; rw [e0]; omega
  | ⟨1, _⟩ => show win0_0.index t (1 : Fin 2) * 64 + 1 * q.val = q.val; rw [e1]; omega

/-- Window 1's block at point `t`, read of any contents `A` of its array, is rows `4000 t …` of `A`. -/
theorem blk1_read (A : S100000x128.Idx → EReal) (t : Fin cfg0.N) (p : Fin 4000) (q : Fin 128) :
    (((cfg0.win 1).blk t).view.read (Elt Ideal) A : S4000x128.Idx → EReal) (ix2 p q) = A (ix2 (row t p) q) := by
  obtain ⟨-, -, e0, e1, -⟩ := idx_rows t
  rw [View.read_apply]
  show A _ = A _
  refine congrArg A ?_
  funext a
  apply Fin.ext
  match a with
  | ⟨0, _⟩ => show win0_1.index t (0 : Fin 2) * 4000 + 1 * p.val = t.val * 4000 + p.val; rw [e0]; omega
  | ⟨1, _⟩ => show win0_1.index t (1 : Fin 2) * 128 + 1 * q.val = q.val; rw [e1]; omega

/-- Window 2's block at any point, read of any contents `A` of its array, is `A`. -/
theorem blk2_read (A : S64x384.Idx → EReal) (t : Fin cfg0.N) :
    (((cfg0.win 2).blk t).view.read (Elt Ideal) A : S64x384.Idx → EReal) = A := by
  obtain ⟨e0, e1, -⟩ := idx_whole t
  funext x
  rw [View.read_apply]
  show A _ = A _
  refine congrArg A ?_
  funext a
  apply Fin.ext
  match a with
  | ⟨0, _⟩ => show win0_2.index t (0 : Fin 2) * 64 + 1 * (x 0).val = (x 0).val; rw [e0]; omega
  | ⟨1, _⟩ => show win0_2.index t (1 : Fin 2) * 384 + 1 * (x 1).val = (x 1).val; rw [e1]; omega

/-- Window 3's block at any point, read of any contents `A` of its array, is `A`. -/
theorem blk3_read (A : S384.Idx → EReal) (t : Fin cfg0.N) :
    (((cfg0.win 3).blk t).view.read (Elt Ideal) A : S384.Idx → EReal) = A := by
  obtain ⟨-, -, e0, -⟩ := idx_whole t
  funext x
  rw [View.read_apply]
  show A _ = A _
  refine congrArg A ?_
  funext a
  apply Fin.ext
  match a with
  | ⟨0, _⟩ => show win0_3.index t (0 : Fin 1) * 384 + 1 * (x 0).val = (x 0).val; rw [e0]; omega

/-- Window 4's block at any point, read of any contents `A` of its array, is `A`. -/
theorem blk4_read (A : S256x128.Idx → EReal) (t : Fin cfg0.N) :
    (((cfg0.win 4).blk t).view.read (Elt Ideal) A : S256x128.Idx → EReal) = A := by
  obtain ⟨-, -, -, e0, e1, -⟩ := idx_whole t
  funext x
  rw [View.read_apply]
  show A _ = A _
  refine congrArg A ?_
  funext a
  apply Fin.ext
  match a with
  | ⟨0, _⟩ => show win0_4.index t (0 : Fin 2) * 256 + 1 * (x 0).val = (x 0).val; rw [e0]; omega
  | ⟨1, _⟩ => show win0_4.index t (1 : Fin 2) * 128 + 1 * (x 1).val = (x 1).val; rw [e1]; omega

/-- Window 5's block at any point, read of any contents `A` of its array, is `A`. -/
theorem blk5_read (A : S128.Idx → EReal) (t : Fin cfg0.N) :
    (((cfg0.win 5).blk t).view.read (Elt Ideal) A : S128.Idx → EReal) = A := by
  obtain ⟨-, -, -, -, -, e0, -⟩ := idx_whole t
  funext x
  rw [View.read_apply]
  show A _ = A _
  refine congrArg A ?_
  funext a
  apply Fin.ext
  match a with
  | ⟨0, _⟩ => show win0_5.index t (0 : Fin 1) * 128 + 1 * (x 0).val = (x 0).val; rw [e0]; omega

/-- Window 6's block at any point, read of any contents `A` of its array, is `A`. -/
theorem blk6_read (A : S256x128.Idx → EReal) (t : Fin cfg0.N) :
    (((cfg0.win 6).blk t).view.read (Elt Ideal) A : S256x128.Idx → EReal) = A := by
  obtain ⟨-, -, -, -, -, -, e0, e1, -⟩ := idx_whole t
  funext x
  rw [View.read_apply]
  show A _ = A _
  refine congrArg A ?_
  funext a
  apply Fin.ext
  match a with
  | ⟨0, _⟩ => show win0_6.index t (0 : Fin 2) * 256 + 1 * (x 0).val = (x 0).val; rw [e0]; omega
  | ⟨1, _⟩ => show win0_6.index t (1 : Fin 2) * 128 + 1 * (x 1).val = (x 1).val; rw [e1]; omega

/-- Window 7's block at any point, read of any contents `A` of its array, is `A`. -/
theorem blk7_read (A : S128.Idx → EReal) (t : Fin cfg0.N) :
    (((cfg0.win 7).blk t).view.read (Elt Ideal) A : S128.Idx → EReal) = A := by
  obtain ⟨-, -, -, -, -, -, -, -, e0, -⟩ := idx_whole t
  funext x
  rw [View.read_apply]
  show A _ = A _
  refine congrArg A ?_
  funext a
  apply Fin.ext
  match a with
  | ⟨0, _⟩ => show win0_7.index t (0 : Fin 1) * 128 + 1 * (x 0).val = (x 0).val; rw [e0]; omega

/-- Window 8's block at any point, read of any contents `A` of its array, is `A`. -/
theorem blk8_read (A : S256x128.Idx → EReal) (t : Fin cfg0.N) :
    (((cfg0.win 8).blk t).view.read (Elt Ideal) A : S256x128.Idx → EReal) = A := by
  obtain ⟨-, -, -, -, -, -, -, -, -, e0, e1, -⟩ := idx_whole t
  funext x
  rw [View.read_apply]
  show A _ = A _
  refine congrArg A ?_
  funext a
  apply Fin.ext
  match a with
  | ⟨0, _⟩ => show win0_8.index t (0 : Fin 2) * 256 + 1 * (x 0).val = (x 0).val; rw [e0]; omega
  | ⟨1, _⟩ => show win0_8.index t (1 : Fin 2) * 128 + 1 * (x 1).val = (x 1).val; rw [e1]; omega

/-- Window 9's block at any point, read of any contents `A` of its array, is `A`. -/
theorem blk9_read (A : S128.Idx → EReal) (t : Fin cfg0.N) :
    (((cfg0.win 9).blk t).view.read (Elt Ideal) A : S128.Idx → EReal) = A := by
  obtain ⟨-, -, -, -, -, -, -, -, -, -, -, e0, -⟩ := idx_whole t
  funext x
  rw [View.read_apply]
  show A _ = A _
  refine congrArg A ?_
  funext a
  apply Fin.ext
  match a with
  | ⟨0, _⟩ => show win0_9.index t (0 : Fin 1) * 128 + 1 * (x 0).val = (x 0).val; rw [e0]; omega

/-- Window 10's block at any point, read of any contents `A` of its array, is `A`. -/
theorem blk10_read (A : S128x64.Idx → EReal) (t : Fin cfg0.N) :
    (((cfg0.win 10).blk t).view.read (Elt Ideal) A : S128x64.Idx → EReal) = A := by
  obtain ⟨-, -, -, -, -, -, -, -, -, -, -, -, e0, e1, -⟩ := idx_whole t
  funext x
  rw [View.read_apply]
  show A _ = A _
  refine congrArg A ?_
  funext a
  apply Fin.ext
  match a with
  | ⟨0, _⟩ => show win0_10.index t (0 : Fin 2) * 128 + 1 * (x 0).val = (x 0).val; rw [e0]; omega
  | ⟨1, _⟩ => show win0_10.index t (1 : Fin 2) * 64 + 1 * (x 1).val = (x 1).val; rw [e1]; omega

/-- Window 11's block at any point, read of any contents `A` of its array, is `A`. -/
theorem blk11_read (A : S64.Idx → EReal) (t : Fin cfg0.N) :
    (((cfg0.win 11).blk t).view.read (Elt Ideal) A : S64.Idx → EReal) = A := by
  obtain ⟨-, -, -, -, -, -, -, -, -, -, -, -, -, -, e0⟩ := idx_whole t
  funext x
  rw [View.read_apply]
  show A _ = A _
  refine congrArg A ?_
  funext a
  apply Fin.ext
  match a with
  | ⟨0, _⟩ => show win0_11.index t (0 : Fin 1) * 64 + 1 * (x 0).val = (x 0).val; rw [e0]; omega

/-! ## The input blocks as reads of the arrays the region finds -/

/-- Window 0's block at point `t` is rows `4000 t …` of the array it is cut from. -/
theorem iblk0_apply (c : Dev nD) (t : Fin cfg0.N) (p : Fin 4000) (q : Fin 64) :
    (iblk m c 0 t : S4000x64.Idx → EReal) (ix2 p q) = (V m c main_v47 : S100000x64.Idx → EReal) (ix2 (row t p) q) := by
  unfold iblk
  exact blk0_read (V m c main_v47) t p q

/-- Window 1's block at point `t` is rows `4000 t …` of the array it is cut from. -/
theorem iblk1_apply (c : Dev nD) (t : Fin cfg0.N) (p : Fin 4000) (q : Fin 128) :
    (iblk m c 1 t : S4000x128.Idx → EReal) (ix2 p q) = (V m c main_arg2 : S100000x128.Idx → EReal) (ix2 (row t p) q) := by
  unfold iblk
  exact blk1_read (V m c main_arg2) t p q

/-- Window 2 is the whole of `main_v48` at every point. -/
theorem iblk2_eq (c : Dev nD) (t : Fin cfg0.N) : (iblk m c 2 t : S64x384.Idx → EReal) = V m c main_v48 := by
  unfold iblk
  exact blk2_read (V m c main_v48) t

/-- Window 3 is the whole of `main_v49` at every point. -/
theorem iblk3_eq (c : Dev nD) (t : Fin cfg0.N) : (iblk m c 3 t : S384.Idx → EReal) = V m c main_v49 := by
  unfold iblk
  exact blk3_read (V m c main_v49) t

/-- Window 4 is the whole of `main_arg10` at every point. -/
theorem iblk4_eq (c : Dev nD) (t : Fin cfg0.N) : (iblk m c 4 t : S256x128.Idx → EReal) = V m c main_arg10 := by
  unfold iblk
  exact blk4_read (V m c main_arg10) t

/-- Window 5 is the whole of `main_arg11` at every point. -/
theorem iblk5_eq (c : Dev nD) (t : Fin cfg0.N) : (iblk m c 5 t : S128.Idx → EReal) = V m c main_arg11 := by
  unfold iblk
  exact blk5_read (V m c main_arg11) t

/-- Window 6 is the whole of `main_arg12` at every point. -/
theorem iblk6_eq (c : Dev nD) (t : Fin cfg0.N) : (iblk m c 6 t : S256x128.Idx → EReal) = V m c main_arg12 := by
  unfold iblk
  exact blk6_read (V m c main_arg12) t

/-- Window 7 is the whole of `main_arg13` at every point. -/
theorem iblk7_eq (c : Dev nD) (t : Fin cfg0.N) : (iblk m c 7 t : S128.Idx → EReal) = V m c main_arg13 := by
  unfold iblk
  exact blk7_read (V m c main_arg13) t

/-- Window 8 is the whole of `main_arg14` at every point. -/
theorem iblk8_eq (c : Dev nD) (t : Fin cfg0.N) : (iblk m c 8 t : S256x128.Idx → EReal) = V m c main_arg14 := by
  unfold iblk
  exact blk8_read (V m c main_arg14) t

/-- Window 9 is the whole of `main_arg15` at every point. -/
theorem iblk9_eq (c : Dev nD) (t : Fin cfg0.N) : (iblk m c 9 t : S128.Idx → EReal) = V m c main_arg15 := by
  unfold iblk
  exact blk9_read (V m c main_arg15) t

/-- Window 10 is the whole of `main_arg16` at every point. -/
theorem iblk10_eq (c : Dev nD) (t : Fin cfg0.N) : (iblk m c 10 t : S128x64.Idx → EReal) = V m c main_arg16 := by
  unfold iblk
  exact blk10_read (V m c main_arg16) t

/-- Window 11 is the whole of `main_arg17` at every point. -/
theorem iblk11_eq (c : Dev nD) (t : Fin cfg0.N) : (iblk m c 11 t : S64.Idx → EReal) = V m c main_arg17 := by
  unfold iblk
  exact blk11_read (V m c main_arg17) t

/-! ## The result arrays from their blocks -/

/-- An index of window 12's array is in point `t`'s block iff each coordinate is in the block's range on its axis. -/
theorem mem_blk12 (t : Fin cfg0.N) (i : S100000x128.Idx) :
    i ∈ ((cfg0.win 12).blk t).view.set ↔ ∀ a : Fin 2, win0_12.index t a * S4000x128.size a ≤ (i a).val ∧ (i a).val < win0_12.index t a * S4000x128.size a + S4000x128.size a := by
  show i ∈ ((View.whole main_v50_0).slice (win0_12.rect t)).set ↔ _
  rw [View.set_slice_whole, Rect.mem_set_unit]
  exact Iff.rfl

/-- Every index of window 12's array is in the block of the point its row falls in: the 25 row blocks tile the rows. -/
theorem cover12 (i : S100000x128.Idx) : ∃ t : Fin cfg0.N, (cfg0.win 12).flush t = true ∧ i ∈ ((cfg0.win 12).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨-, -, -, -, e0, e1, -⟩ := idx_rows t
  have ht : t.val = (i 0).val / 4000 := rfl
  refine ⟨t, flush0_12 t, ?_⟩
  rw [mem_blk12]
  intro a
  match a with
  | ⟨0, _⟩ => show win0_12.index t (0 : Fin 2) * 4000 ≤ (i 0).val ∧ (i 0).val < win0_12.index t (0 : Fin 2) * 4000 + 4000; rw [e0, ht]; omega
  | ⟨1, _⟩ => show win0_12.index t (1 : Fin 2) * 128 ≤ (i 1).val ∧ (i 1).val < win0_12.index t (1 : Fin 2) * 128 + 128; rw [e1]; omega

/-- Window 12's block at point `t`, read of any contents `G` of its array, is rows `4000 t …` of `G`. -/
theorem blk12_read (G : S100000x128.Idx → EReal) (t : Fin cfg0.N) (j : S4000x128.Idx) :
    (((cfg0.win 12).blk t).view.read (Elt Ideal) G : S4000x128.Idx → EReal) j = G (ix2 (row t (j 0)) (j 1)) := by
  obtain ⟨-, -, -, -, e0, e1, -⟩ := idx_rows t
  rw [View.read_apply]
  show G _ = G _
  refine congrArg G ?_
  funext a
  apply Fin.ext
  match a with
  | ⟨0, _⟩ => show win0_12.index t (0 : Fin 2) * 4000 + 1 * (j 0).val = t.val * 4000 + (j 0).val; rw [e0]; omega
  | ⟨1, _⟩ => show win0_12.index t (1 : Fin 2) * 128 + 1 * (j 1).val = (j 1).val; rw [e1]; omega

/-- A block's contents `X` that agree with `G` row by row are block `t` of `G` (stated over any `X`, so that what the
    body computes is never opened). -/
theorem blk12_ext (G : S100000x128.Idx → EReal) (t : Fin cfg0.N) (X : S4000x128.Idx → EReal)
    (hX : ∀ (p : Fin 4000) (j : Fin 128), X (ix2 p j) = G (ix2 (row t p) j)) :
    (cfg0.win 12).cut (grid0.coords t) X = ((cfg0.win 12).blk t).view.read (Elt Ideal) G := by
  refine funext fun (j : S4000x128.Idx) => ?_
  rw [blk12_read G t j]
  show X j = _
  exact (congrArg X (eq_ix2 j)).trans (hX (j 0) (j 1))

/-- What point `t` writes back to window 12's array is block `t` of `G`, for any whole-array function `G` that the
    body's result at every point agrees with row by row. -/
theorem flushed12_eq (c : Dev nD) (G : S100000x128.Idx → EReal)
    (hG : ∀ (t : Fin cfg0.N) (p : Fin 4000) (j : Fin 128),
      out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p j) = G (ix2 (row t p) j))
    (t : Fin cfg0.N) :
    (dats m 0 c).flushed 12 t = ((cfg0.win 12).blk t).view.read (Elt Ideal) G := by
  show (cfg0.win 12).cut (grid0.coords t) ((dats m 0 c).after 12 t) = _
  rw [after0_12]
  exact blk12_ext G t (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (hG t)

/-- THE RESULT ARRAY of window 12 after the run is `G`, for any whole-array function `G` that the body's result at
    every point agrees with: at point `t`, row `p`, column `j` of the block is row `4000 t + p`, column `j` of `G`. -/
theorem final12 (c : Dev nD) (G : S100000x128.Idx → EReal)
    (hG : ∀ (t : Fin cfg0.N) (p : Fin 4000) (j : Fin 128),
      out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p j) = G (ix2 (row t p) j)) :
    (dats m 0 c).arrAt 12 cfg0.N = G :=
  (dats m 0 c).arrAt_eq_of_cover 12 G (fun t _ => flushed12_eq m c G hG t) (cover12)

/-- An index of window 13's array is in point `t`'s block iff each coordinate is in the block's range on its axis. -/
theorem mem_blk13 (t : Fin cfg0.N) (i : S100000x64.Idx) :
    i ∈ ((cfg0.win 13).blk t).view.set ↔ ∀ a : Fin 2, win0_13.index t a * S4000x64.size a ≤ (i a).val ∧ (i a).val < win0_13.index t a * S4000x64.size a + S4000x64.size a := by
  show i ∈ ((View.whole main_v50_1).slice (win0_13.rect t)).set ↔ _
  rw [View.set_slice_whole, Rect.mem_set_unit]
  exact Iff.rfl

/-- Every index of window 13's array is in the block of the point its row falls in: the 25 row blocks tile the rows. -/
theorem cover13 (i : S100000x64.Idx) : ∃ t : Fin cfg0.N, (cfg0.win 13).flush t = true ∧ i ∈ ((cfg0.win 13).blk t).view.set := by
  have hi0 : (i 0).val < 100000 := (i 0).isLt
  have hi1 : (i 1).val < 64 := (i 1).isLt
  have hN : cfg0.N = 25 := N_0
  let t : Fin cfg0.N := ⟨(i 0).val / 4000, by rw [hN]; omega⟩
  obtain ⟨-, -, -, -, -, -, e0, e1⟩ := idx_rows t
  have ht : t.val = (i 0).val / 4000 := rfl
  refine ⟨t, flush0_13 t, ?_⟩
  rw [mem_blk13]
  intro a
  match a with
  | ⟨0, _⟩ => show win0_13.index t (0 : Fin 2) * 4000 ≤ (i 0).val ∧ (i 0).val < win0_13.index t (0 : Fin 2) * 4000 + 4000; rw [e0, ht]; omega
  | ⟨1, _⟩ => show win0_13.index t (1 : Fin 2) * 64 ≤ (i 1).val ∧ (i 1).val < win0_13.index t (1 : Fin 2) * 64 + 64; rw [e1]; omega

/-- Window 13's block at point `t`, read of any contents `G` of its array, is rows `4000 t …` of `G`. -/
theorem blk13_read (G : S100000x64.Idx → EReal) (t : Fin cfg0.N) (j : S4000x64.Idx) :
    (((cfg0.win 13).blk t).view.read (Elt Ideal) G : S4000x64.Idx → EReal) j = G (ix2 (row t (j 0)) (j 1)) := by
  obtain ⟨-, -, -, -, -, -, e0, e1⟩ := idx_rows t
  rw [View.read_apply]
  show G _ = G _
  refine congrArg G ?_
  funext a
  apply Fin.ext
  match a with
  | ⟨0, _⟩ => show win0_13.index t (0 : Fin 2) * 4000 + 1 * (j 0).val = t.val * 4000 + (j 0).val; rw [e0]; omega
  | ⟨1, _⟩ => show win0_13.index t (1 : Fin 2) * 64 + 1 * (j 1).val = (j 1).val; rw [e1]; omega

/-- A block's contents `X` that agree with `G` row by row are block `t` of `G` (stated over any `X`, so that what the
    body computes is never opened). -/
theorem blk13_ext (G : S100000x64.Idx → EReal) (t : Fin cfg0.N) (X : S4000x64.Idx → EReal)
    (hX : ∀ (p : Fin 4000) (j : Fin 64), X (ix2 p j) = G (ix2 (row t p) j)) :
    (cfg0.win 13).cut (grid0.coords t) X = ((cfg0.win 13).blk t).view.read (Elt Ideal) G := by
  refine funext fun (j : S4000x64.Idx) => ?_
  rw [blk13_read G t j]
  show X j = _
  exact (congrArg X (eq_ix2 j)).trans (hX (j 0) (j 1))

/-- What point `t` writes back to window 13's array is block `t` of `G`, for any whole-array function `G` that the
    body's result at every point agrees with row by row. -/
theorem flushed13_eq (c : Dev nD) (G : S100000x64.Idx → EReal)
    (hG : ∀ (t : Fin cfg0.N) (p : Fin 4000) (j : Fin 64),
      out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p j) = G (ix2 (row t p) j))
    (t : Fin cfg0.N) :
    (dats m 0 c).flushed 13 t = ((cfg0.win 13).blk t).view.read (Elt Ideal) G := by
  show (cfg0.win 13).cut (grid0.coords t) ((dats m 0 c).after 13 t) = _
  rw [after0_13]
  exact blk13_ext G t (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (hG t)

/-- THE RESULT ARRAY of window 13 after the run is `G`, for any whole-array function `G` that the body's result at
    every point agrees with: at point `t`, row `p`, column `j` of the block is row `4000 t + p`, column `j` of `G`. -/
theorem final13 (c : Dev nD) (G : S100000x64.Idx → EReal)
    (hG : ∀ (t : Fin cfg0.N) (p : Fin 4000) (j : Fin 64),
      out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p j) = G (ix2 (row t p) j)) :
    (dats m 0 c).arrAt 13 cfg0.N = G :=
  (dats m 0 c).arrAt_eq_of_cover 13 G (fun t _ => flushed13_eq m c G hG t) (cover13)

/-! ## The run, read -/

set_option maxHeartbeats 1000000 in
/-- From a frame run to the value post, for any proof data whose arrays are the region-entry contents and whose
    result arrays after the last point are given functions: each result array is an output window's array, which the
    frame run's post has at the proof data's array after the last point; the argument arrays are unchanged as in the
    frame. -/
theorem run_value_of (dats : (p : Fin 1) → (c : Dev nD) → Dat τ (Elt Ideal) Unit ℕ (UR sig nD τ) ℕ (cfgs p) c)
    (hA : ∀ c w, (dats 0 c).A w = V m c (Pipeline.arrRef spec0 w))
    (h : θ_run defs (onTc (τ := τ) (main (F := Ideal))) (s₀ m ρ) (Pipeline.FramePost cfgs dats 0 (V m)))
    (G12 : Dev nD → S100000x128.Idx → EReal) (G13 : Dev nD → S100000x64.Idx → EReal)
    (h12 : ∀ c, (dats 0 c).arrAt 12 cfg0.N = G12 c) (h13 : ∀ c, (dats 0 c).arrAt 13 cfg0.N = G13 c) :
    θ_run defs (onTc (τ := τ) (main (F := Ideal))) ⟨m, fun _ => 0, ρ⟩ (fun r => ∀ c : Dev nD,
      r.2.mem ((c.tc : Thread nD τ).loc main_v50_1) = G13 c
      ∧ r.2.mem ((c.tc : Thread nD τ).loc main_v50_0) = G12 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 13).trans (h13 c), ((h c).1 12).trans (h12 c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats 0 c).arrAt_in 1 rfl _).trans ((hA c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 4).trans (((dats 0 c).arrAt_in 4 rfl _).trans ((hA c 4).trans (V_main_arg10 m c))),
      ((h c).1 5).trans (((dats 0 c).arrAt_in 5 rfl _).trans ((hA c 5).trans (V_main_arg11 m c))),
      ((h c).1 6).trans (((dats 0 c).arrAt_in 6 rfl _).trans ((hA c 6).trans (V_main_arg12 m c))),
      ((h c).1 7).trans (((dats 0 c).arrAt_in 7 rfl _).trans ((hA c 7).trans (V_main_arg13 m c))),
      ((h c).1 8).trans (((dats 0 c).arrAt_in 8 rfl _).trans ((hA c 8).trans (V_main_arg14 m c))),
      ((h c).1 9).trans (((dats 0 c).arrAt_in 9 rfl _).trans ((hA c 9).trans (V_main_arg15 m c))),
      ((h c).1 10).trans (((dats 0 c).arrAt_in 10 rfl _).trans ((hA c 10).trans (V_main_arg16 m c))),
      ((h c).1 11).trans (((dats 0 c).arrAt_in 11 rfl _).trans ((hA c 11).trans (V_main_arg17 m c)))⟩) h

/-- The frame run re-posted: each result array at a given function of its index (`h12`, `h13`: what the proof data's
    array after the last point is), the argument arrays unchanged. -/
theorem run_value (G12 : Dev nD → S100000x128.Idx → EReal) (G13 : Dev nD → S100000x64.Idx → EReal)
    (h12 : ∀ c, (dats m 0 c).arrAt 12 cfg0.N = G12 c) (h13 : ∀ c, (dats m 0 c).arrAt 13 cfg0.N = G13 c) :
    θ_run defs (onTc (τ := τ) (main (F := Ideal))) ⟨m, fun _ => 0, ρ⟩ (fun r => ∀ c : Dev nD,
      r.2.mem ((c.tc : Thread nD τ).loc main_v50_1) = G13 c
      ∧ r.2.mem ((c.tc : Thread nD τ).loc main_v50_0) = G12 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  run_value_of m ρ (dats m) (A_eq m) (run_main m ρ) G12 G13 h12 h13

end Cert.KernelIdeal.Hand

end
-- ==== Proof.LibRowScatter.lean ====
/-
  Row gather and row scatter-add of a matrix, read at an index.

  `x[idx]` of a matrix `x : [N, D]` at a column of row numbers `idx : [E, 1]` lowers to a gather whose result row `e` is
  row `idx[e, 0]` of `x`, the row number read signed and clamped into `[0, N - 1]`. Its transpose, the accumulating
  scatter `zeros.at[idx].add(u)` of update rows `u : [E, D]` (a segment sum), adds update row `e` onto operand row
  `idx[e, 0]` when that number, read signed and NOT clamped, is a row of the operand, and drops it otherwise. Read at
  an index at the ideal values: entry `(n, k)` of the scatter is the operand's entry plus the sum of `u (e, k)` over
  the update rows `e` whose row number is `n`.
-/
import Idealize.ShloMosaic.PureOps.Ideal
import Idealize.ShloMosaic.Lib.ValueIdx

noncomputable section

open scoped BigOperators

namespace Idealize.ShloMosaic.ValueIdx

open Idealize.ShloMosaic

variable {α : Type}

/-! ## The gather of rows -/

/-- The dimension numbers of a gather of whole rows: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row of the operand that result row `e` reads: the start index, signed, clamped into `[0, N - 1]`. -/
def gatherRow {N E w : Nat} (hN : 0 < N) (idx : IVec ⟨2, ![E, 1]⟩ w) (e : Fin E) : Fin N :=
  ⟨min (idx (ix2 e (0 : Fin 1))).toInt.toNat (N - 1), by omega⟩

/-- THE GATHER READ AT `(e, c)`: the operand at row `gatherRow idx e`, column `c`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N E D wf) x idx (ix2 e c) = x (ix2 (gatherRow hN idx e) c) := by
  unfold Host.gather
  refine congrArg x ?_
  funext a
  refine Fin.ext ?_
  match a with
  | ⟨0, _⟩ =>
    show (rowGatherDims N E D wf).start (ix2 e c) idx 0 + (rowGatherDims N E D wf).batchCoord (ix2 e c) 0
      + (rowGatherDims N E D wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx (ix2 e c) ⟨List.idxOf (0 : Fin 2) (rowGatherDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E D wf).start (ix2 e c) idx 1 + (rowGatherDims N E D wf).batchCoord (ix2 e c) 1
      + (rowGatherDims N E D wf).offCoord (ix2 e c) 1 = c.val
    rw [GatherDims.batchCoord_eq_zero _ _ _ List.not_mem_nil]
    have hs : (rowGatherDims N E D wf).start (ix2 e c) idx 1 = 0 := by
      unfold GatherDims.start
      rw [dif_neg (show ¬ (1 : Fin 2) ∈ ([0] : List (Fin 2)) by decide)]
    rw [hs]
    simp only [Nat.add_zero, Nat.zero_add]
    rfl

/-! ## The accumulating scatter of rows -/

/-- The dimension numbers of a scatter of whole rows: operand `[N, D]`, scatter indices `[E, 1]`, updates `[E, D]`. -/
abbrev rowScatterDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter

variable {N E D w : Nat} (wf : ScatterDims.WF ⟨2, ![N, D]⟩ ⟨2, ![E, 1]⟩ ⟨2, ![E, D]⟩ [1] [0] [0] 1)
  (idx : IVec ⟨2, ![E, 1]⟩ w) (e : Fin E) (c : Fin D)

/-- Update `(e, c)` starts, on the row axis, at its row number read signed … -/
theorem rowScatter_start0 : (rowScatterDims N E D wf).start (ix2 e c) idx 0 = (idx (ix2 e (0 : Fin 1))).toInt := by
  unfold ScatterDims.start
  rw [dif_pos (show (0 : Fin 2) ∈ (rowScatterDims N E D wf).scatterDimsToOperandDims from List.mem_singleton.mpr rfl)]
  have hsi : (rowScatterDims N E D wf).siIdx (ix2 e c) ⟨List.idxOf (0 : Fin 2) (rowScatterDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
/-- … and on the column axis at zero; -/
theorem rowScatter_start1 : (rowScatterDims N E D wf).start (ix2 e c) idx 1 = 0 := by
  unfold ScatterDims.start
  rw [dif_neg (show ¬ (1 : Fin 2) ∈ ([0] : List (Fin 2)) by decide)]
/-- The operand's axes that take a window coordinate are those not inserted: here the column axis alone. -/
theorem rowScatter_mem_sKept (a : Fin 2) : a ∈ (rowScatterDims N E D wf).sKept ↔ a ≠ 0 := by
  simp [ScatterDims.sKept, Shape.kept, List.mem_filter, List.mem_finRange]
/-- its window coordinate is zero on the row axis … -/
theorem rowScatter_window0 : (rowScatterDims N E D wf).window (ix2 e c) 0 = 0 := by
  unfold ScatterDims.window
  rw [dif_neg (fun h => ((rowScatter_mem_sKept wf 0).mp h) rfl)]
/-- … and its own column on the column axis. -/
theorem rowScatter_window1 : (rowScatterDims N E D wf).window (ix2 e c) 1 = c.val := by
  unfold ScatterDims.window
  rw [dif_pos ((rowScatter_mem_sKept wf 1).mpr (by decide))]
  rfl

/-- WHERE AN UPDATE LANDS: update `(e, c)` lands on operand entry `(n, k)` exactly when its row number, read signed, is
    `n` and its column is `k`. -/
theorem rowScatter_resultIdx?_eq_some_iff (n : Fin N) (k : Fin D) :
    (rowScatterDims N E D wf).resultIdx? (ix2 e c) idx = some (ix2 n k)
      ↔ (idx (ix2 e (0 : Fin 1))).toInt = (n.val : Int) ∧ c = k := by
  have hn := n.isLt
  have hc := c.isLt
  have hk := k.isLt
  have s0 : (rowScatterDims N E D wf).start (ix2 e c) idx 0 + ((rowScatterDims N E D wf).window (ix2 e c) 0 : Int)
      = (idx (ix2 e (0 : Fin 1))).toInt := by
    rw [rowScatter_start0, rowScatter_window0]; simp
  have s1 : (rowScatterDims N E D wf).start (ix2 e c) idx 1 + ((rowScatterDims N E D wf).window (ix2 e c) 1 : Int)
      = (c.val : Int) := by
    rw [rowScatter_start1, rowScatter_window1]; simp
  unfold ScatterDims.resultIdx?
  split
  · rename_i h
    have h00 : 0 ≤ (rowScatterDims N E D wf).start (ix2 e c) idx 0 + ((rowScatterDims N E D wf).window (ix2 e c) 0 : Int)
        ∧ (rowScatterDims N E D wf).start (ix2 e c) idx 0 + ((rowScatterDims N E D wf).window (ix2 e c) 0 : Int) < (N : Int) := h 0
    rw [s0] at h00
    constructor
    · intro heq
      have heq' := Option.some.inj heq
      have e0 : ((rowScatterDims N E D wf).start (ix2 e c) idx 0 + ((rowScatterDims N E D wf).window (ix2 e c) 0 : Int)).toNat
          = n.val := congrArg Fin.val (congrFun heq' 0)
      have e1 : ((rowScatterDims N E D wf).start (ix2 e c) idx 1 + ((rowScatterDims N E D wf).window (ix2 e c) 1 : Int)).toNat
          = k.val := congrArg Fin.val (congrFun heq' 1)
      rw [s0] at e0
      rw [s1] at e1
      exact ⟨by omega, Fin.ext (by omega)⟩
    · rintro ⟨hr, rfl⟩
      refine congrArg some ?_
      funext a
      refine Fin.ext ?_
      match a with
      | ⟨0, _⟩ =>
        show ((rowScatterDims N E D wf).start (ix2 e c) idx 0 + ((rowScatterDims N E D wf).window (ix2 e c) 0 : Int)).toNat = n.val
        rw [s0]; omega
      | ⟨1, _⟩ =>
        show ((rowScatterDims N E D wf).start (ix2 e c) idx 1 + ((rowScatterDims N E D wf).window (ix2 e c) 1 : Int)).toNat = c.val
        rw [s1]; omega
  · rename_i h
    constructor
    · intro heq; exact absurd heq (by simp)
    · rintro ⟨hr, rfl⟩
      refine absurd (fun a => ?_) h
      match a with
      | ⟨0, _⟩ =>
        show 0 ≤ (rowScatterDims N E D wf).start (ix2 e c) idx 0 + ((rowScatterDims N E D wf).window (ix2 e c) 0 : Int)
          ∧ (rowScatterDims N E D wf).start (ix2 e c) idx 0 + ((rowScatterDims N E D wf).window (ix2 e c) 0 : Int) < (N : Int)
        rw [s0]; omega
      | ⟨1, _⟩ =>
        show 0 ≤ (rowScatterDims N E D wf).start (ix2 e c) idx 1 + ((rowScatterDims N E D wf).window (ix2 e c) 1 : Int)
          ∧ (rowScatterDims N E D wf).start (ix2 e c) idx 1 + ((rowScatterDims N E D wf).window (ix2 e c) 1 : Int) < (D : Int)
        rw [s1]; omega

/-- THE SCATTER READ AT `(n, k)`, at the ideal values: the operand's entry plus the sum of column `k` of the update
    rows whose row number, read signed, is `n`. -/
theorem hostScatterAdd_rows_apply (x : (⟨2, ![N, D]⟩ : Shape).Idx → EReal) (upd : (⟨2, ![E, D]⟩ : Shape).Idx → EReal)
    (n : Fin N) (k : Fin D) :
    Ideal.hostScatterAdd (rowScatterDims N E D wf) x idx upd (ix2 n k)
      = x (ix2 n k) + ∑ e ∈ Finset.univ.filter (fun e : Fin E => (idx (ix2 e (0 : Fin 1))).toInt = (n.val : Int)), upd (ix2 e k) := by
  unfold Ideal.hostScatterAdd
  refine congrArg (x (ix2 n k) + ·) ?_
  rw [Finset.sum_filter, sum_idx2, Finset.sum_filter]
  refine Finset.sum_congr rfl fun e _ => ?_
  simp only [rowScatter_resultIdx?_eq_some_iff]
  by_cases hr : (idx (ix2 e (0 : Fin 1))).toInt = (n.val : Int)
  · simp only [hr, true_and, if_true]
    rw [Finset.sum_ite_eq' Finset.univ k (fun c => upd (ix2 e c))]
    simp
  · simp only [hr, false_and, if_false]
    exact Finset.sum_const_zero

end RowScatter

end Idealize.ShloMosaic.ValueIdx

end
-- ==== Proof.KernelHost.lean ====
/-
  What the region finds in the three arrays the host computes for it.

  Before the region @main builds, from the node features, the edge weights and the edge list: the per-node sum of
  gathered, normalised feature rows (window 0's array, `[100000, 64]`); the three projection matrices laid side by
  side (window 2's array, `[64, 384]`); and the three projection biases laid end to end (window 3's array, `[384]`).
  The edge list's source and target columns and the per-edge normalisation are computed by the same operations as in
  the reference, so they are stated through the reference's stage functions.
-/
import proofs.«124411_j62835371541091_2_alg».proof.Proof.KernelIdealFrame
import proofs.«124411_j62835371541091_2_alg».proof.Proof.Gen.ReferenceIdeal.Read
import proofs.«124411_j62835371541091_2_alg».proof.Proof.LibRowScatter
import Idealize.ShloMosaic.Lib.StableHlo.Run
import Idealize.ShloMosaic.Lib.Pipeline.Value
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The zero array the feature rows are accumulated into. -/
abbrev zeros64 : FVec Ideal S100000x64 .f32 :=
  broadcastInDim S100000x64 ![] bcast_S_S100000x64 (constant (F := Ideal) S_ .f32 0x00000000#32)

/-- The update rows: edge `e`'s normalisation times its source node's feature row. -/
abbrev updRows (x0 : FVec Ideal S100000x64 .f32) (x1 : FVec Ideal S1600000 .f32) (x3 : IVec S2x1600000 32) : FVec Ideal S1700000x64 .f32 :=
  mulf (F := Ideal) (broadcastInDim S1700000x64 ![0, 1] bcast_S1700000x1_S1700000x64_0_1 (Cert.ReferenceIdeal.Read.val_main_v33 (F := Ideal) x1 x3))
    (extf (F := Ideal) .f32 (Host.gather gather_S100000x64_S1700000x1_S1700000x64_1_0_n_n_0_1_164 (truncf (F := Ideal) .bf16 x0 bitsLt_bf16_f32)
      (Cert.ReferenceIdeal.Read.val_main_v39 (F := Ideal) x3)) bitsLt_bf16_f32)

/-- Running two stretches of host operations one after the other. -/
theorem after_append (l1 l2 : List (HloOp τ sig (Elt Ideal))) (V0 : Valuation τ sig (Elt Ideal)) :
    StableHlo.after (l1 ++ l2) V0 = StableHlo.after l2 (StableHlo.after l1 V0) := by
  induction l1 generalizing V0 with
  | nil => rfl
  | cons op l ih => exact ih _

/-- A joining operation's result after a line of host operations: when no later operation writes its result and no
    operation of the line writes its operands, it is its function of the operands as launched. -/
theorem after_nary_read {n : Nat} (ops pre post : List (HloOp τ sig (Elt Ideal))) (xs : Fin n → Ref sig .tc) (y : Ref sig .tc)
    (f : ((k : Fin n) → (xs k).ty.Contents (Elt Ideal)) → y.ty.Contents (Elt Ideal)) (hxs hy)
    (V0 : Valuation τ sig (Elt Ideal)) (hsplit : ops = pre ++ StableHlo.nary xs y f hxs hy :: post)
    (hpost : ∀ op ∈ post, (Proc.devRef .tc y : DevRef τ sig) ∉ op.writes)
    (hops : ∀ k, ∀ op ∈ ops, (Proc.devRef .tc (xs k) : DevRef τ sig) ∉ op.writes) :
    StableHlo.after ops V0 (Proc.devRef .tc y) = f (fun k => V0 (Proc.devRef .tc (xs k))) := by
  subst hsplit
  rw [after_append, StableHlo.after_cons, StableHlo.after_of_forall_not_mem post _ hpost, StableHlo.nary_result]
  refine congrArg f (funext fun k => ?_)
  exact StableHlo.after_of_forall_not_mem pre V0 fun op h => hops k op (List.mem_append_left _ h)

/-- No host operation before the region writes `main_arg4`. -/
theorem no_write_arg4 : ∀ op ∈ (List.flatten [hostOps0, hostOps0_1, hostOps0_2] : List (HloOp τ sig (Elt Ideal))),
    (Proc.devRef .tc main_arg4 : DevRef τ sig) ∉ op.writes :=
  List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- No host operation before the region writes `main_arg5`. -/
theorem no_write_arg5 : ∀ op ∈ (List.flatten [hostOps0, hostOps0_1, hostOps0_2] : List (HloOp τ sig (Elt Ideal))),
    (Proc.devRef .tc main_arg5 : DevRef τ sig) ∉ op.writes :=
  List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- No host operation before the region writes `main_arg6`. -/
theorem no_write_arg6 : ∀ op ∈ (List.flatten [hostOps0, hostOps0_1, hostOps0_2] : List (HloOp τ sig (Elt Ideal))),
    (Proc.devRef .tc main_arg6 : DevRef τ sig) ∉ op.writes :=
  List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- No host operation before the region writes `main_arg7`. -/
theorem no_write_arg7 : ∀ op ∈ (List.flatten [hostOps0, hostOps0_1, hostOps0_2] : List (HloOp τ sig (Elt Ideal))),
    (Proc.devRef .tc main_arg7 : DevRef τ sig) ∉ op.writes :=
  List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- No host operation before the region writes `main_arg8`. -/
theorem no_write_arg8 : ∀ op ∈ (List.flatten [hostOps0, hostOps0_1, hostOps0_2] : List (HloOp τ sig (Elt Ideal))),
    (Proc.devRef .tc main_arg8 : DevRef τ sig) ∉ op.writes :=
  List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- No host operation before the region writes `main_arg9`. -/
theorem no_write_arg9 : ∀ op ∈ (List.flatten [hostOps0, hostOps0_1, hostOps0_2] : List (HloOp τ sig (Elt Ideal))),
    (Proc.devRef .tc main_arg9 : DevRef τ sig) ∉ op.writes :=
  List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- Two arrays joined along an axis, with the two operands as arguments of their own. -/
def cat2 {α : Type} (t : Shape) (a : Fin t.rank) (s1 s2 : Shape) (h : Shape.Concatenates [s1, s2] t a)
    (x1 : s1.Idx → α) (x2 : s2.Idx → α) : t.Idx → α :=
  concatenate t a [⟨s1, x1⟩, ⟨s2, x2⟩] h

theorem cat2_fold {α : Type} (t : Shape) (a : Fin t.rank) (s1 s2 : Shape) (h : Shape.Concatenates [s1, s2] t a)
    (x1 : s1.Idx → α) (x2 : s2.Idx → α) : concatenate t a [⟨s1, x1⟩, ⟨s2, x2⟩] h = cat2 t a s1 s2 h x1 x2 := rfl

/-- The contents of a buffer after the host operations, as the composed term of the launch contents: every operation's
    result at its own buffer is its function of its operands' contents, and what it leaves elsewhere is what was there. -/
macro "host_vals" : tactic =>
  `(tactic| (dsimp only [V]
             simp only [hostOps0, hostOps0_1, hostOps0_2, List.flatten_cons, List.flatten_nil, List.append_nil, List.cons_append,
               List.nil_append]
             simp (disch := decide) only [cat2_fold, StableHlo.after_cons, StableHlo.after_nil,
               StableHlo.nullary_result', StableHlo.unary_result', StableHlo.binary_result', StableHlo.ternary_result',
               StableHlo.quaternary_result', StableHlo.reshape_result', StableHlo.nary4_result', StableHlo.nary_result',
               StableHlo.unaryIndexed_result', StableHlo.binaryIndexed_result',
               StableHlo.nullary_result_ne', StableHlo.unary_result_ne', StableHlo.binary_result_ne', StableHlo.ternary_result_ne',
               StableHlo.quaternary_result_ne', StableHlo.reshape_result_ne', StableHlo.nary_result_ne',
               StableHlo.unaryIndexed_result_ne', StableHlo.binaryIndexed_result_ne']))

/-! ### The edge list's columns and the normalisation, as the reference's stage functions -/

set_option maxHeartbeats 4000000 in
/-- The target column. -/
theorem V_dst (c : Dev nD) : (V m c main_v46 : IVec S1700000x1 32) = Cert.ReferenceIdeal.Read.val_main_v44 (F := Ideal) (m ((c : Thread nD τ).loc main_arg3)) := by
  host_vals
  simp only [cat2]
  rfl

set_option maxHeartbeats 4000000 in
/-- The source column, negative indices wrapped. -/
theorem V_src (c : Dev nD) : (V m c main_v40 : IVec S1700000x1 32) = Cert.ReferenceIdeal.Read.val_main_v39 (F := Ideal) (m ((c : Thread nD τ).loc main_arg3)) := by
  host_vals
  simp only [cat2]
  rfl

set_option maxHeartbeats 4000000 in
/-- The source column the inverse square-root degrees are gathered by. -/
theorem V_v22 (c : Dev nD) : (V m c main_v22 : IVec S1700000x1 32) = Cert.ReferenceIdeal.Read.val_main_v22 (F := Ideal) (m ((c : Thread nD τ).loc main_arg3)) := by
  host_vals
  simp only [cat2]
  rfl

set_option maxHeartbeats 4000000 in
/-- The target column the inverse square-root degrees are gathered by. -/
theorem V_v30 (c : Dev nD) : (V m c main_v30 : IVec S1700000x1 32) = Cert.ReferenceIdeal.Read.val_main_v30 (F := Ideal) (m ((c : Thread nD τ).loc main_arg3)) := by
  host_vals
  simp only [cat2]
  rfl

set_option maxHeartbeats 4000000 in
/-- The edge weights with the self loops' ones appended. -/
theorem V_ew (c : Dev nD) : (V m c main_v9 : FVec Ideal S1700000 .f32) = Cert.ReferenceIdeal.Read.val_main_v8 (F := Ideal) (m ((c : Thread nD τ).loc main_arg1)) := by
  host_vals
  simp only [cat2]
  rfl

set_option maxHeartbeats 4000000 in
/-- The degrees' positivity mask. -/
theorem V_v14 (c : Dev nD) : (V m c main_v14 : IVec S100000 1) = Cert.ReferenceIdeal.Read.val_main_v14 (F := Ideal) (m ((c : Thread nD τ).loc main_arg1)) (m ((c : Thread nD τ).loc main_arg3)) := by
  host_vals
  simp only [cat2]
  rfl

set_option maxHeartbeats 4000000 in
/-- The degrees' reciprocal square roots. -/
theorem V_v15 (c : Dev nD) : (V m c main_v15 : FVec Ideal S100000 .f32) = Cert.ReferenceIdeal.Read.val_main_v15 (F := Ideal) (m ((c : Thread nD τ).loc main_arg1)) (m ((c : Thread nD τ).loc main_arg3)) := by
  host_vals
  simp only [cat2]
  rfl

/-! A buffer of a tensor value holds the value's contents: the transport between the two spellings of the type is the
    identity at each of the buffers of the `where` call. -/
theorem toBuf_v16 (v : FVec Ideal S100000 .f32) :
    ((StableHlo.TRef.of main_v16 : StableHlo.TRef sig ⟨S100000, .f32⟩).toBuf (Val := Elt Ideal) v : FVec Ideal S100000 .f32) = v := rfl
theorem ofBuf_v14 (v : IVec S100000 1) :
    ((StableHlo.TRef.of main_v14 : StableHlo.TRef sig ⟨S100000, .i1⟩).ofBuf (Val := Elt Ideal) v : IVec S100000 1) = v := rfl
theorem ofBuf_v15 (v : FVec Ideal S100000 .f32) :
    ((StableHlo.TRef.of main_v15 : StableHlo.TRef sig ⟨S100000, .f32⟩).ofBuf (Val := Elt Ideal) v : FVec Ideal S100000 .f32) = v := rfl
theorem ofBuf_toBuf_call0_v1 (v : FVec Ideal S100000 .f32) :
    ((StableHlo.TRef.of main_call0_v1 : StableHlo.TRef sig ⟨S100000, .f32⟩).ofBuf (Val := Elt Ideal)
      ((StableHlo.TRef.of main_call0_v1 : StableHlo.TRef sig ⟨S100000, .f32⟩).toBuf (Val := Elt Ideal) v) : FVec Ideal S100000 .f32) = v := rfl
theorem ofBuf_toBuf_call0_v0 (v : FVec Ideal S_ .f32) :
    ((StableHlo.TRef.of main_call0_v0 : StableHlo.TRef sig ⟨S_, .f32⟩).ofBuf (Val := Elt Ideal)
      ((StableHlo.TRef.of main_call0_v0 : StableHlo.TRef sig ⟨S_, .f32⟩).toBuf (Val := Elt Ideal) v) : FVec Ideal S_ .f32) = v := rfl
theorem ofBuf_cst_2 (v : FVec Ideal S_ .f32) :
    ((StableHlo.TRef.of main_cst_2 : StableHlo.TRef sig ⟨S_, .f32⟩).ofBuf (Val := Elt Ideal) v : FVec Ideal S_ .f32) = v := rfl

set_option maxHeartbeats 4000000 in
/-- The inverse square-root degree: the reciprocal square root where the degree is positive, zero elsewhere. -/
theorem V_v16 (c : Dev nD) : (V m c main_v16 : FVec Ideal S100000 .f32)
    = select (V m c main_v14 : IVec S100000 1) (V m c main_v15 : FVec Ideal S100000 .f32)
        (broadcastInDim S100000 ![] bcast_S_S100000 (constant (F := Ideal) S_ .f32 0x00000000#32)) := by
  host_vals
  generalize (Host.scatterAdd (F := Ideal) scatter_S100000_S1700000x1_S1700000_n_0_0_1 _ _ _ : FVec Ideal S100000 .f32) = d
  repeat (first | rw [ofBuf_cst_2] | rw [ofBuf_v15] | rw [ofBuf_v14] | rw [toBuf_v16])
  rfl

set_option maxHeartbeats 4000000 in
/-- The normalisation column: `dinv[src] · w · dinv[dst]` per edge. -/
theorem V_v34 (c : Dev nD) : (V m c main_v34 : FVec Ideal S1700000x1 .f32)
    = broadcastInDim S1700000x1 ![0] bcast_S1700000_S1700000x1_0
        (mulf (F := Ideal) (φ := .f32) (mulf (F := Ideal) (φ := .f32)
          (Host.gather gather_S100000_S1700000x1_S1700000_n_0_n_n_0_1_1 (V m c main_v16 : FVec Ideal S100000 .f32) (V m c main_v22 : IVec S1700000x1 32) : FVec Ideal S1700000 .f32)
          (V m c main_v9 : FVec Ideal S1700000 .f32))
          (Host.gather gather_S100000_S1700000x1_S1700000_n_0_n_n_0_1_1 (V m c main_v16 : FVec Ideal S100000 .f32) (V m c main_v30 : IVec S1700000x1 32) : FVec Ideal S1700000 .f32)) := by
  host_vals
  all_goals rfl

/-- The normalisation column is the reference's. -/
theorem V_nrm (c : Dev nD) : (V m c main_v34 : FVec Ideal S1700000x1 .f32) = Cert.ReferenceIdeal.Read.val_main_v33 (F := Ideal) (m ((c : Thread nD τ).loc main_arg1)) (m ((c : Thread nD τ).loc main_arg3)) := by
  rw [V_v34, V_v16, V_v14, V_v15, V_v22, V_v30, V_ew]
  rfl

set_option maxHeartbeats 4000000 in
/-- Window 0's array from the columns: the per-node sum of the normalised gathered feature rows. -/
theorem V_v47_cols (c : Dev nD) :
    (V m c main_v47 : FVec Ideal S100000x64 .f32) = Host.scatterAdd (F := Ideal) scatter_S100000x64_S1700000x1_S1700000x64_1_0_0_1 zeros64
      (V m c main_v46 : IVec S1700000x1 32)
      (mulf (F := Ideal) (broadcastInDim S1700000x64 ![0, 1] bcast_S1700000x1_S1700000x64_0_1 (V m c main_v34 : FVec Ideal S1700000x1 .f32))
        (extf (F := Ideal) .f32 (Host.gather gather_S100000x64_S1700000x1_S1700000x64_1_0_n_n_0_1_164
          (truncf (F := Ideal) .bf16 (m ((c : Thread nD τ).loc main_arg0)) bitsLt_bf16_f32) (V m c main_v40 : IVec S1700000x1 32)) bitsLt_bf16_f32)) := by
  host_vals
  all_goals rfl

/-- Window 0's array: the per-node sum of the normalised gathered feature rows. -/
theorem V_main_v47 (c : Dev nD) :
    (V m c main_v47 : FVec Ideal S100000x64 .f32) = Host.scatterAdd (F := Ideal) scatter_S100000x64_S1700000x1_S1700000x64_1_0_0_1 zeros64
      (Cert.ReferenceIdeal.Read.val_main_v44 (F := Ideal) (m ((c : Thread nD τ).loc main_arg3)))
      (updRows (m ((c : Thread nD τ).loc main_arg0)) (m ((c : Thread nD τ).loc main_arg1)) (m ((c : Thread nD τ).loc main_arg3))) := by
  rw [V_v47_cols, V_dst, V_nrm, V_src]

/-- Window 2's array: the three projection matrices side by side. -/
theorem V_main_v48 (c : Dev nD) :
    (V m c main_v48 : FVec Ideal S64x384 .f32) = concatenate S64x384 1 [⟨S64x128, m ((c : Thread nD τ).loc main_arg4)⟩,
      ⟨S64x128, m ((c : Thread nD τ).loc main_arg6)⟩, ⟨S64x128, m ((c : Thread nD τ).loc main_arg8)⟩]
      concatenates_S64x128_S64x128_S64x128_S64x384_d1 :=
  (after_nary_read (List.flatten [hostOps0, hostOps0_1, hostOps0_2]) (hostOps0 ++ hostOps0_1 ++ hostOps0_2.dropLast.dropLast)
    [StableHlo.nary ![main_arg5, main_arg7, main_arg9] main_v49 (fun u => concatenate S384 0 [⟨S128, u 0⟩, ⟨S128, u 1⟩, ⟨S128, u 2⟩] concatenates_S128_S128_S128_S384_d0)]
    ![main_arg4, main_arg6, main_arg8] main_v48
    (fun u => concatenate S64x384 1 [⟨S64x128, u 0⟩, ⟨S64x128, u 1⟩, ⟨S64x128, u 2⟩] concatenates_S64x128_S64x128_S64x128_S64x384_d1)
    _ _ (fun b => m (c, b)) rfl
    (fun op h => by
      rw [List.mem_singleton] at h; subst h
      rw [StableHlo.nary_writes, Finset.mem_singleton]
      exact StableHlo.devRef_ne_of_ne (by decide))
    (fun k => match k with
      | ⟨0, _⟩ => no_write_arg4
      | ⟨1, _⟩ => no_write_arg6
      | ⟨2, _⟩ => no_write_arg8)).trans rfl

/-- Window 3's array: the three projection biases end to end. -/
theorem V_main_v49 (c : Dev nD) :
    (V m c main_v49 : FVec Ideal S384 .f32) = concatenate S384 0 [⟨S128, m ((c : Thread nD τ).loc main_arg5)⟩,
      ⟨S128, m ((c : Thread nD τ).loc main_arg7)⟩, ⟨S128, m ((c : Thread nD τ).loc main_arg9)⟩]
      concatenates_S128_S128_S128_S384_d0 :=
  (after_nary_read (List.flatten [hostOps0, hostOps0_1, hostOps0_2]) (hostOps0 ++ hostOps0_1 ++ hostOps0_2.dropLast) []
    ![main_arg5, main_arg7, main_arg9] main_v49
    (fun u => concatenate S384 0 [⟨S128, u 0⟩, ⟨S128, u 1⟩, ⟨S128, u 2⟩] concatenates_S128_S128_S128_S384_d0)
    _ _ (fun b => m (c, b)) rfl
    (fun op h => absurd h (List.not_mem_nil))
    (fun k => match k with
      | ⟨0, _⟩ => no_write_arg5
      | ⟨1, _⟩ => no_write_arg7
      | ⟨2, _⟩ => no_write_arg9)).trans rfl

/-- The zero array is zero. -/
theorem zeros64_apply (i : S100000x64.Idx) : zeros64 i = 0 := by
  show broadcastInDim S100000x64 ![] bcast_S_S100000x64 (constant (F := Ideal) S_ .f32 0x00000000#32) i = 0
  rw [broadcastInDim_scalar_apply]
  exact Ideal.ofBits_zero_f32

/-- The program's record of the gather of whole feature rows is the general one. -/
theorem gather64_eq : gather_S100000x64_S1700000x1_S1700000x64_1_0_n_n_0_1_164
    = rowGatherDims 100000 1700000 64 gather_S100000x64_S1700000x1_S1700000x64_1_0_n_n_0_1_164_wf := rfl

/-- An update row at `(e, q)`: edge `e`'s normalisation times feature `q` of the node its source index names (read
    signed and clamped into the node range). -/
theorem updRows_apply (x0 : FVec Ideal S100000x64 .f32) (x1 : FVec Ideal S1600000 .f32) (x3 : IVec S2x1600000 32) (e : Fin 1700000) (q : Fin 64) :
    updRows x0 x1 x3 (ix2 e q) = Cert.ReferenceIdeal.Read.val_main_v32 (F := Ideal) x1 x3 (ix1 e)
      * x0 (ix2 (gatherRow (N := 100000) (by decide) (Cert.ReferenceIdeal.Read.val_main_v39 (F := Ideal) x3) e) q) := by
  have hn : Cert.ReferenceIdeal.Read.idx_main_v33 (ix2 e (0 : Fin 1)) = ix1 e := funext fun a => Fin.ext (by match a with | ⟨0, _⟩ => rfl)
  dsimp only [updRows]
  generalize hs : Cert.ReferenceIdeal.Read.val_main_v39 (F := Ideal) x3 = src
  have hb : broadcastInDim S1700000x64 ![0, 1] bcast_S1700000x1_S1700000x64_0_1 (Cert.ReferenceIdeal.Read.val_main_v33 (F := Ideal) x1 x3) (ix2 e q)
      = Cert.ReferenceIdeal.Read.val_main_v32 (F := Ideal) x1 x3 (ix1 e) := by
    rw [broadcastInDim_apply ![0, 1] bcast_S1700000x1_S1700000x64_0_1 _ (ix2 e q) (ix2 e (0 : Fin 1)) (fun a => by
        match a with
        | ⟨0, _⟩ => show e.val = if (1700000 : Nat) = 1 then 0 else e.val; rw [if_neg (by decide)]
        | ⟨1, _⟩ => show (0 : Nat) = if (1 : Nat) = 1 then 0 else q.val; rw [if_pos rfl]),
      Cert.ReferenceIdeal.Read.val_main_v33_apply, hn]
  rw [mulf_apply, hb, extf_apply, gather64_eq, gather_rows_apply (N := 100000) (by decide), truncf_apply]

end Cert.KernelIdeal.Hand

end
-- ==== Proof.Cell.lean ====
/-
  The dense, row-by-row part of the gated recurrent cell, stated index by index on the extended reals.

  For one node (one row) let `Gz, Gr, Gh` be its three graph-convolution rows and `H` its hidden row (128 entries each).
  With `cat a b` the 256-entry row `a` followed by `b`, and `lin256 a W b` the affine map `a · W + b`,
      Z  = σ (lin256 (cat Gz H) Wlz blz),     R = σ (lin256 (cat Gr H) Wlr blr),
      H~ = tanh (lin256 (cat Gh (H ⊙ R)) Wlh blh),     H' = Z ⊙ H + (1 − Z) ⊙ H~,
      y  = max (H', 0) · Whead + bhead.
  `σ` is the logistic function `1 / (1 + e^(−x))`, which on the extended reals is one function whether it is applied
  as one operation or spelled as negate, exponential, add and divide.
  Also here: two joined blocks of 128 columns read at a column, whatever the number of rows.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

open scoped BigOperators

namespace Cert.Cell

open Idealize.ShloMosaic Idealize.ShloMosaic.ValueIdx

/-- The row `a` (128 entries) followed by the row `b` (128 entries). -/
def cat (a b : Fin 128 → EReal) (k : Fin 256) : EReal :=
  if h : k.val < 128 then a ⟨k.val, h⟩ else b ⟨k.val - 128, by have := k.isLt; omega⟩

/-- The affine map of a 256-entry row: `(a · W + b) j`. -/
def lin256 (a : Fin 256 → EReal) (W : (⟨2, ![256, 128]⟩ : Shape).Idx → EReal) (b : (⟨1, ![128]⟩ : Shape).Idx → EReal)
    (j : Fin 128) : EReal :=
  (∑ k : Fin 256, a k * W (ix2 k j)) + b (ix1 j)

/-- A gate: the logistic function of the affine map of a graph-convolution row joined with the hidden row. -/
def gate (G H : Fin 128 → EReal) (W : (⟨2, ![256, 128]⟩ : Shape).Idx → EReal) (b : (⟨1, ![128]⟩ : Shape).Idx → EReal)
    (j : Fin 128) : EReal :=
  Ideal.logistic (lin256 (cat G H) W b j)

/-- The new hidden row `Z ⊙ H + (1 − Z) ⊙ tanh (lin256 (cat Gh (H ⊙ R)))`. -/
def hnewRow (Gz Gr Gh H : Fin 128 → EReal)
    (Wlz : (⟨2, ![256, 128]⟩ : Shape).Idx → EReal) (blz : (⟨1, ![128]⟩ : Shape).Idx → EReal)
    (Wlr : (⟨2, ![256, 128]⟩ : Shape).Idx → EReal) (blr : (⟨1, ![128]⟩ : Shape).Idx → EReal)
    (Wlh : (⟨2, ![256, 128]⟩ : Shape).Idx → EReal) (blh : (⟨1, ![128]⟩ : Shape).Idx → EReal) (j : Fin 128) : EReal :=
  gate Gz H Wlz blz j * H j
    + (Ideal.ofBits .f32 0x3F800000#32 - gate Gz H Wlz blz j)
      * Ideal.tanh (lin256 (cat Gh (fun k => H k * gate Gr H Wlr blr k)) Wlh blh j)

/-- The output row `max (H', 0) · Whead + bhead`. -/
def headRow (Hn : Fin 128 → EReal) (Wh : (⟨2, ![128, 64]⟩ : Shape).Idx → EReal) (bh : (⟨1, ![64]⟩ : Shape).Idx → EReal)
    (j : Fin 64) : EReal :=
  (∑ k : Fin 128, max (Hn k) (Ideal.ofBits .f32 0x00000000#32) * Wh (ix2 k j)) + bh (ix1 j)

/-- The logistic function spelled as negate, exponential, add one, divide one by it. -/
theorem logistic_spelled (x : EReal) :
    Ideal.div (Ideal.ofBits .f32 0x3F800000#32) (Ideal.ofBits .f32 0x3F800000#32 + Ideal.exp (-x)) = Ideal.logistic x := by
  rw [Ideal.ofBits_one_f32]; rfl

/-- Two blocks of 128 columns joined along the columns, read at row `p`, column `k`: the left block's entry when
    `k < 128`, else the right block's at `k − 128`. -/
theorem catCols_apply {a : Nat} (A B : (⟨2, ![a, 128]⟩ : Shape).Idx → EReal)
    (h : Shape.Concatenates [(⟨2, ![a, 128]⟩ : Shape), ⟨2, ![a, 128]⟩] ⟨2, ![a, 256]⟩ 1) (p : Fin a) (k : Fin 256) :
    concatenate ⟨2, ![a, 256]⟩ 1 [⟨⟨2, ![a, 128]⟩, A⟩, ⟨⟨2, ![a, 128]⟩, B⟩] h (ix2 p k)
      = cat (fun q => A (ix2 p q)) (fun q => B (ix2 p q)) k := by
  unfold cat
  split
  · rename_i hk
    exact concatenate_pair_apply_left 1 A B h (ix2 p k) rfl (ix2 p ⟨k.val, hk⟩) (fun b => by
      match b with
      | ⟨0, _⟩ => rfl
      | ⟨1, _⟩ => rfl)
  · rename_i hk
    exact concatenate_pair_apply_right 1 A B h (ix2 p k) rfl rfl (ix2 p ⟨k.val - 128, by have := k.isLt; omega⟩) (fun b hb => by
      match b with
      | ⟨0, _⟩ => rfl
      | ⟨1, _⟩ => exact absurd rfl hb) (by
      show (k.val - 128) + 128 = k.val
      omega)

end Cert.Cell

end
-- ==== Proof.KernelPayload.lean ====
/-
  The kernel body's arithmetic read at one entry of a block of 4000 rows.

  At row `p` of a block the body computes the three graph-convolution rows as one product with the three projection
  matrices laid side by side (384 columns, sliced into three groups of 128), then the gated cell of that row: every
  entry of the two stored blocks is the row functions `hnewRow` / `headRow` of that row's entries alone. The matrix
  unit's products into a zero accumulator are plain finite sums; changes of float format are the identity.
-/
import proofs.«124411_j62835371541091_2_alg».proof.Proof.Gen.KernelIdeal.Skeleton
import proofs.«124411_j62835371541091_2_alg».proof.Proof.Cell
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Cert.Cell Idealize.ShloMosaic Idealize.ShloMosaic.ValueIdx

/-- The matrix unit's product into a zero accumulator, read at row `p`, column `j`: the sum over the 64 contracted
    coordinates of the left operand's row entry times the right operand's column entry. -/
theorem mm64x384_apply {φ₁ φ₂ : FTy} (l : FVec Ideal S4000x64 φ₁) (r : FVec Ideal S64x384 φ₂) (p : Fin 4000) (j : Fin 384) :
    matmul dot_S4000x64_S64x384_S4000x384_1_0_0_1_n_n none l r (constant S4000x384 .f32 0x00000000#32) (ix2 p j)
      = ∑ k : Fin 64, l (ix2 p k) * r (ix2 k j) := by
  show FloatOps.matmul dot_S4000x64_S64x384_S4000x384_1_0_0_1_n_n none l r (constant S4000x384 .f32 0x00000000#32) (ix2 p j) = _
  rw [Ideal.matmul_constant_zero_apply, ← Equiv.sum_comp (ValueIdx.contrEquiv1 dot_S4000x64_S64x384_S4000x384_1_0_0_1_n_n 64 rfl rfl).symm]
  refine Finset.sum_congr rfl fun k _ => ?_
  have hk := ValueIdx.contrEquiv1_symm_val dot_S4000x64_S64x384_S4000x384_1_0_0_1_n_n 64 rfl rfl k
  have el : dot_S4000x64_S64x384_S4000x384_1_0_0_1_n_n.lhsIdx (ix2 p j) ((ValueIdx.contrEquiv1 dot_S4000x64_S64x384_S4000x384_1_0_0_1_n_n 64 rfl rfl).symm k) = ix2 p k := funext fun a => Fin.ext (by
    match a with
    | ⟨0, _⟩ =>
      show (dot_S4000x64_S64x384_S4000x384_1_0_0_1_n_n.lhsIdx (ix2 p j) _ 0).val = p.val
      unfold DotDims.lhsIdx
      rw [dif_neg (show ¬(0 : Fin S4000x64.rank) ∈ dot_S4000x64_S64x384_S4000x384_1_0_0_1_n_n.lhsBatch by decide), dif_pos (show (0 : Fin S4000x64.rank) ∈ dot_S4000x64_S64x384_S4000x384_1_0_0_1_n_n.lhsNonContracting by decide)]
      rfl
    | ⟨1, _⟩ => exact (dot_S4000x64_S64x384_S4000x384_1_0_0_1_n_n.lhsIdx_val_of_single rfl (ix2 p j) _).trans hk)
  have er : dot_S4000x64_S64x384_S4000x384_1_0_0_1_n_n.rhsIdx (ix2 p j) ((ValueIdx.contrEquiv1 dot_S4000x64_S64x384_S4000x384_1_0_0_1_n_n 64 rfl rfl).symm k) = ix2 k j := funext fun a => Fin.ext (by
    match a with
    | ⟨0, _⟩ => exact (dot_S4000x64_S64x384_S4000x384_1_0_0_1_n_n.rhsIdx_val_of_single rfl (ix2 p j) _).trans hk
    | ⟨1, _⟩ =>
      show (dot_S4000x64_S64x384_S4000x384_1_0_0_1_n_n.rhsIdx (ix2 p j) _ 1).val = j.val
      unfold DotDims.rhsIdx
      rw [dif_neg (show ¬(1 : Fin S64x384.rank) ∈ dot_S4000x64_S64x384_S4000x384_1_0_0_1_n_n.rhsBatch by decide), dif_pos (show (1 : Fin S64x384.rank) ∈ dot_S4000x64_S64x384_S4000x384_1_0_0_1_n_n.rhsNonContracting by decide)]
      rfl)
  rw [el, er]

/-- The matrix unit's product into a zero accumulator, read at row `p`, column `j`: the sum over the 256 contracted
    coordinates of the left operand's row entry times the right operand's column entry. -/
theorem mm256x128_apply {φ₁ φ₂ : FTy} (l : FVec Ideal S4000x256 φ₁) (r : FVec Ideal S256x128 φ₂) (p : Fin 4000) (j : Fin 128) :
    matmul dot_S4000x256_S256x128_S4000x128_1_0_0_1_n_n none l r (constant S4000x128 .f32 0x00000000#32) (ix2 p j)
      = ∑ k : Fin 256, l (ix2 p k) * r (ix2 k j) := by
  show FloatOps.matmul dot_S4000x256_S256x128_S4000x128_1_0_0_1_n_n none l r (constant S4000x128 .f32 0x00000000#32) (ix2 p j) = _
  rw [Ideal.matmul_constant_zero_apply, ← Equiv.sum_comp (ValueIdx.contrEquiv1 dot_S4000x256_S256x128_S4000x128_1_0_0_1_n_n 256 rfl rfl).symm]
  refine Finset.sum_congr rfl fun k _ => ?_
  have hk := ValueIdx.contrEquiv1_symm_val dot_S4000x256_S256x128_S4000x128_1_0_0_1_n_n 256 rfl rfl k
  have el : dot_S4000x256_S256x128_S4000x128_1_0_0_1_n_n.lhsIdx (ix2 p j) ((ValueIdx.contrEquiv1 dot_S4000x256_S256x128_S4000x128_1_0_0_1_n_n 256 rfl rfl).symm k) = ix2 p k := funext fun a => Fin.ext (by
    match a with
    | ⟨0, _⟩ =>
      show (dot_S4000x256_S256x128_S4000x128_1_0_0_1_n_n.lhsIdx (ix2 p j) _ 0).val = p.val
      unfold DotDims.lhsIdx
      rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
      rfl
    | ⟨1, _⟩ => exact (dot_S4000x256_S256x128_S4000x128_1_0_0_1_n_n.lhsIdx_val_of_single rfl (ix2 p j) _).trans hk)
  have er : dot_S4000x256_S256x128_S4000x128_1_0_0_1_n_n.rhsIdx (ix2 p j) ((ValueIdx.contrEquiv1 dot_S4000x256_S256x128_S4000x128_1_0_0_1_n_n 256 rfl rfl).symm k) = ix2 k j := funext fun a => Fin.ext (by
    match a with
    | ⟨0, _⟩ => exact (dot_S4000x256_S256x128_S4000x128_1_0_0_1_n_n.rhsIdx_val_of_single rfl (ix2 p j) _).trans hk
    | ⟨1, _⟩ =>
      show (dot_S4000x256_S256x128_S4000x128_1_0_0_1_n_n.rhsIdx (ix2 p j) _ 1).val = j.val
      unfold DotDims.rhsIdx
      rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
      rfl)
  rw [el, er]

/-- The matrix unit's product into a zero accumulator, read at row `p`, column `j`: the sum over the 128 contracted
    coordinates of the left operand's row entry times the right operand's column entry. -/
theorem mm128x64_apply {φ₁ φ₂ : FTy} (l : FVec Ideal S4000x128 φ₁) (r : FVec Ideal S128x64 φ₂) (p : Fin 4000) (j : Fin 64) :
    matmul dot_S4000x128_S128x64_S4000x64_1_0_0_1_n_n none l r (constant S4000x64 .f32 0x00000000#32) (ix2 p j)
      = ∑ k : Fin 128, l (ix2 p k) * r (ix2 k j) := by
  show FloatOps.matmul dot_S4000x128_S128x64_S4000x64_1_0_0_1_n_n none l r (constant S4000x64 .f32 0x00000000#32) (ix2 p j) = _
  rw [Ideal.matmul_constant_zero_apply, ← Equiv.sum_comp (ValueIdx.contrEquiv1 dot_S4000x128_S128x64_S4000x64_1_0_0_1_n_n 128 rfl rfl).symm]
  refine Finset.sum_congr rfl fun k _ => ?_
  have hk := ValueIdx.contrEquiv1_symm_val dot_S4000x128_S128x64_S4000x64_1_0_0_1_n_n 128 rfl rfl k
  have el : dot_S4000x128_S128x64_S4000x64_1_0_0_1_n_n.lhsIdx (ix2 p j) ((ValueIdx.contrEquiv1 dot_S4000x128_S128x64_S4000x64_1_0_0_1_n_n 128 rfl rfl).symm k) = ix2 p k := funext fun a => Fin.ext (by
    match a with
    | ⟨0, _⟩ =>
      show (dot_S4000x128_S128x64_S4000x64_1_0_0_1_n_n.lhsIdx (ix2 p j) _ 0).val = p.val
      unfold DotDims.lhsIdx
      rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
      rfl
    | ⟨1, _⟩ => exact (dot_S4000x128_S128x64_S4000x64_1_0_0_1_n_n.lhsIdx_val_of_single rfl (ix2 p j) _).trans hk)
  have er : dot_S4000x128_S128x64_S4000x64_1_0_0_1_n_n.rhsIdx (ix2 p j) ((ValueIdx.contrEquiv1 dot_S4000x128_S128x64_S4000x64_1_0_0_1_n_n 128 rfl rfl).symm k) = ix2 k j := funext fun a => Fin.ext (by
    match a with
    | ⟨0, _⟩ => exact (dot_S4000x128_S128x64_S4000x64_1_0_0_1_n_n.rhsIdx_val_of_single rfl (ix2 p j) _).trans hk
    | ⟨1, _⟩ =>
      show (dot_S4000x128_S128x64_S4000x64_1_0_0_1_n_n.rhsIdx (ix2 p j) _ 1).val = j.val
      unfold DotDims.rhsIdx
      rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
      rfl)
  rw [el, er]

/-- The product with the three projection matrices laid side by side, plus the three biases laid end to end, at row
    `p`, column `c` of 384. -/
theorem pay3_apply (v0 : Vec Ideal S4000x64 .f32) (v4 : Vec Ideal S64x384 .f32) (v8 : Vec Ideal S384 .f32) (p : Fin 4000) (c : Fin 384) :
    k0_pay3 v0 v4 v8 (ix2 p c) = (∑ q : Fin 64, v0 (ix2 p q) * v4 (ix2 q c)) + v8 (ix1 c) := by
  unfold k0_pay3
  rw [addf_apply, shapeCast_self, shapeCast_self, shapeCast_self, mm64x384_apply, broadcastTo_1b_ab_apply, shapeCast_a_1a_apply]
  rfl

/-- Row `p`'s graph-convolution row for the gate whose columns start at `o` (0, 128 or 256). -/
def G3 (v0 : Vec Ideal S4000x64 .f32) (v4 : Vec Ideal S64x384 .f32) (v8 : Vec Ideal S384 .f32) (p : Fin 4000) (o : Nat) (ho : o + 128 ≤ 384) :
    Fin 128 → EReal :=
  fun k => k0_pay3 v0 v4 v8 (ix2 p ⟨o + k.val, by have := k.isLt; omega⟩)

/-- Two blocks of 128 columns joined, times a `[256, 128]` matrix, plus a bias row: the affine map of the joined row. -/
theorem lin_block_apply (A B : FVec Ideal S4000x128 .f32) (W : Vec Ideal S256x128 .f32) (b : Vec Ideal S128 .f32) (p : Fin 4000) (j : Fin 128) :
    addf (matmul dot_S4000x256_S256x128_S4000x128_1_0_0_1_n_n none
          (truncf .bf16 (concatenate S4000x256 1 [⟨S4000x128, A⟩, ⟨S4000x128, B⟩] concatenates_S4000x128_S4000x128_S4000x256_d1) bitsLt_bf16_f32)
          (truncf .bf16 W bitsLt_bf16_f32) (constant S4000x128 .f32 0x00000000#32))
        (broadcastTo S4000x128 (shapeCast S1x128 b shapeCasts_S128_S1x128) broadcasts_S1x128_S4000x128) (ix2 p j)
      = lin256 (cat (fun k => A (ix2 p k)) (fun k => B (ix2 p k))) W b j := by
  unfold lin256
  rw [addf_apply, mm256x128_apply, broadcastTo_1b_ab_apply, shapeCast_a_1a_apply]
  refine congrArg (· + b (ix1 j)) (Finset.sum_congr rfl fun k _ => ?_)
  refine congrArg (· * W (ix2 k j)) ?_
  exact catCols_apply (a := 4000) A B concatenates_S4000x128_S4000x128_S4000x256_d1 p k

/-- A group of 128 columns cut out of the 384, read at `(p, k)`. -/
theorem slice384_apply (X : FVec Ideal S4000x384 .f32) (o : Nat) (ho : o + 128 ≤ 384) (h : S4000x384.Slices ![0, o] S4000x128)
    (p : Fin 4000) (k : Fin 128) :
    extractStridedSlice S4000x128 ![0, o] X h (ix2 p k) = X (ix2 p ⟨o + k.val, by have := k.isLt; omega⟩) :=
  slice2_axis1_apply o X h p k ⟨o + k.val, by have := k.isLt; omega⟩ rfl

/-- The update gate of row `p`. -/
theorem pay4_apply (v0 : Vec Ideal S4000x64 .f32) (v3 : Vec Ideal S4000x128 .f32) (v4 : Vec Ideal S64x384 .f32) (v8 : Vec Ideal S384 .f32)
    (v18 : Vec Ideal S256x128 .f32) (v21 : Vec Ideal S128 .f32) (p : Fin 4000) (j : Fin 128) :
    k0_pay4 v0 v3 v4 v8 v18 v21 (ix2 p j) = gate (G3 v0 v4 v8 p 0 (by omega)) (fun k => v3 (ix2 p k)) v18 v21 j := by
  unfold k0_pay4 gate
  refine congrArg Ideal.logistic ?_
  refine (lin_block_apply _ v3 v18 v21 p j).trans ?_
  refine congrArg (fun a => lin256 (cat a (fun k => v3 (ix2 p k))) v18 v21 j) (funext fun k => ?_)
  exact slice384_apply _ 0 (by omega) _ p k

/-- The joined row the candidate state is computed from: the third graph-convolution row, then the hidden row times
    the reset gate. -/
theorem pay5_apply (v0 : Vec Ideal S4000x64 .f32) (v3 : Vec Ideal S4000x128 .f32) (v4 : Vec Ideal S64x384 .f32) (v8 : Vec Ideal S384 .f32)
    (v28 : Vec Ideal S256x128 .f32) (v31 : Vec Ideal S128 .f32) (p : Fin 4000) (k : Fin 256) :
    k0_pay5 v0 v3 v4 v8 v28 v31 (ix2 p k)
      = cat (G3 v0 v4 v8 p 256 (by omega))
          (fun q => v3 (ix2 p q) * gate (G3 v0 v4 v8 p 128 (by omega)) (fun k => v3 (ix2 p k)) v28 v31 q) k := by
  unfold k0_pay5
  refine (catCols_apply (a := 4000) _ _ concatenates_S4000x128_S4000x128_S4000x256_d1 p k).trans ?_
  refine congrArg₂ (fun a b => cat a b k) (funext fun q => ?_) (funext fun q => ?_)
  · exact slice384_apply _ 256 (by omega) _ p q
  · rw [mulf_apply]
    refine congrArg (v3 (ix2 p q) * ·) ?_
    unfold gate
    refine congrArg Ideal.logistic ?_
    refine (lin_block_apply _ v3 v28 v31 p q).trans ?_
    refine congrArg (fun a => lin256 (cat a (fun k => v3 (ix2 p k))) v28 v31 q) (funext fun k => ?_)
    exact slice384_apply _ 128 (by omega) _ p k

/-- The new hidden state at `(p, j)`, from the update gate `v25`, the joined candidate row `v38` and the hidden block. -/
theorem pay1_apply (v3 : Vec Ideal S4000x128 .f32) (v25 : FVec Ideal S4000x128 .f32) (v38 : FVec Ideal S4000x256 .bf16)
    (v40 : FVec Ideal S256x128 .bf16) (v42 : Vec Ideal S128 .f32) (p : Fin 4000) (j : Fin 128) :
    k0_pay1 v3 v25 v38 v40 v42 (ix2 p j)
      = v25 (ix2 p j) * v3 (ix2 p j)
        + (Ideal.ofBits .f32 0x3F800000#32 - v25 (ix2 p j))
          * Ideal.tanh ((∑ k : Fin 256, v38 (ix2 p k) * v40 (ix2 k j)) + v42 (ix1 j)) := by
  unfold k0_pay1
  rw [addf_apply, mulf_apply, mulf_apply, subf_apply, broadcast_apply]
  refine congrArg (fun z => v25 (ix2 p j) * v3 (ix2 p j) + (Ideal.ofBits .f32 0x3F800000#32 - v25 (ix2 p j)) * z) ?_
  refine congrArg Ideal.tanh ?_
  rw [addf_apply, mm256x128_apply, broadcastTo_1b_ab_apply, shapeCast_a_1a_apply]

/-- The output row at `(p, j)`: the head applied to the new hidden row. -/
theorem pay2_apply (v3 : Vec Ideal S4000x128 .f32) (v25 : FVec Ideal S4000x128 .f32) (v38 : FVec Ideal S4000x256 .bf16)
    (v40 : FVec Ideal S256x128 .bf16) (v42 : Vec Ideal S128 .f32) (v56 : Vec Ideal S128x64 .f32) (v59 : Vec Ideal S64 .f32)
    (p : Fin 4000) (j : Fin 64) :
    k0_pay2 v3 v25 v38 v40 v42 v56 v59 (ix2 p j) = headRow (fun k => k0_pay1 v3 v25 v38 v40 v42 (ix2 p k)) v56 v59 j := by
  unfold k0_pay2 headRow
  rw [addf_apply, mm128x64_apply, broadcastTo_1b_ab_apply, shapeCast_a_1a_apply]
  rfl

/-- THE NEW HIDDEN BLOCK at `(p, j)` is the row function `hnewRow` of row `p`'s three graph-convolution rows and
    hidden row. -/
theorem hnew_block_apply (v0 : Vec Ideal S4000x64 .f32) (v3 : Vec Ideal S4000x128 .f32) (v4 : Vec Ideal S64x384 .f32) (v8 : Vec Ideal S384 .f32)
    (v18 : Vec Ideal S256x128 .f32) (v21 : Vec Ideal S128 .f32) (v28 : Vec Ideal S256x128 .f32) (v31 : Vec Ideal S128 .f32)
    (v39 : Vec Ideal S256x128 .f32) (v42 : Vec Ideal S128 .f32) (p : Fin 4000) (j : Fin 128) :
    k0_pay1 v3 (k0_pay4 v0 v3 v4 v8 v18 v21) (k0_pay5 v0 v3 v4 v8 v28 v31) (k0_pay6 v39) v42 (ix2 p j)
      = hnewRow (G3 v0 v4 v8 p 0 (by omega)) (G3 v0 v4 v8 p 128 (by omega)) (G3 v0 v4 v8 p 256 (by omega))
          (fun k => v3 (ix2 p k)) v18 v21 v28 v31 v39 v42 j := by
  simp only [pay1_apply, pay4_apply, pay5_apply, hnewRow, lin256]
  rfl

end Cert.KernelIdeal.Pay

end
-- ==== Proof.Cat3.lean ====
/-
  Three matrices `[64, 128]` laid side by side into `[64, 384]`, and three rows `[128]` laid end to end into `[384]`,
  read at an index: column `o + k` of the joined matrix with `o` one of 0, 128, 256 is column `k` of the first,
  second or third matrix, and the same for the rows.
-/
import Idealize.ShloMosaic.Lib.ValueIdx
import Idealize.ShloMosaic.Lib.Pipeline.Value

namespace Cert.Cat3

open Idealize.ShloMosaic Idealize.ShloMosaic.ValueIdx

variable {α : Type}

/-- Columns 0 … 127 of the joined matrix are the first matrix. -/
theorem cols0_apply (W0 W1 W2 : (⟨2, ![64, 128]⟩ : Shape).Idx → α)
    (h : Shape.Concatenates [(⟨2, ![64, 128]⟩ : Shape), ⟨2, ![64, 128]⟩, ⟨2, ![64, 128]⟩] ⟨2, ![64, 384]⟩ 1)
    (q : Fin 64) (k : Fin 128) (c : Fin 384) (hc : c.val = 0 + k.val) :
    concatenate ⟨2, ![64, 384]⟩ 1 [⟨⟨2, ![64, 128]⟩, W0⟩, ⟨⟨2, ![64, 128]⟩, W1⟩, ⟨⟨2, ![64, 128]⟩, W2⟩] h (ix2 q c) = W0 (ix2 q k) :=
  concatenate_apply_piece 1 [⟨⟨2, ![64, 128]⟩, W0⟩, ⟨⟨2, ![64, 128]⟩, W1⟩, ⟨⟨2, ![64, 128]⟩, W2⟩] h (ix2 q c) 0 (by show 0 < 3; omega) ⟨2, ![64, 128]⟩ W0 rfl rfl 0 rfl (ix2 q k)
    (fun b hb => by
      match b with
      | ⟨0, _⟩ => rfl
      | ⟨1, _⟩ => exact absurd rfl hb)
    (by show 0 + k.val = c.val; omega)

/-- Columns 128 … 255 of the joined matrix are the second matrix. -/
theorem cols1_apply (W0 W1 W2 : (⟨2, ![64, 128]⟩ : Shape).Idx → α)
    (h : Shape.Concatenates [(⟨2, ![64, 128]⟩ : Shape), ⟨2, ![64, 128]⟩, ⟨2, ![64, 128]⟩] ⟨2, ![64, 384]⟩ 1)
    (q : Fin 64) (k : Fin 128) (c : Fin 384) (hc : c.val = 128 + k.val) :
    concatenate ⟨2, ![64, 384]⟩ 1 [⟨⟨2, ![64, 128]⟩, W0⟩, ⟨⟨2, ![64, 128]⟩, W1⟩, ⟨⟨2, ![64, 128]⟩, W2⟩] h (ix2 q c) = W1 (ix2 q k) :=
  concatenate_apply_piece 1 [⟨⟨2, ![64, 128]⟩, W0⟩, ⟨⟨2, ![64, 128]⟩, W1⟩, ⟨⟨2, ![64, 128]⟩, W2⟩] h (ix2 q c) 1 (by show 1 < 3; omega) ⟨2, ![64, 128]⟩ W1 rfl rfl 128 rfl (ix2 q k)
    (fun b hb => by
      match b with
      | ⟨0, _⟩ => rfl
      | ⟨1, _⟩ => exact absurd rfl hb)
    (by show 128 + k.val = c.val; omega)

/-- Columns 256 … 383 of the joined matrix are the third matrix. -/
theorem cols2_apply (W0 W1 W2 : (⟨2, ![64, 128]⟩ : Shape).Idx → α)
    (h : Shape.Concatenates [(⟨2, ![64, 128]⟩ : Shape), ⟨2, ![64, 128]⟩, ⟨2, ![64, 128]⟩] ⟨2, ![64, 384]⟩ 1)
    (q : Fin 64) (k : Fin 128) (c : Fin 384) (hc : c.val = 256 + k.val) :
    concatenate ⟨2, ![64, 384]⟩ 1 [⟨⟨2, ![64, 128]⟩, W0⟩, ⟨⟨2, ![64, 128]⟩, W1⟩, ⟨⟨2, ![64, 128]⟩, W2⟩] h (ix2 q c) = W2 (ix2 q k) :=
  concatenate_apply_piece 1 [⟨⟨2, ![64, 128]⟩, W0⟩, ⟨⟨2, ![64, 128]⟩, W1⟩, ⟨⟨2, ![64, 128]⟩, W2⟩] h (ix2 q c) 2 (by show 2 < 3; omega) ⟨2, ![64, 128]⟩ W2 rfl rfl 256 rfl (ix2 q k)
    (fun b hb => by
      match b with
      | ⟨0, _⟩ => rfl
      | ⟨1, _⟩ => exact absurd rfl hb)
    (by show 256 + k.val = c.val; omega)

/-- Entries 0 … 127 of the joined row are the first row. -/
theorem row0_apply (b0 b1 b2 : (⟨1, ![128]⟩ : Shape).Idx → α)
    (h : Shape.Concatenates [(⟨1, ![128]⟩ : Shape), ⟨1, ![128]⟩, ⟨1, ![128]⟩] ⟨1, ![384]⟩ 0)
    (k : Fin 128) (c : Fin 384) (hc : c.val = 0 + k.val) :
    concatenate ⟨1, ![384]⟩ 0 [⟨⟨1, ![128]⟩, b0⟩, ⟨⟨1, ![128]⟩, b1⟩, ⟨⟨1, ![128]⟩, b2⟩] h (ix1 c) = b0 (ix1 k) :=
  concatenate_apply_piece 0 [⟨⟨1, ![128]⟩, b0⟩, ⟨⟨1, ![128]⟩, b1⟩, ⟨⟨1, ![128]⟩, b2⟩] h (ix1 c) 0 (by show 0 < 3; omega) ⟨1, ![128]⟩ b0 rfl rfl 0 rfl (ix1 k)
    (fun b hb => by
      match b with
      | ⟨0, _⟩ => exact absurd rfl hb)
    (by show 0 + k.val = c.val; omega)

/-- Entries 128 … 255 of the joined row are the second row. -/
theorem row1_apply (b0 b1 b2 : (⟨1, ![128]⟩ : Shape).Idx → α)
    (h : Shape.Concatenates [(⟨1, ![128]⟩ : Shape), ⟨1, ![128]⟩, ⟨1, ![128]⟩] ⟨1, ![384]⟩ 0)
    (k : Fin 128) (c : Fin 384) (hc : c.val = 128 + k.val) :
    concatenate ⟨1, ![384]⟩ 0 [⟨⟨1, ![128]⟩, b0⟩, ⟨⟨1, ![128]⟩, b1⟩, ⟨⟨1, ![128]⟩, b2⟩] h (ix1 c) = b1 (ix1 k) :=
  concatenate_apply_piece 0 [⟨⟨1, ![128]⟩, b0⟩, ⟨⟨1, ![128]⟩, b1⟩, ⟨⟨1, ![128]⟩, b2⟩] h (ix1 c) 1 (by show 1 < 3; omega) ⟨1, ![128]⟩ b1 rfl rfl 128 rfl (ix1 k)
    (fun b hb => by
      match b with
      | ⟨0, _⟩ => exact absurd rfl hb)
    (by show 128 + k.val = c.val; omega)

/-- Entries 256 … 383 of the joined row are the third row. -/
theorem row2_apply (b0 b1 b2 : (⟨1, ![128]⟩ : Shape).Idx → α)
    (h : Shape.Concatenates [(⟨1, ![128]⟩ : Shape), ⟨1, ![128]⟩, ⟨1, ![128]⟩] ⟨1, ![384]⟩ 0)
    (k : Fin 128) (c : Fin 384) (hc : c.val = 256 + k.val) :
    concatenate ⟨1, ![384]⟩ 0 [⟨⟨1, ![128]⟩, b0⟩, ⟨⟨1, ![128]⟩, b1⟩, ⟨⟨1, ![128]⟩, b2⟩] h (ix1 c) = b2 (ix1 k) :=
  concatenate_apply_piece 0 [⟨⟨1, ![128]⟩, b0⟩, ⟨⟨1, ![128]⟩, b1⟩, ⟨⟨1, ![128]⟩, b2⟩] h (ix1 c) 2 (by show 2 < 3; omega) ⟨1, ![128]⟩ b2 rfl rfl 256 rfl (ix1 k)
    (fun b hb => by
      match b with
      | ⟨0, _⟩ => exact absurd rfl hb)
    (by show 256 + k.val = c.val; omega)

end Cert.Cat3
-- ==== Proof.Spec.lean ====
/-
  The two results as whole-array functions of the inputs.

  With `A : [100000, 64]` the per-node sum of normalised gathered feature rows, node `i`'s graph-convolution row
  for a gate with projection matrix `W` and bias `b` is `A i · W + b`; the new hidden state's row `i` is the cell's
  row function of the three gates' rows and the hidden row `i`, and the output's row `i` is the head of that.
-/
import proofs.«124411_j62835371541091_2_alg».proof.Proof.Cell

noncomputable section

open scoped BigOperators

namespace Cert.Cell

open Idealize.ShloMosaic Idealize.ShloMosaic.ValueIdx

/-- Node `i`'s graph-convolution row: `(A i · W + b) k`. -/
def gcnRow (A : (⟨2, ![100000, 64]⟩ : Shape).Idx → EReal) (W : (⟨2, ![64, 128]⟩ : Shape).Idx → EReal)
    (b : (⟨1, ![128]⟩ : Shape).Idx → EReal) (i : Fin 100000) (k : Fin 128) : EReal :=
  (∑ q : Fin 64, A (ix2 i q) * W (ix2 q k)) + b (ix1 k)

/-- The new hidden state, `[100000, 128]`. -/
def specH (A : (⟨2, ![100000, 64]⟩ : Shape).Idx → EReal) (H : (⟨2, ![100000, 128]⟩ : Shape).Idx → EReal)
    (Wz : (⟨2, ![64, 128]⟩ : Shape).Idx → EReal) (bz : (⟨1, ![128]⟩ : Shape).Idx → EReal)
    (Wr : (⟨2, ![64, 128]⟩ : Shape).Idx → EReal) (br : (⟨1, ![128]⟩ : Shape).Idx → EReal)
    (Wh : (⟨2, ![64, 128]⟩ : Shape).Idx → EReal) (bh : (⟨1, ![128]⟩ : Shape).Idx → EReal)
    (Wlz : (⟨2, ![256, 128]⟩ : Shape).Idx → EReal) (blz : (⟨1, ![128]⟩ : Shape).Idx → EReal)
    (Wlr : (⟨2, ![256, 128]⟩ : Shape).Idx → EReal) (blr : (⟨1, ![128]⟩ : Shape).Idx → EReal)
    (Wlh : (⟨2, ![256, 128]⟩ : Shape).Idx → EReal) (blh : (⟨1, ![128]⟩ : Shape).Idx → EReal) :
    (⟨2, ![100000, 128]⟩ : Shape).Idx → EReal :=
  fun idx => hnewRow (gcnRow A Wz bz (idx 0)) (gcnRow A Wr br (idx 0)) (gcnRow A Wh bh (idx 0)) (fun k => H (ix2 (idx 0) k))
    Wlz blz Wlr blr Wlh blh (idx 1)

/-- The output, `[100000, 64]`: the head of the new hidden state, row by row. -/
def specY (Hn : (⟨2, ![100000, 128]⟩ : Shape).Idx → EReal) (Whead : (⟨2, ![128, 64]⟩ : Shape).Idx → EReal)
    (bhead : (⟨1, ![64]⟩ : Shape).Idx → EReal) : (⟨2, ![100000, 64]⟩ : Shape).Idx → EReal :=
  fun idx => headRow (fun k => Hn (ix2 (idx 0) k)) Whead bhead (idx 1)

end Cert.Cell

end
-- ==== Proof.KernelRows.lean ====
/-
  A block row's three graph-convolution rows are the node's: with the block's feature rows those of the aggregated
  array at the node, the product with the three projection matrices side by side, cut into its three groups of 128
  columns, is the node's graph-convolution row for each gate's own matrix and bias.
-/
import proofs.«124411_j62835371541091_2_alg».proof.Proof.KernelPayload
import proofs.«124411_j62835371541091_2_alg».proof.Proof.Cat3
import proofs.«124411_j62835371541091_2_alg».proof.Proof.Spec

noncomputable section

open scoped BigOperators

namespace Cert.KernelIdeal.Pay

open Cert.KernelIdeal Cert.KernelIdeal.Gen Cert.Cell Idealize.ShloMosaic Idealize.ShloMosaic.ValueIdx

theorem G3_z (v0 : Vec Ideal S4000x64 .f32) (W0 W1 W2 : Vec Ideal S64x128 .f32) (b0 b1 b2 : Vec Ideal S128 .f32)
    (A : (⟨2, ![100000, 64]⟩ : Shape).Idx → EReal) (i : Fin 100000) (p : Fin 4000) (h0 : ∀ q : Fin 64, v0 (ix2 p q) = A (ix2 i q)) :
    G3 v0 (concatenate S64x384 1 [⟨S64x128, W0⟩, ⟨S64x128, W1⟩, ⟨S64x128, W2⟩] concatenates_S64x128_S64x128_S64x128_S64x384_d1)
        (concatenate S384 0 [⟨S128, b0⟩, ⟨S128, b1⟩, ⟨S128, b2⟩] concatenates_S128_S128_S128_S384_d0) p 0 (by omega)
      = gcnRow A W0 b0 i := by
  funext k
  unfold G3 gcnRow
  rw [pay3_apply]
  refine congrArg₂ (· + ·) (Finset.sum_congr rfl fun q _ => congrArg₂ (· * ·) (h0 q) ?_) ?_
  · exact Cert.Cat3.cols0_apply W0 W1 W2 concatenates_S64x128_S64x128_S64x128_S64x384_d1 q k _ rfl
  · exact Cert.Cat3.row0_apply b0 b1 b2 concatenates_S128_S128_S128_S384_d0 k _ rfl

theorem G3_r (v0 : Vec Ideal S4000x64 .f32) (W0 W1 W2 : Vec Ideal S64x128 .f32) (b0 b1 b2 : Vec Ideal S128 .f32)
    (A : (⟨2, ![100000, 64]⟩ : Shape).Idx → EReal) (i : Fin 100000) (p : Fin 4000) (h0 : ∀ q : Fin 64, v0 (ix2 p q) = A (ix2 i q)) :
    G3 v0 (concatenate S64x384 1 [⟨S64x128, W0⟩, ⟨S64x128, W1⟩, ⟨S64x128, W2⟩] concatenates_S64x128_S64x128_S64x128_S64x384_d1)
        (concatenate S384 0 [⟨S128, b0⟩, ⟨S128, b1⟩, ⟨S128, b2⟩] concatenates_S128_S128_S128_S384_d0) p 128 (by omega)
      = gcnRow A W1 b1 i := by
  funext k
  unfold G3 gcnRow
  rw [pay3_apply]
  refine congrArg₂ (· + ·) (Finset.sum_congr rfl fun q _ => congrArg₂ (· * ·) (h0 q) ?_) ?_
  · exact Cert.Cat3.cols1_apply W0 W1 W2 concatenates_S64x128_S64x128_S64x128_S64x384_d1 q k _ rfl
  · exact Cert.Cat3.row1_apply b0 b1 b2 concatenates_S128_S128_S128_S384_d0 k _ rfl

theorem G3_h (v0 : Vec Ideal S4000x64 .f32) (W0 W1 W2 : Vec Ideal S64x128 .f32) (b0 b1 b2 : Vec Ideal S128 .f32)
    (A : (⟨2, ![100000, 64]⟩ : Shape).Idx → EReal) (i : Fin 100000) (p : Fin 4000) (h0 : ∀ q : Fin 64, v0 (ix2 p q) = A (ix2 i q)) :
    G3 v0 (concatenate S64x384 1 [⟨S64x128, W0⟩, ⟨S64x128, W1⟩, ⟨S64x128, W2⟩] concatenates_S64x128_S64x128_S64x128_S64x384_d1)
        (concatenate S384 0 [⟨S128, b0⟩, ⟨S128, b1⟩, ⟨S128, b2⟩] concatenates_S128_S128_S128_S384_d0) p 256 (by omega)
      = gcnRow A W2 b2 i := by
  funext k
  unfold G3 gcnRow
  rw [pay3_apply]
  refine congrArg₂ (· + ·) (Finset.sum_congr rfl fun q _ => congrArg₂ (· * ·) (h0 q) ?_) ?_
  · exact Cert.Cat3.cols2_apply W0 W1 W2 concatenates_S64x128_S64x128_S64x128_S64x384_d1 q k _ rfl
  · exact Cert.Cat3.row2_apply b0 b1 b2 concatenates_S128_S128_S128_S384_d0 k _ rfl

end Cert.KernelIdeal.Pay

end
-- ==== Proof.KernelOut.lean ====
/-
  What the body leaves in its two output blocks, as the cell's row functions.

  Each output block is stored whole by one store, so the block after the body IS the stored value; read at row `p`
  it is the cell's row function of that row's entries. When the block's feature rows and hidden rows are rows
  `i` of the whole arrays, and the resident blocks are the joined projection matrices and biases, entry `(p, j)` of
  the stored blocks is entry `(i, j)` of the whole-array results `specH` and `specY`.
-/
import proofs.«124411_j62835371541091_2_alg».proof.Proof.KernelIdealFrame
import proofs.«124411_j62835371541091_2_alg».proof.Proof.KernelRows

set_option maxRecDepth 16384

noncomputable section

open scoped BigOperators

namespace Cert.KernelIdeal.Hand

open Cert.KernelIdeal Cert.KernelIdeal.Gen Cert.KernelIdeal.Pay Cert.Cell
open Idealize.ShloMosaic Idealize.ShloMosaic.ValueIdx

theorem hz1 : (![0] : Fin 1 → Nat) = fun _ => 0 := funext fun a => by fin_cases a <;> rfl
theorem hz2 : (![0, 0] : Fin 2 → Nat) = fun _ => 0 := funext fun a => by fin_cases a <;> rfl

/-- The new-hidden-state block after the body is the stored value, a function of the loaded blocks. -/
theorem out0_12_eq (x0 : Vec Ideal S4000x64 .f32) (x1 : Vec Ideal S4000x128 .f32) (x2 : Vec Ideal S64x384 .f32) (x3 : Vec Ideal S384 .f32) (x4 : Vec Ideal S256x128 .f32) (x5 : Vec Ideal S128 .f32) (x6 : Vec Ideal S256x128 .f32) (x7 : Vec Ideal S128 .f32) (x8 : Vec Ideal S256x128 .f32) (x9 : Vec Ideal S128 .f32) (x10 : Vec Ideal S128x64 .f32) (x11 : Vec Ideal S64 .f32) :
    out0_12 (F := Ideal) x0 x1 x2 x3 x4 x5 x6 x7 x8 x9 x10 x11
      = k0_pay1 x1 (k0_pay4 x0 x1 x2 x3 x4 x5) (k0_pay5 x0 x1 x2 x3 x6 x7) (k0_pay6 x8) x9 := by
  unfold out0_12
  rw [View.canon_unit_zero hz2]
  simp only [View.ld_unit_zero (S := S4000x64) hz2, View.ld_unit_zero (S := S4000x128) hz2, View.ld_unit_zero (S := S64x384) hz2,
    View.ld_unit_zero (S := S384) hz1, View.ld_unit_zero (S := S256x128) hz2, View.ld_unit_zero (S := S128) hz1]

/-- The output block after the body is the stored value. -/
theorem out0_13_eq (x0 : Vec Ideal S4000x64 .f32) (x1 : Vec Ideal S4000x128 .f32) (x2 : Vec Ideal S64x384 .f32) (x3 : Vec Ideal S384 .f32) (x4 : Vec Ideal S256x128 .f32) (x5 : Vec Ideal S128 .f32) (x6 : Vec Ideal S256x128 .f32) (x7 : Vec Ideal S128 .f32) (x8 : Vec Ideal S256x128 .f32) (x9 : Vec Ideal S128 .f32) (x10 : Vec Ideal S128x64 .f32) (x11 : Vec Ideal S64 .f32) :
    out0_13 (F := Ideal) x0 x1 x2 x3 x4 x5 x6 x7 x8 x9 x10 x11
      = k0_pay2 x1 (k0_pay4 x0 x1 x2 x3 x4 x5) (k0_pay5 x0 x1 x2 x3 x6 x7) (k0_pay6 x8) x9 x10 x11 := by
  unfold out0_13
  rw [View.canon_unit_zero hz2]
  simp only [View.ld_unit_zero (S := S4000x64) hz2, View.ld_unit_zero (S := S4000x128) hz2, View.ld_unit_zero (S := S64x384) hz2,
    View.ld_unit_zero (S := S384) hz1, View.ld_unit_zero (S := S256x128) hz2, View.ld_unit_zero (S := S128) hz1,
    View.ld_unit_zero (S := S128x64) hz2, View.ld_unit_zero (S := S64) hz1]

/-- ENTRY `(p, j)` OF THE NEW-HIDDEN-STATE BLOCK is entry `(i, j)` of `specH`, when block row `p` is array row `i`. -/
theorem out12_apply (x0 : Vec Ideal S4000x64 .f32) (x1 : Vec Ideal S4000x128 .f32) (x2 : Vec Ideal S64x384 .f32) (x3 : Vec Ideal S384 .f32) (x4 : Vec Ideal S256x128 .f32) (x5 : Vec Ideal S128 .f32) (x6 : Vec Ideal S256x128 .f32) (x7 : Vec Ideal S128 .f32) (x8 : Vec Ideal S256x128 .f32) (x9 : Vec Ideal S128 .f32) (x10 : Vec Ideal S128x64 .f32) (x11 : Vec Ideal S64 .f32)
    (A : (⟨2, ![100000, 64]⟩ : Shape).Idx → EReal) (H : (⟨2, ![100000, 128]⟩ : Shape).Idx → EReal)
    (W0 W1 W2 : Vec Ideal S64x128 .f32) (b0 b1 b2 : Vec Ideal S128 .f32) (i : Fin 100000) (p : Fin 4000)
    (h0 : ∀ q : Fin 64, x0 (ix2 p q) = A (ix2 i q)) (h1 : ∀ q : Fin 128, x1 (ix2 p q) = H (ix2 i q))
    (h2 : x2 = concatenate S64x384 1 [⟨S64x128, W0⟩, ⟨S64x128, W1⟩, ⟨S64x128, W2⟩] concatenates_S64x128_S64x128_S64x128_S64x384_d1)
    (h3 : x3 = concatenate S384 0 [⟨S128, b0⟩, ⟨S128, b1⟩, ⟨S128, b2⟩] concatenates_S128_S128_S128_S384_d0) (j : Fin 128) :
    out0_12 (F := Ideal) x0 x1 x2 x3 x4 x5 x6 x7 x8 x9 x10 x11 (ix2 p j)
      = specH A H W0 b0 W1 b1 W2 b2 x4 x5 x6 x7 x8 x9 (ix2 i j) := by
  subst h2 h3
  rw [out0_12_eq, hnew_block_apply, G3_z x0 W0 W1 W2 b0 b1 b2 A i p h0, G3_r x0 W0 W1 W2 b0 b1 b2 A i p h0,
    G3_h x0 W0 W1 W2 b0 b1 b2 A i p h0, show (fun k => x1 (ix2 p k)) = fun k => H (ix2 i k) from funext h1]
  rfl

/-- ENTRY `(p, j)` OF THE OUTPUT BLOCK is entry `(i, j)` of `specY` of `specH`. -/
theorem out13_apply (x0 : Vec Ideal S4000x64 .f32) (x1 : Vec Ideal S4000x128 .f32) (x2 : Vec Ideal S64x384 .f32) (x3 : Vec Ideal S384 .f32) (x4 : Vec Ideal S256x128 .f32) (x5 : Vec Ideal S128 .f32) (x6 : Vec Ideal S256x128 .f32) (x7 : Vec Ideal S128 .f32) (x8 : Vec Ideal S256x128 .f32) (x9 : Vec Ideal S128 .f32) (x10 : Vec Ideal S128x64 .f32) (x11 : Vec Ideal S64 .f32)
    (A : (⟨2, ![100000, 64]⟩ : Shape).Idx → EReal) (H : (⟨2, ![100000, 128]⟩ : Shape).Idx → EReal)
    (W0 W1 W2 : Vec Ideal S64x128 .f32) (b0 b1 b2 : Vec Ideal S128 .f32) (i : Fin 100000) (p : Fin 4000)
    (h0 : ∀ q : Fin 64, x0 (ix2 p q) = A (ix2 i q)) (h1 : ∀ q : Fin 128, x1 (ix2 p q) = H (ix2 i q))
    (h2 : x2 = concatenate S64x384 1 [⟨S64x128, W0⟩, ⟨S64x128, W1⟩, ⟨S64x128, W2⟩] concatenates_S64x128_S64x128_S64x128_S64x384_d1)
    (h3 : x3 = concatenate S384 0 [⟨S128, b0⟩, ⟨S128, b1⟩, ⟨S128, b2⟩] concatenates_S128_S128_S128_S384_d0) (j : Fin 64) :
    out0_13 (F := Ideal) x0 x1 x2 x3 x4 x5 x6 x7 x8 x9 x10 x11 (ix2 p j)
      = specY (specH A H W0 b0 W1 b1 W2 b2 x4 x5 x6 x7 x8 x9) x10 x11 (ix2 i j) := by
  rw [out0_13_eq, pay2_apply]
  unfold specY
  refine congrArg (fun f => headRow f x10 x11 j) (funext fun k => ?_)
  have e := out12_apply x0 x1 x2 x3 x4 x5 x6 x7 x8 x9 x10 x11 A H W0 W1 W2 b0 b1 b2 i p h0 h1 h2 h3 k
  rw [out0_12_eq] at e
  exact e

end Cert.KernelIdeal.Hand

end
-- ==== Proof.KernelValue.lean ====
/- The two result arrays of `KernelIdeal` after the run, as the whole-array functions `specH` and `specY` of what the
   region finds.

   At grid point `t` the body's stored blocks, read at row `p`, are rows `4000 t + p` of `specH` and of `specY` of it:
   the row-blocked inputs are rows `4000 t + p` of their arrays, and the resident inputs are the joined projection
   matrices and biases the host laid out and eight argument arrays, the same at every point. The 25 row blocks
   tile the rows, so the arrays after the run are those functions. The per-node feature sums the host computes
   (`V m c main_v47`) stay a closed term throughout. -/
import proofs.«124411_j62835371541091_2_alg».proof.Proof.KernelIdealBlocks
import proofs.«124411_j62835371541091_2_alg».proof.Proof.KernelHost
import proofs.«124411_j62835371541091_2_alg».proof.Proof.KernelOut

set_option maxRecDepth 16384

noncomputable section

namespace Cert.KernelIdeal.Hand

open Cert.KernelIdeal Cert.KernelIdeal.Gen Cert.Cell
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## A stored block's entry over any blocks that are what the arrays say -/

/-- Entry `(p, j)` of the new-hidden-state block is entry `(i, j)` of `specH`, over ANY twelve blocks of which the
    two row-blocked ones are rows `i` of `A` and `H` at block row `p`, blocks 2 and 3 are the three projection matrices
    side by side and the three biases end to end, and blocks 4 … 9 are the arrays `y4 … y9`. -/
theorem hG12_of (x0 : Vec Ideal S4000x64 .f32) (x1 : Vec Ideal S4000x128 .f32) (x2 : Vec Ideal S64x384 .f32) (x3 : Vec Ideal S384 .f32) (x4 : Vec Ideal S256x128 .f32) (x5 : Vec Ideal S128 .f32) (x6 : Vec Ideal S256x128 .f32) (x7 : Vec Ideal S128 .f32) (x8 : Vec Ideal S256x128 .f32) (x9 : Vec Ideal S128 .f32) (x10 : Vec Ideal S128x64 .f32) (x11 : Vec Ideal S64 .f32)
    (A : (⟨2, ![100000, 64]⟩ : Shape).Idx → EReal) (H : (⟨2, ![100000, 128]⟩ : Shape).Idx → EReal)
    (W0 W1 W2 : Vec Ideal S64x128 .f32) (b0 b1 b2 : Vec Ideal S128 .f32)
    (y4 : Vec Ideal S256x128 .f32) (y5 : Vec Ideal S128 .f32) (y6 : Vec Ideal S256x128 .f32) (y7 : Vec Ideal S128 .f32) (y8 : Vec Ideal S256x128 .f32) (y9 : Vec Ideal S128 .f32)
    (i : Fin 100000) (p : Fin 4000)
    (h0 : ∀ q : Fin 64, x0 (ix2 p q) = A (ix2 i q)) (h1 : ∀ q : Fin 128, x1 (ix2 p q) = H (ix2 i q))
    (h2 : x2 = concatenate S64x384 1 [⟨S64x128, W0⟩, ⟨S64x128, W1⟩, ⟨S64x128, W2⟩] concatenates_S64x128_S64x128_S64x128_S64x384_d1)
    (h3 : x3 = concatenate S384 0 [⟨S128, b0⟩, ⟨S128, b1⟩, ⟨S128, b2⟩] concatenates_S128_S128_S128_S384_d0)
    (e4 : x4 = y4) (e5 : x5 = y5) (e6 : x6 = y6) (e7 : x7 = y7) (e8 : x8 = y8) (e9 : x9 = y9) (j : Fin 128) :
    out0_12 (F := Ideal) x0 x1 x2 x3 x4 x5 x6 x7 x8 x9 x10 x11 (ix2 p j)
      = specH A H W0 b0 W1 b1 W2 b2 y4 y5 y6 y7 y8 y9 (ix2 i j) := by
  subst e4 e5 e6 e7 e8 e9
  exact out12_apply x0 x1 x2 x3 x4 x5 x6 x7 x8 x9 x10 x11 A H W0 W1 W2 b0 b1 b2 i p h0 h1 h2 h3 j

/-- Entry `(p, j)` of the output block is entry `(i, j)` of `specY` of that `specH`, blocks 10 and 11 being the arrays
    `y10`, `y11`. -/
theorem hG13_of (x0 : Vec Ideal S4000x64 .f32) (x1 : Vec Ideal S4000x128 .f32) (x2 : Vec Ideal S64x384 .f32) (x3 : Vec Ideal S384 .f32) (x4 : Vec Ideal S256x128 .f32) (x5 : Vec Ideal S128 .f32) (x6 : Vec Ideal S256x128 .f32) (x7 : Vec Ideal S128 .f32) (x8 : Vec Ideal S256x128 .f32) (x9 : Vec Ideal S128 .f32) (x10 : Vec Ideal S128x64 .f32) (x11 : Vec Ideal S64 .f32)
    (A : (⟨2, ![100000, 64]⟩ : Shape).Idx → EReal) (H : (⟨2, ![100000, 128]⟩ : Shape).Idx → EReal)
    (W0 W1 W2 : Vec Ideal S64x128 .f32) (b0 b1 b2 : Vec Ideal S128 .f32)
    (y4 : Vec Ideal S256x128 .f32) (y5 : Vec Ideal S128 .f32) (y6 : Vec Ideal S256x128 .f32) (y7 : Vec Ideal S128 .f32) (y8 : Vec Ideal S256x128 .f32) (y9 : Vec Ideal S128 .f32)
    (y10 : Vec Ideal S128x64 .f32) (y11 : Vec Ideal S64 .f32)
    (i : Fin 100000) (p : Fin 4000)
    (h0 : ∀ q : Fin 64, x0 (ix2 p q) = A (ix2 i q)) (h1 : ∀ q : Fin 128, x1 (ix2 p q) = H (ix2 i q))
    (h2 : x2 = concatenate S64x384 1 [⟨S64x128, W0⟩, ⟨S64x128, W1⟩, ⟨S64x128, W2⟩] concatenates_S64x128_S64x128_S64x128_S64x384_d1)
    (h3 : x3 = concatenate S384 0 [⟨S128, b0⟩, ⟨S128, b1⟩, ⟨S128, b2⟩] concatenates_S128_S128_S128_S384_d0)
    (e4 : x4 = y4) (e5 : x5 = y5) (e6 : x6 = y6) (e7 : x7 = y7) (e8 : x8 = y8) (e9 : x9 = y9) (e10 : x10 = y10) (e11 : x11 = y11) (j : Fin 64) :
    out0_13 (F := Ideal) x0 x1 x2 x3 x4 x5 x6 x7 x8 x9 x10 x11 (ix2 p j)
      = specY (specH A H W0 b0 W1 b1 W2 b2 y4 y5 y6 y7 y8 y9) y10 y11 (ix2 i j) := by
  subst e4 e5 e6 e7 e8 e9 e10 e11
  exact out13_apply x0 x1 x2 x3 x4 x5 x6 x7 x8 x9 x10 x11 A H W0 W1 W2 b0 b1 b2 i p h0 h1 h2 h3 j

/-! ## The two results as whole-array functions of what the region finds -/

/-- The new hidden state: `specH` of the per-node feature sums the host computed, the hidden state, the three
    projections and the three gates' parameters. -/
def HN (c : Dev nD) : S100000x128.Idx → EReal :=
  specH (V m c main_v47) (m ((c : Thread nD τ).loc main_arg2)) (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
    (m ((c : Thread nD τ).loc main_arg14)) (m ((c : Thread nD τ).loc main_arg15))

/-- The output: the head of the new hidden state. -/
def YY (c : Dev nD) : S100000x64.Idx → EReal :=
  specY (HN m c) (m ((c : Thread nD τ).loc main_arg16)) (m ((c : Thread nD τ).loc main_arg17))

/-- At every point, row `p` of the new-hidden-state block the body leaves is row `4000 t + p` of `HN`. -/
theorem hG12 (c : Dev nD) (t : Fin cfg0.N) (p : Fin 4000) (j : Fin 128) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p j) = HN m c (ix2 (row t p) j) := by
  unfold HN
  exact hG12_of (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (V m c main_v47) (m ((c : Thread nD τ).loc main_arg2)) (m ((c : Thread nD τ).loc main_arg4)) (m ((c : Thread nD τ).loc main_arg6)) (m ((c : Thread nD τ).loc main_arg8)) (m ((c : Thread nD τ).loc main_arg5)) (m ((c : Thread nD τ).loc main_arg7)) (m ((c : Thread nD τ).loc main_arg9))
    (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
    (row t p) p
    (fun q => iblk0_apply m c t p q)
    (fun q => (iblk1_apply m c t p q).trans (congrFun (V_main_arg2 m c) (ix2 (row t p) q)))
    ((iblk2_eq m c t).trans (V_main_v48 m c))
    ((iblk3_eq m c t).trans (V_main_v49 m c))
    ((iblk4_eq m c t).trans (V_main_arg10 m c))
    ((iblk5_eq m c t).trans (V_main_arg11 m c))
    ((iblk6_eq m c t).trans (V_main_arg12 m c))
    ((iblk7_eq m c t).trans (V_main_arg13 m c))
    ((iblk8_eq m c t).trans (V_main_arg14 m c))
    ((iblk9_eq m c t).trans (V_main_arg15 m c))
    j

/-- At every point, row `p` of the output block the body leaves is row `4000 t + p` of `YY`. -/
theorem hG13 (c : Dev nD) (t : Fin cfg0.N) (p : Fin 4000) (j : Fin 64) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p j) = YY m c (ix2 (row t p) j) := by
  unfold YY HN
  exact hG13_of (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (V m c main_v47) (m ((c : Thread nD τ).loc main_arg2)) (m ((c : Thread nD τ).loc main_arg4)) (m ((c : Thread nD τ).loc main_arg6)) (m ((c : Thread nD τ).loc main_arg8)) (m ((c : Thread nD τ).loc main_arg5)) (m ((c : Thread nD τ).loc main_arg7)) (m ((c : Thread nD τ).loc main_arg9))
    (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
    (m ((c : Thread nD τ).loc main_arg16)) (m ((c : Thread nD τ).loc main_arg17))
    (row t p) p
    (fun q => iblk0_apply m c t p q)
    (fun q => (iblk1_apply m c t p q).trans (congrFun (V_main_arg2 m c) (ix2 (row t p) q)))
    ((iblk2_eq m c t).trans (V_main_v48 m c))
    ((iblk3_eq m c t).trans (V_main_v49 m c))
    ((iblk4_eq m c t).trans (V_main_arg10 m c))
    ((iblk5_eq m c t).trans (V_main_arg11 m c))
    ((iblk6_eq m c t).trans (V_main_arg12 m c))
    ((iblk7_eq m c t).trans (V_main_arg13 m c))
    ((iblk8_eq m c t).trans (V_main_arg14 m c))
    ((iblk9_eq m c t).trans (V_main_arg15 m c))
    ((iblk10_eq m c t).trans (V_main_arg16 m c))
    ((iblk11_eq m c t).trans (V_main_arg17 m c))
    j

/-- The new-hidden-state array after the run is `HN`. -/
theorem arr12 (c : Dev nD) : (dats m 0 c).arrAt 12 cfg0.N = HN m c :=
  final12 m c (HN m c) (fun t p j => hG12 m c t p j)

/-- The output array after the run is `YY`. -/
theorem arr13 (c : Dev nD) : (dats m 0 c).arrAt 13 cfg0.N = YY m c :=
  final13 m c (YY m c) (fun t p j => hG13 m c t p j)

/-- THE RUN, READ: @main runs, the output array ends at `YY`, the new-hidden-state array at `HN`, and every
    argument array as launched. -/
theorem run_spec : θ_run defs (onTc (τ := τ) (main (F := Ideal))) ⟨m, fun _ => 0, ρ⟩ (fun r => ∀ c : Dev nD,
      r.2.mem ((c.tc : Thread nD τ).loc main_v50_1) = YY m c
      ∧ r.2.mem ((c.tc : Thread nD τ).loc main_v50_0) = HN m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  run_value m ρ (HN m) (YY m) (arr12 m) (arr13 m)

end Cert.KernelIdeal.Hand

end
-- ==== Proof.RefDense.lean ====
/-
  The dense part of the reference program, read at an index.

  At node (row) `i` and column `j` the reference's new hidden state and its output are the row functions of the
  specification: with `Gz, Gr, Gh` the three graph-convolution rows of the node (kept as they are: nothing of how they
  are computed is used here) and `H` its hidden row,
      Z = σ (cat Gz H · Wlz + blz),   R = σ (cat Gr H · Wlr + blr),   H~ = tanh (cat Gh (H ⊙ R) · Wlh + blh),
      H' = Z ⊙ H + (1 − Z) ⊙ H~,      y = max (H', 0) · Whead + bhead.
  Each matrix product is a sum over the contracted column; each bias is a row broadcast down the rows; each join of two
  128-column blocks is read at a column by the side it falls on; the logistic function is spelled by the reference as
  `1 / (1 + e^(−x))`.
-/
import proofs.«124411_j62835371541091_2_alg».proof.Proof.Gen.ReferenceIdeal.Read
import proofs.«124411_j62835371541091_2_alg».proof.Proof.Cell
import Idealize.ShloMosaic.Lib.IdealHost

noncomputable section

open scoped BigOperators

namespace Cert.RefDense

open Cert.ReferenceIdeal Cert.ReferenceIdeal.Read Cert.Cell Idealize.ShloMosaic Idealize.ShloMosaic.ValueIdx

variable (x0 : (⟨S100000x64, .f32⟩ : BufTy).Contents (Elt Ideal)) (x1 : (⟨S1600000, .f32⟩ : BufTy).Contents (Elt Ideal))
  (x2 : (⟨S100000x128, .f32⟩ : BufTy).Contents (Elt Ideal)) (x3 : (⟨S2x1600000, .i32⟩ : BufTy).Contents (Elt Ideal))
  (x4 : (⟨S64x128, .f32⟩ : BufTy).Contents (Elt Ideal)) (x5 : (⟨S128, .f32⟩ : BufTy).Contents (Elt Ideal))
  (x6 : (⟨S64x128, .f32⟩ : BufTy).Contents (Elt Ideal)) (x7 : (⟨S128, .f32⟩ : BufTy).Contents (Elt Ideal))
  (x8 : (⟨S64x128, .f32⟩ : BufTy).Contents (Elt Ideal)) (x9 : (⟨S128, .f32⟩ : BufTy).Contents (Elt Ideal))
  (x10 : (⟨S256x128, .f32⟩ : BufTy).Contents (Elt Ideal)) (x11 : (⟨S128, .f32⟩ : BufTy).Contents (Elt Ideal))
  (x12 : (⟨S256x128, .f32⟩ : BufTy).Contents (Elt Ideal)) (x13 : (⟨S128, .f32⟩ : BufTy).Contents (Elt Ideal))
  (x14 : (⟨S256x128, .f32⟩ : BufTy).Contents (Elt Ideal)) (x15 : (⟨S128, .f32⟩ : BufTy).Contents (Elt Ideal))
  (x16 : (⟨S128x64, .f32⟩ : BufTy).Contents (Elt Ideal)) (x17 : (⟨S64, .f32⟩ : BufTy).Contents (Elt Ideal))

/-! ### Index equations: the composed indices of the matrix products and of the bias broadcasts at `(i, j)` -/

theorem lidx_v50 (i : Fin 100000) (j : Fin 128) (k : Fin 256) : lidx_main_v50 (ix2 i j) k = ix2 i k :=
  funext fun a => Fin.ext (by match a with | ⟨0, _⟩ => rfl | ⟨1, _⟩ => rfl)
theorem ridx_v50 (i : Fin 100000) (j : Fin 128) (k : Fin 256) : ridx_main_v50 (ix2 i j) k = ix2 k j :=
  funext fun a => Fin.ext (by match a with | ⟨0, _⟩ => rfl | ⟨1, _⟩ => rfl)
theorem lidx_v101 (i : Fin 100000) (j : Fin 128) (k : Fin 256) : lidx_main_v101 (ix2 i j) k = ix2 i k :=
  funext fun a => Fin.ext (by match a with | ⟨0, _⟩ => rfl | ⟨1, _⟩ => rfl)
theorem ridx_v101 (i : Fin 100000) (j : Fin 128) (k : Fin 256) : ridx_main_v101 (ix2 i j) k = ix2 k j :=
  funext fun a => Fin.ext (by match a with | ⟨0, _⟩ => rfl | ⟨1, _⟩ => rfl)
theorem lidx_v153 (i : Fin 100000) (j : Fin 128) (k : Fin 256) : lidx_main_v153 (ix2 i j) k = ix2 i k :=
  funext fun a => Fin.ext (by match a with | ⟨0, _⟩ => rfl | ⟨1, _⟩ => rfl)
theorem ridx_v153 (i : Fin 100000) (j : Fin 128) (k : Fin 256) : ridx_main_v153 (ix2 i j) k = ix2 k j :=
  funext fun a => Fin.ext (by match a with | ⟨0, _⟩ => rfl | ⟨1, _⟩ => rfl)
theorem lidx_v164 (i : Fin 100000) (j : Fin 64) (k : Fin 128) : lidx_main_v164 (ix2 i j) k = ix2 i k :=
  funext fun a => Fin.ext (by match a with | ⟨0, _⟩ => rfl | ⟨1, _⟩ => rfl)
theorem ridx_v164 (i : Fin 100000) (j : Fin 64) (k : Fin 128) : ridx_main_v164 (ix2 i j) k = ix2 k j :=
  funext fun a => Fin.ext (by match a with | ⟨0, _⟩ => rfl | ⟨1, _⟩ => rfl)
/-- A bias row broadcast down the rows reads, at `(i, j)`, its entry `j`. -/
theorem bias_v52 (i : Fin 100000) (j : Fin 128) : idx_main_v51 (idx_main_v52 (ix2 i j)) = ix1 j :=
  funext fun a => by match a with | ⟨0, _⟩ => rfl
theorem bias_v103 (i : Fin 100000) (j : Fin 128) : idx_main_v102 (idx_main_v103 (ix2 i j)) = ix1 j :=
  funext fun a => by match a with | ⟨0, _⟩ => rfl
theorem bias_v155 (i : Fin 100000) (j : Fin 128) : idx_main_v154 (idx_main_v155 (ix2 i j)) = ix1 j :=
  funext fun a => by match a with | ⟨0, _⟩ => rfl
theorem bias_v166 (i : Fin 100000) (j : Fin 64) : idx_main_v165 (idx_main_v166 (ix2 i j)) = ix1 j :=
  funext fun a => by match a with | ⟨0, _⟩ => rfl

/-! ### The two gates and the candidate's pre-activation -/

/-- The update gate `Z` at `(i, j)`: the logistic function of the affine map of the joined row. -/
theorem ref_z (i : Fin 100000) (j : Fin 128) :
    val_main_v59 (F := Ideal) x0 x1 x2 x3 x4 x5 x10 x11 (ix2 i j)
      = gate (fun k => val_main_v48 (F := Ideal) x0 x1 x3 x4 x5 (ix2 i k)) (fun k => x2 (ix2 i k)) x10 x11 j := by
  rw [val_main_v59_apply, val_main_v58_apply, val_main_cst_10_apply, val_main_v57_apply, val_main_v56_apply,
    val_main_cst_9_apply, val_main_v55_apply, val_main_v54_apply, val_main_v53_apply, val_main_v50_apply,
    val_main_v52_apply, val_main_v51_apply]
  simp only [Ideal.hostDivf_def, Ideal.addf_def, Ideal.hostUnary_exp_def, Ideal.hostNegf_def, Ideal.negf_def,
    Ideal.ofBits_def]
  rw [logistic_spelled]
  unfold gate lin256
  refine congrArg Ideal.logistic (congrArg₂ (· + ·) (Finset.sum_congr rfl fun k _ => ?_) (congrArg x11 (bias_v52 i j)))
  rw [lidx_v50, ridx_v50]
  unfold val_main_v49
  rw [catCols_apply (a := 100000)]

/-- The reset gate `R` at `(i, j)`. -/
theorem ref_r (i : Fin 100000) (j : Fin 128) :
    val_main_v110 (F := Ideal) x0 x1 x2 x3 x6 x7 x12 x13 (ix2 i j)
      = gate (fun k => val_main_v99 (F := Ideal) x0 x1 x3 x6 x7 (ix2 i k)) (fun k => x2 (ix2 i k)) x12 x13 j := by
  rw [val_main_v110_apply, val_main_v109_apply, val_main_cst_22_apply, val_main_v108_apply, val_main_v107_apply,
    val_main_cst_21_apply, val_main_v106_apply, val_main_v105_apply, val_main_v104_apply, val_main_v101_apply,
    val_main_v103_apply, val_main_v102_apply]
  simp only [Ideal.hostDivf_def, Ideal.addf_def, Ideal.hostUnary_exp_def, Ideal.hostNegf_def, Ideal.negf_def,
    Ideal.ofBits_def]
  rw [logistic_spelled]
  unfold gate lin256
  refine congrArg Ideal.logistic (congrArg₂ (· + ·) (Finset.sum_congr rfl fun k _ => ?_) (congrArg x13 (bias_v103 i j)))
  rw [lidx_v101, ridx_v101]
  unfold val_main_v100
  rw [catCols_apply (a := 100000)]

/-- The candidate's pre-activation at `(i, j)`: the affine map of the graph-convolution row joined with `H ⊙ R`. -/
theorem ref_hpre (i : Fin 100000) (j : Fin 128) :
    val_main_v156 (F := Ideal) x0 x1 x2 x3 x6 x7 x8 x9 x12 x13 x14 x15 (ix2 i j)
      = lin256 (cat (fun k => val_main_v150 (F := Ideal) x0 x1 x3 x8 x9 (ix2 i k))
          (fun k => x2 (ix2 i k) * val_main_v110 (F := Ideal) x0 x1 x2 x3 x6 x7 x12 x13 (ix2 i k))) x14 x15 j := by
  rw [val_main_v156_apply, val_main_v153_apply, val_main_v155_apply, val_main_v154_apply]
  simp only [Ideal.addf_def]
  unfold lin256
  refine congrArg₂ (· + ·) (Finset.sum_congr rfl fun k _ => ?_) (congrArg x15 (bias_v155 i j))
  rw [lidx_v153, ridx_v153]
  unfold val_main_v152
  rw [catCols_apply (a := 100000)]
  rfl

/-! ### The new hidden state and the output -/

/-- The reference's new hidden state at `(i, j)` is the specification's row function of the node's rows. -/
theorem ref_hnew (i : Fin 100000) (j : Fin 128) :
    val_main_v162 (F := Ideal) x0 x1 x2 x3 x4 x5 x6 x7 x8 x9 x10 x11 x12 x13 x14 x15 (ix2 i j)
      = hnewRow (fun k => val_main_v48 (F := Ideal) x0 x1 x3 x4 x5 (ix2 i k))
          (fun k => val_main_v99 (F := Ideal) x0 x1 x3 x6 x7 (ix2 i k))
          (fun k => val_main_v150 (F := Ideal) x0 x1 x3 x8 x9 (ix2 i k)) (fun k => x2 (ix2 i k))
          x10 x11 x12 x13 x14 x15 j := by
  rw [val_main_v162_apply, val_main_v158_apply, val_main_v161_apply, val_main_v160_apply, val_main_v159_apply,
    val_main_cst_33_apply, val_main_v157_apply]
  simp only [Ideal.addf_def, Ideal.mulf_def, Ideal.subf_def, Ideal.hostUnary_tanh_def, Ideal.ofBits_def]
  rw [ref_z, ref_hpre]
  have hR : (fun k => x2 (ix2 i k) * val_main_v110 (F := Ideal) x0 x1 x2 x3 x6 x7 x12 x13 (ix2 i k))
      = fun k => x2 (ix2 i k)
          * gate (fun q => val_main_v99 (F := Ideal) x0 x1 x3 x6 x7 (ix2 i q)) (fun q => x2 (ix2 i q)) x12 x13 k :=
    funext fun k => by rw [ref_r]
  rw [hR]
  rfl

/-- The reference's output at `(i, j)` is the specification's head row function of the new hidden row. -/
theorem ref_head (i : Fin 100000) (j : Fin 64) :
    val_main_v167 (F := Ideal) x0 x1 x2 x3 x4 x5 x6 x7 x8 x9 x10 x11 x12 x13 x14 x15 x16 x17 (ix2 i j)
      = headRow (fun k => val_main_v162 (F := Ideal) x0 x1 x2 x3 x4 x5 x6 x7 x8 x9 x10 x11 x12 x13 x14 x15 (ix2 i k))
          x16 x17 j := by
  rw [val_main_v167_apply, val_main_v164_apply, val_main_v166_apply, val_main_v165_apply]
  simp only [Ideal.addf_def]
  unfold headRow
  refine congrArg₂ (· + ·) (Finset.sum_congr rfl fun k _ => ?_) (congrArg x17 (bias_v166 i j))
  rw [lidx_v164, ridx_v164, val_main_v163_apply, val_main_call3_v0_apply, val_main_call3_cst_apply]
  rfl

end Cert.RefDense

end
-- ==== Proof.LibSegmentLinear.lean ====
/-
  A segment sum commutes with a right matrix product, on finite entries.

  Let `h : [N, K]` and `W : [K, D]` have real (finite) entries, `r : E → N` pick a row of `h` for each edge `e`, and let the
  accumulating row scatter send edge `e` to the row its scatter index names. Summing the picked rows per target row and
  then multiplying by `W`,
      ∑ k, (∑ e → n, h (r e, k)) * W (k, j),
  equals multiplying every row of `h` by `W` first and summing the picked product rows per target row,
      ∑ e → n, ∑ k, h (r e, k) * W (k, j):
  the distributive law and an exchange of two finite sums, valid on the reals (the extended reals do not distribute
  over sums that meet an infinity, which is why finiteness is asked).
-/
import Idealize.ShloMosaic.PureOps.Ideal
import Idealize.ShloMosaic.Lib.ValueIdx
import proofs.«124411_j62835371541091_2_alg».proof.Proof.LibRowScatter

noncomputable section

open scoped BigOperators

namespace Idealize.ShloMosaic.ValueIdx

open Idealize.ShloMosaic

/-- The coercion of the reals into the extended reals commutes with finite sums. -/
theorem ereal_coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exchange, over abstract finite index types: for real-valued `a` and `w`,
    `∑ k, (∑ e ∈ S, a e k) * w k = ∑ e ∈ S, ∑ k, a e k * w k` in the extended reals. -/
theorem sum_mul_sum_comm_of_real {ι κ : Type*} [Fintype κ] (S : Finset ι) (a : ι → κ → EReal) (w : κ → EReal)
    (ha : ∀ e k, ∃ r : ℝ, a e k = (r : EReal)) (hw : ∀ k, ∃ r : ℝ, w k = (r : EReal)) :
    ∑ k, (∑ e ∈ S, a e k) * w k = ∑ e ∈ S, ∑ k, a e k * w k := by
  choose a' ha' using ha
  choose w' hw' using hw
  simp only [ha', hw', ← ereal_coe_finset_sum, ← EReal.coe_mul]
  refine congrArg _ ?_
  rw [Finset.sum_comm]
  exact Finset.sum_congr rfl fun k _ => Finset.sum_mul _ _ _

/-- SEGMENT SUM THEN PRODUCT IS PRODUCT THEN SEGMENT SUM. `Z` is the zero array the scatter accumulates into. -/
theorem scatter_gather_matmul_comm {N E K D w : Nat} (hN : 0 < N)
    (wfSK : ScatterDims.WF ⟨2, ![N, K]⟩ ⟨2, ![E, 1]⟩ ⟨2, ![E, K]⟩ [1] [0] [0] 1)
    (wfSD : ScatterDims.WF ⟨2, ![N, D]⟩ ⟨2, ![E, 1]⟩ ⟨2, ![E, D]⟩ [1] [0] [0] 1)
    (wfGK : GatherDims.WF ⟨2, ![N, K]⟩ ⟨2, ![E, 1]⟩ ⟨2, ![E, K]⟩ [1] [0] [] [0] [] 1 ![1, K])
    (wfGD : GatherDims.WF ⟨2, ![N, D]⟩ ⟨2, ![E, 1]⟩ ⟨2, ![E, D]⟩ [1] [0] [] [0] [] 1 ![1, D])
    (ZK : (⟨2, ![N, K]⟩ : Shape).Idx → EReal) (ZD : (⟨2, ![N, D]⟩ : Shape).Idx → EReal)
    (hZK : ∀ i, ZK i = 0) (hZD : ∀ i, ZD i = 0)
    (h : (⟨2, ![N, K]⟩ : Shape).Idx → EReal) (W : (⟨2, ![K, D]⟩ : Shape).Idx → EReal)
    (hh : ∀ i, ∃ r : ℝ, h i = (r : EReal)) (hW : ∀ i, ∃ r : ℝ, W i = (r : EReal))
    (didx ridx : IVec ⟨2, ![E, 1]⟩ w) (n : Fin N) (j : Fin D) :
    ∑ k : Fin K, Ideal.hostScatterAdd (rowScatterDims N E K wfSK) ZK didx
        (Host.gather (rowGatherDims N E K wfGK) h ridx) (ix2 n k) * W (ix2 k j)
      = Ideal.hostScatterAdd (rowScatterDims N E D wfSD) ZD didx
        (Host.gather (rowGatherDims N E D wfGD) (fun i => ∑ k : Fin K, h (ix2 (i 0) k) * W (ix2 k (i 1))) ridx) (ix2 n j) := by
  simp only [hostScatterAdd_rows_apply, gather_rows_apply hN, hZK, hZD, zero_add]
  exact sum_mul_sum_comm_of_real _ (fun e k => h (ix2 (gatherRow hN ridx e) k)) (fun k => W (ix2 k j))
    (fun e k => hh _) (fun k => hW _)

end Idealize.ShloMosaic.ValueIdx

end
-- ==== Proof.LibWeightedSegment.lean ====
/-
  A weighted segment sum commutes with a right matrix product, on finite entries.

  Edge `e` carries a real weight `nrm e` and a row `xr e` (`K` real entries); the accumulating row scatter adds the
  weighted row `nrm e • xr e` onto the node row its scatter index names. Multiplying the accumulated rows by a real
  matrix `W : [K, D]` afterwards,
      ∑ k, (∑ e → n, nrm e * xr e k) * W (k, j),
  gives what accumulating the weighted PRODUCT rows gives,
      ∑ e → n, nrm e * ∑ k, xr e k * W (k, j):
  distributivity and an exchange of finite sums, valid on the reals (the extended reals do not distribute over a sum
  that meets an infinity, hence the finiteness hypotheses).
-/
import Idealize.ShloMosaic.PureOps.Ideal
import Idealize.ShloMosaic.Lib.ValueIdx
import proofs.«124411_j62835371541091_2_alg».proof.Proof.LibRowScatter
import proofs.«124411_j62835371541091_2_alg».proof.Proof.LibSegmentLinear

noncomputable section

open scoped BigOperators

namespace Cert.Segment

open Idealize.ShloMosaic Idealize.ShloMosaic.ValueIdx

/-- A real factor enters a finite sum of real products: `a * ∑ k, x k * w k = ∑ k, (a * x k) * w k`. -/
theorem mul_sum_mul_of_real {κ : Type*} [Fintype κ] (a : EReal) (x w : κ → EReal)
    (ha : ∃ r : ℝ, a = (r : EReal)) (hx : ∀ k, ∃ r : ℝ, x k = (r : EReal)) (hw : ∀ k, ∃ r : ℝ, w k = (r : EReal)) :
    a * ∑ k, x k * w k = ∑ k, (a * x k) * w k := by
  obtain ⟨a', rfl⟩ := ha
  choose x' hx' using hx
  choose w' hw' using hw
  simp only [hx', hw', ← EReal.coe_mul, ← ereal_coe_finset_sum]
  refine congrArg _ ?_
  rw [Finset.mul_sum]
  exact Finset.sum_congr rfl fun k _ => (mul_assoc _ _ _).symm

/-- A finite sum of real products is real. -/
theorem sum_mul_real {κ : Type*} [Fintype κ] (x w : κ → EReal)
    (hx : ∀ k, ∃ r : ℝ, x k = (r : EReal)) (hw : ∀ k, ∃ r : ℝ, w k = (r : EReal)) :
    ∃ r : ℝ, ∑ k, x k * w k = (r : EReal) := by
  choose x' hx' using hx
  choose w' hw' using hw
  exact ⟨∑ k, x' k * w' k, by simp only [hx', hw', ← EReal.coe_mul, ← ereal_coe_finset_sum]⟩

/-- WEIGHTED SEGMENT SUM THEN PRODUCT IS PRODUCT THEN WEIGHTED SEGMENT SUM. `ZK`, `ZD` are the zero arrays the two
    scatters accumulate into; `updK` holds the weighted rows, `updD` the weighted product rows. -/
theorem segment_sum_matmul {N E K D w : Nat}
    (wfSK : ScatterDims.WF ⟨2, ![N, K]⟩ ⟨2, ![E, 1]⟩ ⟨2, ![E, K]⟩ [1] [0] [0] 1)
    (wfSD : ScatterDims.WF ⟨2, ![N, D]⟩ ⟨2, ![E, 1]⟩ ⟨2, ![E, D]⟩ [1] [0] [0] 1)
    (ZK : (⟨2, ![N, K]⟩ : Shape).Idx → EReal) (ZD : (⟨2, ![N, D]⟩ : Shape).Idx → EReal)
    (hZK : ∀ i, ZK i = 0) (hZD : ∀ i, ZD i = 0)
    (updK : (⟨2, ![E, K]⟩ : Shape).Idx → EReal) (updD : (⟨2, ![E, D]⟩ : Shape).Idx → EReal)
    (W : (⟨2, ![K, D]⟩ : Shape).Idx → EReal) (nrm : Fin E → EReal) (xr : Fin E → Fin K → EReal)
    (hK : ∀ e k, updK (ix2 e k) = nrm e * xr e k)
    (hD : ∀ e j, updD (ix2 e j) = nrm e * ∑ k : Fin K, xr e k * W (ix2 k j))
    (hn : ∀ e, ∃ r : ℝ, nrm e = (r : EReal)) (hx : ∀ e k, ∃ r : ℝ, xr e k = (r : EReal))
    (hW : ∀ i, ∃ r : ℝ, W i = (r : EReal))
    (didx : IVec ⟨2, ![E, 1]⟩ w) (n : Fin N) (j : Fin D) :
    ∑ k : Fin K, Ideal.hostScatterAdd (rowScatterDims N E K wfSK) ZK didx updK (ix2 n k) * W (ix2 k j)
      = Ideal.hostScatterAdd (rowScatterDims N E D wfSD) ZD didx updD (ix2 n j) := by
  simp only [hostScatterAdd_rows_apply, hZK, hZD, zero_add, hK, hD]
  rw [sum_mul_sum_comm_of_real _ (fun e k => nrm e * xr e k) (fun k => W (ix2 k j))
    (fun e k => by
      obtain ⟨a, ha⟩ := hn e
      obtain ⟨b, hb⟩ := hx e k
      exact ⟨a * b, by rw [ha, hb, EReal.coe_mul]⟩)
    (fun k => hW _)]
  exact Finset.sum_congr rfl fun e _ =>
    (mul_sum_mul_of_real (nrm e) (xr e) (fun k => W (ix2 k j)) (hn e) (hx e) (fun k => hW _)).symm

end Cert.Segment

end
-- ==== Proof.RefGcn.lean ====
/-
  The reference's graph convolution, read at an index, in the kernel's order of operations.

  The reference multiplies the node features by a projection matrix `W : [64, 128]` first and then, per gate, gathers
  the product rows along the edges, weights each by the edge's symmetric normalisation `nrm e` and sums them per target
  node. Summing the weighted FEATURE rows per target node first (an array `[100000, 64]` that does not depend on the
  gate) and multiplying by `W` afterwards gives the same entries, because all the numbers involved are real:
  the node features, the projection matrix and the edge weights by hypothesis, and the normalisation because
  `where (deg > 0, rsqrt deg, 0)` is a real number whatever the degree is.
-/
import proofs.«124411_j62835371541091_2_alg».proof.Proof.Gen.ReferenceIdeal.Read
import proofs.«124411_j62835371541091_2_alg».proof.Proof.LibWeightedSegment
import Idealize.ShloMosaic.Lib.IdealHost
import Idealize.ShloMosaic.Lib.Pipeline.Value
import Idealize.ShloMosaic.PureOps.Ideal.Laws

noncomputable section

open scoped BigOperators

namespace Cert.RefGcn

open Cert.ReferenceIdeal Cert.ReferenceIdeal.Gen Cert.ReferenceIdeal.Read Idealize.ShloMosaic Idealize.ShloMosaic.ValueIdx

/-! ## The normalisation is real -/

/-- `where (d > 0, rsqrt d, 0)` is a real number for every extended real `d`: a positive real has a real reciprocal
    square root, `rsqrt ⊤ = 0`, and everything else is sent to `0`. -/
theorem where_rsqrt_real (d : EReal) :
    ∃ r : ℝ, Scalar.select (FloatOps.cmpf (F := Ideal) (φ := .f32) .ogt d (Ideal.ofBits .f32 0x00000000#32))
      (Ideal.rsqrt d) (Ideal.ofBits .f32 0x00000000#32) = (r : EReal) := by
  rw [Ideal.ofBits_zero_f32]
  show ∃ r : ℝ, (if Ideal.cmp .ogt d 0 = 1 then Ideal.rsqrt d else 0) = (r : EReal)
  unfold Ideal.cmp
  induction d using EReal.rec with
  | bot => exact ⟨0, by simp⟩
  | top => exact ⟨0, by simp⟩
  | coe x =>
    by_cases hx : 0 < x
    · refine ⟨(Real.sqrt x)⁻¹, ?_⟩
      have h0 : (0 : EReal) < (x : EReal) := by exact_mod_cast hx
      simp [h0, Ideal.rsqrt_coe, not_lt.mpr hx.le, hx.ne']
    · refine ⟨0, ?_⟩
      have h0 : ¬ (0 : EReal) < (x : EReal) := by exact_mod_cast hx
      simp [h0]

/-- The inverse square-root degree of every node is real. -/
theorem dinv_real (x1 : (⟨S1600000, .f32⟩ : BufTy).Contents (Elt Ideal)) (x3 : (⟨S2x1600000, .i32⟩ : BufTy).Contents (Elt Ideal))
    (n : S100000.Idx) : ∃ r : ℝ, val_main_v16 (F := Ideal) x1 x3 n = (r : EReal) := by
  rw [val_main_v16_apply, val_main_v14_apply, val_main_v15_apply, val_main_v13_apply, val_main_cst_1_apply,
    val_main_call0_v1_apply, val_main_call0_v0_apply, val_main_cst_2_apply]
  simp only [Ideal.ofBits_def, Ideal.hostUnary_rsqrt_def]
  generalize val_main_v12 (F := Ideal) x1 x3 n = d
  exact where_rsqrt_real d

/-- The edge weights with the self loops' ones appended are real when the edge weights are. -/
theorem ew_real (x1 : (⟨S1600000, .f32⟩ : BufTy).Contents (Elt Ideal)) (hx1 : ∀ i, ∃ r : ℝ, x1 i = (r : EReal))
    (e : Fin 1700000) : ∃ r : ℝ, val_main_v8 (F := Ideal) x1 (ix1 e) = (r : EReal) := by
  unfold val_main_v8
  by_cases he : e.val < 1600000
  · rw [concatenate_pair_apply_left 0 x1 (val_main_v7 (F := Ideal)) concatenates_S1600000_S100000_S1700000_d0 (ix1 e) rfl
      (ix1 ⟨e.val, he⟩) (fun b => by match b with | ⟨0, _⟩ => rfl)]
    exact hx1 _
  · rw [concatenate_pair_apply_right 0 x1 (val_main_v7 (F := Ideal)) concatenates_S1600000_S100000_S1700000_d0 (ix1 e) rfl rfl
      (ix1 ⟨e.val - 1600000, by have := e.isLt; omega⟩) (fun b hb => by match b with | ⟨0, _⟩ => exact absurd rfl hb)
      (by show (e.val - 1600000) + 1600000 = e.val; omega)]
    rw [val_main_v7_apply]
    exact ⟨1, Ideal.ofBits_one_f32⟩

/-- The symmetric normalisation `dinv[src] · w · dinv[dst]` of every edge is real. -/
theorem nrm_real (x1 : (⟨S1600000, .f32⟩ : BufTy).Contents (Elt Ideal)) (x3 : (⟨S2x1600000, .i32⟩ : BufTy).Contents (Elt Ideal))
    (hx1 : ∀ i, ∃ r : ℝ, x1 i = (r : EReal)) (e : Fin 1700000) :
    ∃ r : ℝ, val_main_v32 (F := Ideal) x1 x3 (ix1 e) = (r : EReal) := by
  obtain ⟨a, ha⟩ : ∃ r : ℝ, val_main_v23 (F := Ideal) x1 x3 (ix1 e) = (r : EReal) := by
    unfold val_main_v23 Host.gather
    exact dinv_real x1 x3 _
  obtain ⟨b, hb⟩ := ew_real x1 hx1 e
  obtain ⟨c, hc⟩ : ∃ r : ℝ, val_main_v31 (F := Ideal) x1 x3 (ix1 e) = (r : EReal) := by
    unfold val_main_v31 Host.gather
    exact dinv_real x1 x3 _
  refine ⟨a * b * c, ?_⟩
  rw [val_main_v32_apply, val_main_v24_apply, ha, hb, hc]
  show ((a : EReal) * (b : EReal)) * (c : EReal) = _
  rw [← EReal.coe_mul, ← EReal.coe_mul]

/-! ## The graph convolution at an index -/

/-- The node row that edge `e` reads: its source index, read signed and clamped into the node range. -/
abbrev srcRow (x3 : (⟨S2x1600000, .i32⟩ : BufTy).Contents (Elt Ideal)) (e : Fin 1700000) : Fin 100000 :=
  gatherRow (N := 100000) (by decide) (val_main_v39 (F := Ideal) x3) e

/-- The program's record of its row scatter is the general row-scatter record. -/
theorem scatterDims_eq :
    scatter_S100000x128_S1700000x1_S1700000x128_1_0_0_1
      = rowScatterDims 100000 1700000 128 scatter_S100000x128_S1700000x1_S1700000x128_1_0_0_1_wf := rfl

/-- The program's record of its row gather is the general row-gather record. -/
theorem gatherDims_eq :
    gather_S100000x128_S1700000x1_S1700000x128_1_0_n_n_0_1_1128
      = rowGatherDims 100000 1700000 128 gather_S100000x128_S1700000x1_S1700000x128_1_0_n_n_0_1_1128_wf := rfl

/-- The gate's accumulating scatter, as the exact sum over the general row-scatter record. -/
theorem v45_eq (x0 : (⟨S100000x64, .f32⟩ : BufTy).Contents (Elt Ideal)) (x1 : (⟨S1600000, .f32⟩ : BufTy).Contents (Elt Ideal))
    (x3 : (⟨S2x1600000, .i32⟩ : BufTy).Contents (Elt Ideal)) (W : (⟨S64x128, .f32⟩ : BufTy).Contents (Elt Ideal)) :
    val_main_v45 (F := Ideal) x0 x1 x3 W
      = Ideal.hostScatterAdd (rowScatterDims 100000 1700000 128 scatter_S100000x128_S1700000x1_S1700000x128_1_0_0_1_wf)
          (val_main_v43 (F := Ideal)) (val_main_v44 (F := Ideal) x3) (val_main_v42 (F := Ideal) x0 x1 x3 W) := by
  unfold val_main_v45 Host.scatterAdd
  rw [scatterDims_eq, Ideal.hostScatterAdd_def]

/-- The gate's gather of product rows, over the general row-gather record. -/
theorem v40_eq (x0 : (⟨S100000x64, .f32⟩ : BufTy).Contents (Elt Ideal)) (x3 : (⟨S2x1600000, .i32⟩ : BufTy).Contents (Elt Ideal))
    (W : (⟨S64x128, .f32⟩ : BufTy).Contents (Elt Ideal)) :
    val_main_v40 (F := Ideal) x0 x3 W
      = Host.gather (rowGatherDims 100000 1700000 128 gather_S100000x128_S1700000x1_S1700000x128_1_0_n_n_0_1_1128_wf)
          (val_main_v9 (F := Ideal) x0 W) (val_main_v39 (F := Ideal) x3) := by
  unfold val_main_v40
  rw [gatherDims_eq]

/-- THE GRAPH CONVOLUTION READ AT `(i, k)`: the per-node weighted sum of gathered FEATURE rows (accumulated into the
    zero array `Z64` from the update rows `updK`, whose entry `(e, q)` is the edge's normalisation times the source
    node's feature `q`), times the projection matrix, plus the bias. -/
theorem ref_gcn (wfS64 : ScatterDims.WF ⟨2, ![100000, 64]⟩ ⟨2, ![1700000, 1]⟩ ⟨2, ![1700000, 64]⟩ [1] [0] [0] 1)
    (x0 : (⟨S100000x64, .f32⟩ : BufTy).Contents (Elt Ideal)) (x1 : (⟨S1600000, .f32⟩ : BufTy).Contents (Elt Ideal))
    (x3 : (⟨S2x1600000, .i32⟩ : BufTy).Contents (Elt Ideal)) (W : (⟨S64x128, .f32⟩ : BufTy).Contents (Elt Ideal))
    (b : (⟨S128, .f32⟩ : BufTy).Contents (Elt Ideal))
    (Z64 : (⟨2, ![100000, 64]⟩ : Shape).Idx → EReal) (hZ64 : ∀ i, Z64 i = 0)
    (updK : (⟨2, ![1700000, 64]⟩ : Shape).Idx → EReal)
    (hK : ∀ e q, updK (ix2 e q) = val_main_v32 (F := Ideal) x1 x3 (ix1 e) * x0 (ix2 (srcRow x3 e) q))
    (hx0 : ∀ i, ∃ r : ℝ, x0 i = (r : EReal)) (hx1 : ∀ i, ∃ r : ℝ, x1 i = (r : EReal)) (hW : ∀ i, ∃ r : ℝ, W i = (r : EReal))
    (i : Fin 100000) (k : Fin 128) :
    val_main_v48 (F := Ideal) x0 x1 x3 W b (ix2 i k)
      = (∑ q : Fin 64, Ideal.hostScatterAdd (rowScatterDims 100000 1700000 64 wfS64) Z64 (val_main_v44 (F := Ideal) x3) updK (ix2 i q)
            * W (ix2 q k)) + b (ix1 k) := by
  rw [val_main_v48_apply, val_main_v47_apply, val_main_v46_apply]
  have hb : idx_main_v46 (idx_main_v47 (ix2 i k)) = ix1 k := funext fun a => Fin.ext (by match a with | ⟨0, _⟩ => rfl)
  rw [hb, v45_eq]
  simp only [Ideal.addf_def]
  refine congrArg (· + b (ix1 k)) ?_
  refine (Cert.Segment.segment_sum_matmul wfS64 scatter_S100000x128_S1700000x1_S1700000x128_1_0_0_1_wf Z64 (val_main_v43 (F := Ideal))
    hZ64 (fun j => ?_) updK (val_main_v42 (F := Ideal) x0 x1 x3 W) W (fun e => val_main_v32 (F := Ideal) x1 x3 (ix1 e))
    (fun e q => x0 (ix2 (srcRow x3 e) q)) hK (fun e j => ?_) (nrm_real x1 x3 hx1) (fun e q => hx0 _) hW
    (val_main_v44 (F := Ideal) x3) i k).symm
  · rw [val_main_v43_apply, val_main_cst_8_apply]
    exact Ideal.ofBits_zero_f32
  · rw [val_main_v42_apply, val_main_v41_apply, val_main_v33_apply]
    have hn : idx_main_v33 (idx_main_v41 (ix2 e j)) = ix1 e := funext fun a => Fin.ext (by match a with | ⟨0, _⟩ => rfl)
    rw [hn, v40_eq]
    simp only [Ideal.mulf_def]
    refine congrArg (val_main_v32 (F := Ideal) x1 x3 (ix1 e) * ·) ?_
    rw [gather_rows_apply (N := 100000) (by decide), val_main_v9_apply]
    refine Finset.sum_congr rfl fun q _ => ?_
    have hl : lidx_main_v9 (ix2 (gatherRow (N := 100000) (by decide) (val_main_v39 (F := Ideal) x3) e) j) q = ix2 (srcRow x3 e) q :=
      funext fun a => Fin.ext (by match a with | ⟨0, _⟩ => rfl | ⟨1, _⟩ => rfl)
    have hr : ridx_main_v9 (ix2 (gatherRow (N := 100000) (by decide) (val_main_v39 (F := Ideal) x3) e) j) q = ix2 q j :=
      funext fun a => Fin.ext (by match a with | ⟨0, _⟩ => rfl | ⟨1, _⟩ => rfl)
    rw [hl, hr]

/-- The three gates' graph convolutions are one function of the projection matrix and the bias. -/
theorem gcn_r_eq (x0 : (⟨S100000x64, .f32⟩ : BufTy).Contents (Elt Ideal)) (x1 : (⟨S1600000, .f32⟩ : BufTy).Contents (Elt Ideal))
    (x3 : (⟨S2x1600000, .i32⟩ : BufTy).Contents (Elt Ideal)) (W : (⟨S64x128, .f32⟩ : BufTy).Contents (Elt Ideal))
    (b : (⟨S128, .f32⟩ : BufTy).Contents (Elt Ideal)) :
    val_main_v99 (F := Ideal) x0 x1 x3 W b = val_main_v48 (F := Ideal) x0 x1 x3 W b := rfl
theorem gcn_h_eq (x0 : (⟨S100000x64, .f32⟩ : BufTy).Contents (Elt Ideal)) (x1 : (⟨S1600000, .f32⟩ : BufTy).Contents (Elt Ideal))
    (x3 : (⟨S2x1600000, .i32⟩ : BufTy).Contents (Elt Ideal)) (W : (⟨S64x128, .f32⟩ : BufTy).Contents (Elt Ideal))
    (b : (⟨S128, .f32⟩ : BufTy).Contents (Elt Ideal)) :
    val_main_v150 (F := Ideal) x0 x1 x3 W b = val_main_v48 (F := Ideal) x0 x1 x3 W b := rfl

end Cert.RefGcn

end
-- ==== Proof.RefResult.lean ====
/-
  The reference's two results as the specification's whole-array functions.

  At every index `(i, j)` the reference's new hidden state is the cell's row function of node `i`'s three
  graph-convolution rows and hidden row; each graph-convolution row is the per-node weighted sum `A` of gathered
  feature rows (one array for the three gates) times the gate's projection matrix plus its bias. The output is the
  head of the new hidden state, row by row.
-/
import proofs.«124411_j62835371541091_2_alg».proof.Proof.RefDense
import proofs.«124411_j62835371541091_2_alg».proof.Proof.RefGcn
import proofs.«124411_j62835371541091_2_alg».proof.Proof.Spec

noncomputable section

open scoped BigOperators

namespace Cert.RefResult

open Cert.ReferenceIdeal Cert.ReferenceIdeal.Read Cert.Cell Cert.RefDense Cert.RefGcn Idealize.ShloMosaic
  Idealize.ShloMosaic.ValueIdx

/-- THE REFERENCE'S NEW HIDDEN STATE is the specification's, over the per-node weighted sum of gathered feature rows
    (accumulated into the zero array `Z64` from the update rows `updK`: entry `(e, q)` is edge `e`'s normalisation
    times its source node's feature `q`), when the node features, the edge weights and the three projection matrices
    are real. -/
theorem ref_H (wfS64 : ScatterDims.WF ⟨2, ![100000, 64]⟩ ⟨2, ![1700000, 1]⟩ ⟨2, ![1700000, 64]⟩ [1] [0] [0] 1)
    (x0 : (⟨S100000x64, .f32⟩ : BufTy).Contents (Elt Ideal)) (x1 : (⟨S1600000, .f32⟩ : BufTy).Contents (Elt Ideal))
    (x2 : (⟨S100000x128, .f32⟩ : BufTy).Contents (Elt Ideal)) (x3 : (⟨S2x1600000, .i32⟩ : BufTy).Contents (Elt Ideal))
    (x4 : (⟨S64x128, .f32⟩ : BufTy).Contents (Elt Ideal)) (x5 : (⟨S128, .f32⟩ : BufTy).Contents (Elt Ideal))
    (x6 : (⟨S64x128, .f32⟩ : BufTy).Contents (Elt Ideal)) (x7 : (⟨S128, .f32⟩ : BufTy).Contents (Elt Ideal))
    (x8 : (⟨S64x128, .f32⟩ : BufTy).Contents (Elt Ideal)) (x9 : (⟨S128, .f32⟩ : BufTy).Contents (Elt Ideal))
    (x10 : (⟨S256x128, .f32⟩ : BufTy).Contents (Elt Ideal)) (x11 : (⟨S128, .f32⟩ : BufTy).Contents (Elt Ideal))
    (x12 : (⟨S256x128, .f32⟩ : BufTy).Contents (Elt Ideal)) (x13 : (⟨S128, .f32⟩ : BufTy).Contents (Elt Ideal))
    (x14 : (⟨S256x128, .f32⟩ : BufTy).Contents (Elt Ideal)) (x15 : (⟨S128, .f32⟩ : BufTy).Contents (Elt Ideal))
    (Z64 : (⟨2, ![100000, 64]⟩ : Shape).Idx → EReal) (hZ64 : ∀ i, Z64 i = 0)
    (updK : (⟨2, ![1700000, 64]⟩ : Shape).Idx → EReal)
    (hK : ∀ e q, updK (ix2 e q) = val_main_v32 (F := Ideal) x1 x3 (ix1 e) * x0 (ix2 (srcRow x3 e) q))
    (hx0 : ∀ i, ∃ r : ℝ, x0 i = (r : EReal)) (hx1 : ∀ i, ∃ r : ℝ, x1 i = (r : EReal))
    (hx4 : ∀ i, ∃ r : ℝ, x4 i = (r : EReal)) (hx6 : ∀ i, ∃ r : ℝ, x6 i = (r : EReal))
    (hx8 : ∀ i, ∃ r : ℝ, x8 i = (r : EReal)) :
    val_main_v162 (F := Ideal) x0 x1 x2 x3 x4 x5 x6 x7 x8 x9 x10 x11 x12 x13 x14 x15
      = specH (Ideal.hostScatterAdd (rowScatterDims 100000 1700000 64 wfS64) Z64 (val_main_v44 (F := Ideal) x3) updK)
          x2 x4 x5 x6 x7 x8 x9 x10 x11 x12 x13 x14 x15 := by
  funext idx
  obtain ⟨i, j, rfl⟩ : ∃ i j, idx = ix2 i j := ⟨idx 0, idx 1, eq_ix2 idx⟩
  rw [ref_hnew, gcn_r_eq, gcn_h_eq]
  have hz : (fun k => val_main_v48 (F := Ideal) x0 x1 x3 x4 x5 (ix2 i k))
      = gcnRow (Ideal.hostScatterAdd (rowScatterDims 100000 1700000 64 wfS64) Z64 (val_main_v44 (F := Ideal) x3) updK) x4 x5 i :=
    funext fun k => ref_gcn wfS64 x0 x1 x3 x4 x5 Z64 hZ64 updK hK hx0 hx1 hx4 i k
  have hr : (fun k => val_main_v48 (F := Ideal) x0 x1 x3 x6 x7 (ix2 i k))
      = gcnRow (Ideal.hostScatterAdd (rowScatterDims 100000 1700000 64 wfS64) Z64 (val_main_v44 (F := Ideal) x3) updK) x6 x7 i :=
    funext fun k => ref_gcn wfS64 x0 x1 x3 x6 x7 Z64 hZ64 updK hK hx0 hx1 hx6 i k
  have hh : (fun k => val_main_v48 (F := Ideal) x0 x1 x3 x8 x9 (ix2 i k))
      = gcnRow (Ideal.hostScatterAdd (rowScatterDims 100000 1700000 64 wfS64) Z64 (val_main_v44 (F := Ideal) x3) updK) x8 x9 i :=
    funext fun k => ref_gcn wfS64 x0 x1 x3 x8 x9 Z64 hZ64 updK hK hx0 hx1 hx8 i k
  rw [hz, hr, hh]
  rfl

/-- THE REFERENCE'S OUTPUT is the specification's head of its new hidden state. -/
theorem ref_Y
    (x0 : (⟨S100000x64, .f32⟩ : BufTy).Contents (Elt Ideal)) (x1 : (⟨S1600000, .f32⟩ : BufTy).Contents (Elt Ideal))
    (x2 : (⟨S100000x128, .f32⟩ : BufTy).Contents (Elt Ideal)) (x3 : (⟨S2x1600000, .i32⟩ : BufTy).Contents (Elt Ideal))
    (x4 : (⟨S64x128, .f32⟩ : BufTy).Contents (Elt Ideal)) (x5 : (⟨S128, .f32⟩ : BufTy).Contents (Elt Ideal))
    (x6 : (⟨S64x128, .f32⟩ : BufTy).Contents (Elt Ideal)) (x7 : (⟨S128, .f32⟩ : BufTy).Contents (Elt Ideal))
    (x8 : (⟨S64x128, .f32⟩ : BufTy).Contents (Elt Ideal)) (x9 : (⟨S128, .f32⟩ : BufTy).Contents (Elt Ideal))
    (x10 : (⟨S256x128, .f32⟩ : BufTy).Contents (Elt Ideal)) (x11 : (⟨S128, .f32⟩ : BufTy).Contents (Elt Ideal))
    (x12 : (⟨S256x128, .f32⟩ : BufTy).Contents (Elt Ideal)) (x13 : (⟨S128, .f32⟩ : BufTy).Contents (Elt Ideal))
    (x14 : (⟨S256x128, .f32⟩ : BufTy).Contents (Elt Ideal)) (x15 : (⟨S128, .f32⟩ : BufTy).Contents (Elt Ideal))
    (x16 : (⟨S128x64, .f32⟩ : BufTy).Contents (Elt Ideal)) (x17 : (⟨S64, .f32⟩ : BufTy).Contents (Elt Ideal)) :
    val_main_v167 (F := Ideal) x0 x1 x2 x3 x4 x5 x6 x7 x8 x9 x10 x11 x12 x13 x14 x15 x16 x17
      = specY (val_main_v162 (F := Ideal) x0 x1 x2 x3 x4 x5 x6 x7 x8 x9 x10 x11 x12 x13 x14 x15) x16 x17 := by
  funext idx
  obtain ⟨i, j, rfl⟩ : ∃ i j, idx = ix2 i j := ⟨idx 0, idx 1, eq_ix2 idx⟩
  rw [ref_head]
  rfl

end Cert.RefResult

end
-- ==== Proof.Bridge.lean ====
/-
  The reference's two results are the whole-array functions `specH` and `specY` of the kernel's aggregated array.

  On real node features, edge weights and projection matrices, the reference's new hidden state is `specH` of the
  array the kernel's host code accumulates (the per-node sum of normalised gathered feature rows), and its output is
  `specY` of that state.
-/
import proofs.«124411_j62835371541091_2_alg».proof.Proof.KernelHost
import proofs.«124411_j62835371541091_2_alg».proof.Proof.RefResult

noncomputable section

namespace Cert.Bridge

open Cert.KernelIdeal Cert.KernelIdeal.Gen Cert.KernelIdeal.Hand Cert.Cell
open Idealize.ShloMosaic Idealize.ShloMosaic.ValueIdx

/-- The program's record of the accumulating row scatter is the general one. -/
theorem scatter64_eq : scatter_S100000x64_S1700000x1_S1700000x64_1_0_0_1
    = rowScatterDims 100000 1700000 64 scatter_S100000x64_S1700000x1_S1700000x64_1_0_0_1_wf := rfl

/-- The aggregated array, as the kernel's host code computes it from the node features, edge weights and edge list. -/
abbrev aggOf (x0 : FVec Ideal S100000x64 .f32) (x1 : FVec Ideal S1600000 .f32) (x3 : IVec S2x1600000 32) : FVec Ideal S100000x64 .f32 :=
  Host.scatterAdd (F := Ideal) scatter_S100000x64_S1700000x1_S1700000x64_1_0_0_1 zeros64
    (Cert.ReferenceIdeal.Read.val_main_v44 (F := Ideal) x3) (updRows x0 x1 x3)

theorem aggOf_eq (x0 : FVec Ideal S100000x64 .f32) (x1 : FVec Ideal S1600000 .f32) (x3 : IVec S2x1600000 32) :
    aggOf x0 x1 x3 = Ideal.hostScatterAdd (rowScatterDims 100000 1700000 64 scatter_S100000x64_S1700000x1_S1700000x64_1_0_0_1_wf)
      zeros64 (Cert.ReferenceIdeal.Read.val_main_v44 (F := Ideal) x3) (updRows x0 x1 x3) := by
  unfold aggOf
  rw [scatter64_eq]
  rfl

/-- The reference's new hidden state. -/
theorem ref_H (x0 : FVec Ideal S100000x64 .f32) (x1 : FVec Ideal S1600000 .f32) (x2 : FVec Ideal S100000x128 .f32) (x3 : IVec S2x1600000 32) (x4 : FVec Ideal S64x128 .f32) (x5 : FVec Ideal S128 .f32) (x6 : FVec Ideal S64x128 .f32) (x7 : FVec Ideal S128 .f32) (x8 : FVec Ideal S64x128 .f32) (x9 : FVec Ideal S128 .f32) (x10 : FVec Ideal S256x128 .f32) (x11 : FVec Ideal S128 .f32) (x12 : FVec Ideal S256x128 .f32) (x13 : FVec Ideal S128 .f32) (x14 : FVec Ideal S256x128 .f32) (x15 : FVec Ideal S128 .f32)
    (hx0 : ∀ i, ∃ r : ℝ, x0 i = (r : EReal)) (hx1 : ∀ i, ∃ r : ℝ, x1 i = (r : EReal)) (hx4 : ∀ i, ∃ r : ℝ, x4 i = (r : EReal))
    (hx6 : ∀ i, ∃ r : ℝ, x6 i = (r : EReal)) (hx8 : ∀ i, ∃ r : ℝ, x8 i = (r : EReal)) :
    Cert.ReferenceIdeal.Read.val_main_v162 (F := Ideal) x0 x1 x2 x3 x4 x5 x6 x7 x8 x9 x10 x11 x12 x13 x14 x15
      = specH (aggOf x0 x1 x3) x2 x4 x5 x6 x7 x8 x9 x10 x11 x12 x13 x14 x15 := by
  rw [aggOf_eq]
  exact Cert.RefResult.ref_H scatter_S100000x64_S1700000x1_S1700000x64_1_0_0_1_wf x0 x1 x2 x3 x4 x5 x6 x7 x8 x9 x10 x11 x12 x13 x14 x15 zeros64 zeros64_apply
    (updRows x0 x1 x3) (updRows_apply x0 x1 x3) hx0 hx1 hx4 hx6 hx8

/-- The reference's output. -/
theorem ref_Y (x0 : FVec Ideal S100000x64 .f32) (x1 : FVec Ideal S1600000 .f32) (x2 : FVec Ideal S100000x128 .f32) (x3 : IVec S2x1600000 32) (x4 : FVec Ideal S64x128 .f32) (x5 : FVec Ideal S128 .f32) (x6 : FVec Ideal S64x128 .f32) (x7 : FVec Ideal S128 .f32) (x8 : FVec Ideal S64x128 .f32) (x9 : FVec Ideal S128 .f32) (x10 : FVec Ideal S256x128 .f32) (x11 : FVec Ideal S128 .f32) (x12 : FVec Ideal S256x128 .f32) (x13 : FVec Ideal S128 .f32) (x14 : FVec Ideal S256x128 .f32) (x15 : FVec Ideal S128 .f32) (x16 : FVec Ideal S128x64 .f32) (x17 : FVec Ideal S64 .f32)
    (hx0 : ∀ i, ∃ r : ℝ, x0 i = (r : EReal)) (hx1 : ∀ i, ∃ r : ℝ, x1 i = (r : EReal)) (hx4 : ∀ i, ∃ r : ℝ, x4 i = (r : EReal))
    (hx6 : ∀ i, ∃ r : ℝ, x6 i = (r : EReal)) (hx8 : ∀ i, ∃ r : ℝ, x8 i = (r : EReal)) :
    Cert.ReferenceIdeal.Read.val_main_v167 (F := Ideal) x0 x1 x2 x3 x4 x5 x6 x7 x8 x9 x10 x11 x12 x13 x14 x15 x16 x17
      = specY (specH (aggOf x0 x1 x3) x2 x4 x5 x6 x7 x8 x9 x10 x11 x12 x13 x14 x15) x16 x17 := by
  rw [Cert.RefResult.ref_Y, ref_H x0 x1 x2 x3 x4 x5 x6 x7 x8 x9 x10 x11 x12 x13 x14 x15 hx0 hx1 hx4 hx6 hx8]

end Cert.Bridge

end
-- ==== Proof.Finite.lean ====
/-
  The printed precondition "every float input is finite", read back at the extended reals.

  The precondition computes, for each float array x, the bit  all (|x| < +∞)  and conjoins the bits.
  Over the extended reals, |x| = max x (-x), the pattern 0x7F800000 is ⊤, and  max x (-x) < ⊤  holds
  exactly when x is neither ⊥ nor ⊤, that is, when x is (the coercion of) a real number.
-/
import proofs.«124411_j62835371541091_2_alg».proof.Pre_finite_inputs
import Idealize.ShloMosaic.PureOps.Ideal
import Idealize.ShloMosaic.Lib.ReduceAll
import Idealize.ShloMosaic.Lib.ValueIdx
import Idealize.ShloMosaic.Lib.IdealHost

namespace Cert.Finite

open Idealize.ShloMosaic

/-- The rank-0 shape has exactly one index. -/
instance subsingleton_idx0 : Subsingleton (⟨0, ![]⟩ : Shape).Idx := ⟨fun _ _ => funext fun d => d.elim0⟩

/-- The f32 pattern `0x7F800000` (sign 0, exponent all ones, fraction 0) is +∞. -/
theorem ofBits_inf : Ideal.ofBits .f32 0x7F800000#32 = (⊤ : EReal) := by
  simp [Ideal.ofBits, Ideal.ieee]

/-- On the extended reals `|x| < ⊤` excludes `⊥` (whose absolute value is `⊤`) and `⊤`: what is left is a real. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One array's bit: if `all (|x| < +∞)`, reduced over all axes into the rank-0 shape, is 1, every element of `x`
is a real number. -/
theorem all_finite {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (init : (⟨0, ![]⟩ : Shape).Idx → BitVec 1) (j : (⟨0, ![]⟩ : Shape).Idx)
    (e : Host.reduce IntOp.andi
          (cmpf .olt (Host.absf x) (broadcastInDim s ![] hb (constant (F := Ideal) ⟨0, ![]⟩ .f32 0x7F800000#32)))
          init hr hu j = 1#1) :
    ∀ i, ∃ r : ℝ, x i = (r : EReal) := by
  intro i
  have h1 := Host.reduce_andi_all _ init hr hu j e i
  rw [ValueIdx.cmpf_apply, ValueIdx.broadcastInDim_scalar_apply, ValueIdx.constant_apply, ofBits_inf] at h1
  exact real_of_abs_lt_top (x i) h1

open Cert.Pre_finite_inputs in
/-- The precondition's 17-fold conjunction is 1: each of the five arrays the certificate reads as reals is finite
everywhere. -/
theorem real_of_pre [hP : Cert.Pre_finite_inputs.Facts]
    (x0 : FVec Ideal S100000x64 .f32) (x1 : FVec Ideal S1600000 .f32) (x2 : FVec Ideal S100000x128 .f32)
    (x3 : IVec S2x1600000 32) (x4 : FVec Ideal S64x128 .f32) (x5 : FVec Ideal S128 .f32)
    (x6 : FVec Ideal S64x128 .f32) (x7 : FVec Ideal S128 .f32) (x8 : FVec Ideal S64x128 .f32)
    (x9 : FVec Ideal S128 .f32) (x10 : FVec Ideal S256x128 .f32) (x11 : FVec Ideal S128 .f32)
    (x12 : FVec Ideal S256x128 .f32) (x13 : FVec Ideal S128 .f32) (x14 : FVec Ideal S256x128 .f32)
    (x15 : FVec Ideal S128 .f32) (x16 : FVec Ideal S128x64 .f32) (x17 : FVec Ideal S64 .f32)
    (h : Cert.Pre_finite_inputs.fn (F := Ideal) x0 x1 x2 x3 x4 x5 x6 x7 x8 x9 x10 x11 x12 x13 x14 x15 x16 x17
          = fun _ => 1#1) :
    (∀ i, ∃ r : ℝ, x0 i = (r : EReal)) ∧ (∀ i, ∃ r : ℝ, x1 i = (r : EReal)) ∧ (∀ i, ∃ r : ℝ, x4 i = (r : EReal))
      ∧ (∀ i, ∃ r : ℝ, x6 i = (r : EReal)) ∧ (∀ i, ∃ r : ℝ, x8 i = (r : EReal)) := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at h0
  simp only [IntOp.andi_eq_one] at h0
  obtain ⟨⟨⟨⟨⟨⟨⟨⟨⟨⟨⟨⟨⟨⟨⟨⟨b0, b1⟩, -⟩, b4⟩, -⟩, b6⟩, -⟩, b8⟩, -⟩, -⟩, -⟩, -⟩, -⟩, -⟩, -⟩, -⟩, -⟩ := h0
  exact ⟨all_finite x0 _ _ _ _ _ b0, all_finite x1 _ _ _ _ _ b1, all_finite x4 _ _ _ _ _ b4,
    all_finite x6 _ _ _ _ _ b6, all_finite x8 _ _ _ _ _ b8⟩

end Cert.Finite
-- ==== Proof.lean ====
/-
  The claims of this certificate.

  Both printed kernels run their one pipelined region at its 25 grid points after the host operations that build the
  region's operands; the region's body loads whole blocks, computes and stores whole blocks, so each run terminates,
  faults nowhere and leaves the argument arrays as they were. The idealization rewrote nothing.

  At the ideal values the kernel and the reference compute one function. Both build the same per-edge normalisation
  from the edge list and the edge weights. The kernel sums the normalised, gathered FEATURE rows per node once and
  multiplies the sum by the three projection matrices laid side by side; the reference multiplies the features by each
  projection matrix first and sums the normalised, gathered PRODUCT rows per node, once per gate. On real features,
  weights and matrices the two orders give the same entries (distributivity and an exchange of finite sums). The rest
  of the cell — two logistic gates, the candidate state, the blend and the output head — is the same row-by-row
  function on both sides: the kernel applies it block of rows by block of rows, the reference to the whole arrays, and
  the logistic function is one function whether applied as one operation or spelled with an exponential.
-/
import proofs.«124411_j62835371541091_2_alg».proof.Defs
import proofs.«124411_j62835371541091_2_alg».proof.Proof.Gen.Kernel
import proofs.«124411_j62835371541091_2_alg».proof.Proof.Gen.Kernel.Skeleton
import proofs.«124411_j62835371541091_2_alg».proof.Proof.Gen.Kernel.Launch
import proofs.«124411_j62835371541091_2_alg».proof.Proof.Gen.Kernel.Points
import proofs.«124411_j62835371541091_2_alg».proof.Proof.Gen.KernelIdeal
import proofs.«124411_j62835371541091_2_alg».proof.Proof.Gen.KernelIdeal.Skeleton
import proofs.«124411_j62835371541091_2_alg».proof.Proof.Gen.KernelIdeal.Launch
import proofs.«124411_j62835371541091_2_alg».proof.Proof.Gen.KernelIdeal.Points
import proofs.«124411_j62835371541091_2_alg».proof.Proof.Gen.ReferenceIdeal
import proofs.«124411_j62835371541091_2_alg».proof.Proof.Gen.Pre_finite_inputs
import proofs.«124411_j62835371541091_2_alg».proof.Proof.Gen.ReferenceIdeal.Run
import proofs.«124411_j62835371541091_2_alg».proof.Proof.Gen.ReferenceIdeal.Read
import proofs.«124411_j62835371541091_2_alg».proof.Proof.KernelFrame
import proofs.«124411_j62835371541091_2_alg».proof.Proof.KernelValue
import proofs.«124411_j62835371541091_2_alg».proof.Proof.Bridge
import proofs.«124411_j62835371541091_2_alg».proof.Proof.Finite
import Idealize.ShloMosaic.Adequacy
import Idealize.ShloMosaic.Init

noncomputable section

namespace Cert.Proof

open Idealize.ShloMosaic Idealize.SL.Sem

/-- The printed kernel runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- The kernel's new hidden state, with the aggregated array spelled as the host code computes it. -/
theorem HN_eq (m : (ℓ : Loc Cert.KernelIdeal.nD Cert.KernelIdeal.τ Cert.KernelIdeal.sig) → Buf (Elt Ideal) ℓ) (c : Dev Cert.KernelIdeal.nD) :
    Cert.KernelIdeal.Hand.HN m c
      = Cert.Cell.specH (Cert.Bridge.aggOf (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg3)))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15)) := by
  unfold Cert.KernelIdeal.Hand.HN
  rw [Cert.KernelIdeal.Hand.V_main_v47]

/-- At the ideal values the kernel's two results are `specY` and `specH` of its host-computed aggregated array and
    its arguments; so are the reference's, of arguments that agree, the float inputs being finite. -/
theorem algebraic : Cert.algebraic_KernelIdeal_ReferenceIdeal := by
  intro m ρ m' ρ' hpre hagree
  refine ⟨fun c => Cert.KernelIdeal.Hand.YY m c, fun c => Cert.KernelIdeal.Hand.HN m c, Cert.KernelIdeal.Hand.run_spec m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17⟩ := hagree c
  obtain ⟨hx0, hx1, hx4, hx6, hx8⟩ := Cert.Finite.real_of_pre _ _ _ _ _ _ _ _ _ _ _ _ _ _ _ _ _ _ (hpre c)
  refine ⟨(h c).1.trans ?_, (h c).2.1.trans ?_, (h c).2.2⟩
  · rw [Cert.ReferenceIdeal.Read.val_main_v167_eq, a0, a1, a2, a3, a4, a5, a6, a7, a8, a9, a10, a11, a12, a13, a14, a15, a16, a17]
    refine (Cert.Bridge.ref_Y _ _ _ _ _ _ _ _ _ _ _ _ _ _ _ _ _ _ hx0 hx1 hx4 hx6 hx8).trans ?_
    show _ = Cert.KernelIdeal.Hand.YY m c
    unfold Cert.KernelIdeal.Hand.YY
    rw [HN_eq]
  · rw [Cert.ReferenceIdeal.Read.val_main_v162_eq, a0, a1, a2, a3, a4, a5, a6, a7, a8, a9, a10, a11, a12, a13, a14, a15]
    exact (Cert.Bridge.ref_H _ _ _ _ _ _ _ _ _ _ _ _ _ _ _ _ hx0 hx1 hx4 hx6 hx8).trans (HN_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
